-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v221)) (v1 : (c : Dev Cert.KernelIdeal.nD) → Buf (Elt Ideal) ((c.tc : Thread Cert.KernelIdeal.nD Cert.KernelIdeal.τ).loc Cert.KernelIdeal.main_v222)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v221) = v0 c
          ∧ r.2.mem ((c.tc : Thread Cert.KernelIdeal.nD Cert.KernelIdeal.τ).loc Cert.KernelIdeal.main_v222) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_v283) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S20000x256 : Shape := ⟨2, ![20000, 256]⟩
abbrev S5000x256 : Shape := ⟨2, ![5000, 256]⟩
abbrev S32x256 : Shape := ⟨2, ![32, 256]⟩
abbrev S256 : Shape := ⟨1, ![256]⟩
abbrev S2x4x256x256 : Shape := ⟨4, ![2, 4, 256, 256]⟩
abbrev S2x4x256 : Shape := ⟨3, ![2, 4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S400000 : Shape := ⟨1, ![400000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S5000x256 : S_.BroadcastsInDim S5000x256 (![] : Fin 0 → Fin S5000x256.rank)
  reducesTo_S5000x256_S_d0_1 : S5000x256.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S2x4x256x256 : S_.BroadcastsInDim S2x4x256x256 (![] : Fin 0 → Fin S2x4x256x256.rank)
  reducesTo_S2x4x256x256_S_d0_1_2_3 : S2x4x256x256.ReducesTo [0, 1, 2, 3] S_
  bcast_S_S2x4x256 : S_.BroadcastsInDim S2x4x256 (![] : Fin 0 → Fin S2x4x256.rank)
  reducesTo_S2x4x256_S_d0_1_2 : S2x4x256.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128x1 .f32) (main_arg15 : FVec F S1 .f32) (main_v63 : IVec S_ 1) (main_v67 : IVec S_ 1) : IVec S_ 1 :=
  let main_v68 : IVec S_ 1 := andi main_v63 main_v67
  let main_v69 : FVec F S128x1 .f32 := Host.absf main_arg14
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S1 .f32) (main_arg12 : FVec F S256x128 .f32) (main_arg13 : FVec F S128 .f32) (main_arg14 : FVec F S128x1 .f32) (main_arg15 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S2x4x256x256 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_v33 : IVec S_ 1) : IVec S_ 1 :=
  let main_v34 : FVec F S2x4x256x256 .f32 := Host.absf main_arg7
  let main_cst_12 : FVec F S_ .f32 := constant S_ .f32 0x7F800000#32
  let main_v35 : FVec F S2x4x256x256 .f32 := broadcastInDim S2x4x256x256 ![] bcast_S_S2x4x256x256 main_cst_12
  let main_v36 : IVec S2x4x256x256 1 := cmpf .olt main_v34 main_v35
  let main_c_13 : IVec S_ 1 := constantI S_ 1 1#1
  let main_v37 : IVec S_ 1 := (fun x v => Host.reduce IntOp.andi x v reducesTo_S2x4x256x256_S_d0_1_2_3 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_arg12 main_arg13 main_arg14 main_arg15 main_v48 main_v49 main_v50

def fn_part1 {F : FTy → Type} [FloatOps F] (main_arg4 : FVec F S256 .f32) (main_arg5 : FVec F S2x4x256x256 .f32) (main_arg6 : FVec F S2x4x256 .f32) (main_arg7 : FVec F S2x4x256x256 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S2x4x256x256 .f32 := Host.absf main_arg5
  let main_cst_8 : FVec F S_ .f32 := constant S_ .f32 0x7F800000#32
  let main_v25 : FVec F S2x4x256x256 .f32 := broadcastInDim S2x4x256x256 ![] bcast_S_S2x4x256x256 main_cst_8
  let main_v26 : IVec S2x4x256x256 1 := cmpf .olt main_v24 main_v25
  let main_c_9 : IVec S_ 1 := constantI S_ 1 1#1
  let main_v27 : IVec S_ 1 := (fun x v => Host.reduce IntOp.andi x v reducesTo_S2x4x256x256_S_d0_1_2_3 h_S_) main_v26 main_c_9
  let main_v28 : IVec S_ 1 := andi main_v23 main_v27
  let main_v29 : FVec F S2x4x256 .f32 := Host.absf main_arg6
  let main_cst_10 : FVec F S_ .f32 := constant S_ .f32 0x7F800000#32
  let main_v30 : FVec F S2x4x256 .f32 := broadcastInDim S2x4x256 ![] bcast_S_S2x4x256 main_cst_10
  let main_v31 : IVec S2x4x256 1 := cmpf .olt main_v29 main_v30
  let main_c_11 : IVec S_ 1 := constantI S_ 1 1#1
  let main_v32 : IVec S_ 1 := (fun x v => Host.reduce IntOp.andi x v reducesTo_S2x4x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x32 .f32) (main_arg1 : FVec F S20000x256 .f32) (main_arg2 : FVec F S5000x256 .f32) (main_arg3 : FVec F S32x256 .f32) (main_arg4 : FVec F S256 .f32) (main_arg5 : FVec F S2x4x256x256 .f32) (main_arg6 : FVec F S2x4x256 .f32) (main_arg7 : FVec F S2x4x256x256 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_arg16 : IVec S400000 32) (main_arg17 : IVec S400000 32) (main_arg18 : IVec S400000 32) (main_arg19 : IVec S400000 32) (main_arg20 : IVec S400000 32) (main_arg21 : IVec S400000 32) (main_arg22 : IVec S400000 32) (main_arg23 : IVec S400000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S5000x256 .f32 := Host.absf main_arg2
  let main_cst_2 : FVec F S_ .f32 := constant S_ .f32 0x7F800000#32
  let main_v10 : FVec F S5000x256 .f32 := broadcastInDim S5000x256 ![] bcast_S_S5000x256 main_cst_2
  let main_v11 : IVec S5000x256 1 := cmpf .olt main_v9 main_v10
  let main_c_3 : IVec S_ 1 := constantI S_ 1 1#1
  let main_v12 : IVec S_ 1 := (fun x v => Host.reduce IntOp.andi x v reducesTo_S5000x256_S_d0_1 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x32 : Shape := ⟨2, ![100000, 32]⟩
abbrev S20000x256 : Shape := ⟨2, ![20000, 256]⟩
abbrev S5000x256 : Shape := ⟨2, ![5000, 256]⟩
abbrev S32x256 : Shape := ⟨2, ![32, 256]⟩
abbrev S256 : Shape := ⟨1, ![256]⟩
abbrev S2x4x256x256 : Shape := ⟨4, ![2, 4, 256, 256]⟩
abbrev S2x4x256 : Shape := ⟨3, ![2, 4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S400000 : Shape := ⟨1, ![400000]⟩
abbrev S1x256 : Shape := ⟨2, ![1, 256]⟩
abbrev S100000x256 : Shape := ⟨2, ![100000, 256]⟩
abbrev S400x32 : Shape := ⟨2, ![400, 32]⟩
abbrev S400x256 : Shape := ⟨2, ![400, 256]⟩
abbrev S_ : Shape := ⟨0, ![]⟩
abbrev S400000x1 : Shape := ⟨2, ![400000, 1]⟩
abbrev S400000x256 : Shape := ⟨2, ![400000, 256]⟩
abbrev S100000 : Shape := ⟨1, ![100000]⟩
abbrev S100000x1 : Shape := ⟨2, ![100000, 1]⟩
abbrev S5000 : Shape := ⟨1, ![5000]⟩
abbrev S5000x1 : Shape := ⟨2, ![5000, 1]⟩
abbrev S20000 : Shape := ⟨1, ![20000]⟩
abbrev S20000x1 : Shape := ⟨2, ![20000, 1]⟩
abbrev S1x1x256x256 : Shape := ⟨4, ![1, 1, 256, 256]⟩
abbrev S256x256 : Shape := ⟨2, ![256, 256]⟩
abbrev S1x1x256 : Shape := ⟨3, ![1, 1, 256]⟩
abbrev S200x256 : Shape := ⟨2, ![200, 256]⟩
abbrev S1x128 : Shape := ⟨2, ![1, 128]⟩
abbrev S1x1 : Shape := ⟨2, ![1, 1]⟩
abbrev S400x1 : Shape := ⟨2, ![400, 1]⟩
abbrev S400x128 : Shape := ⟨2, ![400, 128]⟩

abbrev nBuf : Space → Nat
  | .hbm => 296
  | .vmem => 84
  | .smem => 0
  | _ => 0

abbrev hbmTy0_0 (i : Nat) : BufTy := match i % 128 with
  | 0 => ⟨S100000x32, .f32⟩
  | 1 => ⟨S20000x256, .f32⟩
  | 2 => ⟨S5000x256, .f32⟩
  | 3 => ⟨S32x256, .f32⟩
  | 4 => ⟨S256, .f32⟩
  | 5 => ⟨S2x4x256x256, .f32⟩
  | 6 => ⟨S2x4x256, .f32⟩
  | 7 => ⟨S2x4x256x256, .f32⟩
  | 8 => ⟨S256x128, .f32⟩
  | 9 => ⟨S128, .f32⟩
  | 10 => ⟨S128x1, .f32⟩
  | 11 => ⟨S1, .f32⟩
  | 12 => ⟨S256x128, .f32⟩
  | 13 => ⟨S128, .f32⟩
  | 14 => ⟨S128x1, .f32⟩
  | 15 => ⟨S1, .f32⟩
  | 16 => ⟨S400000, .i32⟩
  | 17 => ⟨S400000, .i32⟩
  | 18 => ⟨S400000, .i32⟩
  | 19 => ⟨S400000, .i32⟩
  | 20 => ⟨S400000, .i32⟩
  | 21 => ⟨S400000, .i32⟩
  | 22 => ⟨S400000, .i32⟩
  | 23 => ⟨S400000, .i32⟩
  | 24 => ⟨S1x256, .f32⟩
  | 25 => ⟨S100000x256, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x256, .f32⟩
  | 35 => ⟨S_, .f32⟩
  | 36 => ⟨S100000x256, .f32⟩
  | 37 => ⟨S400000x1, .i32⟩
  | 38 => ⟨S100000x256, .f32⟩
  | 39 => ⟨S_, .f32⟩
  | 40 => ⟨S400000, .f32⟩
  | 41 => ⟨S_, .f32⟩
  | 42 => ⟨S100000, .f32⟩
  | 43 => ⟨S400000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x256, .f32⟩
  | 50 => ⟨S100000x256, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x256, .f32⟩
  | 60 => ⟨S_, .f32⟩
  | 61 => ⟨S100000x256, .f32⟩
  | 62 => ⟨S400000x1, .i32⟩
  | 63 => ⟨S100000x256, .f32⟩
  | 64 => ⟨S_, .f32⟩
  | 65 => ⟨S400000, .f32⟩
  | 66 => ⟨S_, .f32⟩
  | 67 => ⟨S100000, .f32⟩
  | 68 => ⟨S400000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x256, .f32⟩
  | 75 => ⟨S100000x256, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x256, .f32⟩
  | 85 => ⟨S_, .f32⟩
  | 86 => ⟨S5000x256, .f32⟩
  | 87 => ⟨S400000x1, .i32⟩
  | 88 => ⟨S5000x256, .f32⟩
  | 89 => ⟨S_, .f32⟩
  | 90 => ⟨S400000, .f32⟩
  | 91 => ⟨S_, .f32⟩
  | 92 => ⟨S5000, .f32⟩
  | 93 => ⟨S400000x1, .i32⟩
  | 94 => ⟨S5000, .f32⟩
  | 95 => ⟨S_, .f32⟩
  | 96 => ⟨S5000, .f32⟩
  | 97 => ⟨S5000, .f32⟩
  | 98 => ⟨S5000x1, .f32⟩
  | 99 => ⟨S5000x256, .f32⟩
  | 100 => ⟨S5000x256, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x256, .f32⟩
  | 110 => ⟨S_, .f32⟩
  | 111 => ⟨S20000x256, .f32⟩
  | 112 => ⟨S400000x1, .i32⟩
  | 113 => ⟨S20000x256, .f32⟩
  | 114 => ⟨S_, .f32⟩
  | 115 => ⟨S400000, .f32⟩
  | 116 => ⟨S_, .f32⟩
  | 117 => ⟨S20000, .f32⟩
  | 118 => ⟨S400000x1, .i32⟩
  | 119 => ⟨S20000, .f32⟩
  | 120 => ⟨S_, .f32⟩
  | 121 => ⟨S20000, .f32⟩
  | 122 => ⟨S20000, .f32⟩
  | 123 => ⟨S20000x1, .f32⟩
  | 124 => ⟨S20000x256, .f32⟩
  | 125 => ⟨S20000x256, .f32⟩
  | 126 => ⟨S1x1x256x256, .f32⟩
  | 127 => ⟨S256x256, .f32⟩
  | _ => ⟨S100000x32, .f32⟩

abbrev hbmTy0_1 (i : Nat) : BufTy := match i % 128 with
  | 0 => ⟨S1x1x256, .f32⟩
  | 1 => ⟨S256, .f32⟩
  | 2 => ⟨S1x1x256x256, .f32⟩
  | 3 => ⟨S256x256, .f32⟩
  | 4 => ⟨S1x1x256x256, .f32⟩
  | 5 => ⟨S256x256, .f32⟩
  | 6 => ⟨S1x1x256, .f32⟩
  | 7 => ⟨S256, .f32⟩
  | 8 => ⟨S1x1x256x256, .f32⟩
  | 9 => ⟨S256x256, .f32⟩
  | 10 => ⟨S1x256, .f32⟩
  | 11 => ⟨S1x256, .f32⟩
  | 12 => ⟨S100000x256, .f32⟩
  | 13 => ⟨S1x1x256x256, .f32⟩
  | 14 => ⟨S256x256, .f32⟩
  | 15 => ⟨S1x1x256, .f32⟩
  | 16 => ⟨S256, .f32⟩
  | 17 => ⟨S1x1x256x256, .f32⟩
  | 18 => ⟨S256x256, .f32⟩
  | 19 => ⟨S1x256, .f32⟩
  | 20 => ⟨S5000x256, .f32⟩
  | 21 => ⟨S1x1x256x256, .f32⟩
  | 22 => ⟨S256x256, .f32⟩
  | 23 => ⟨S1x1x256, .f32⟩
  | 24 => ⟨S256, .f32⟩
  | 25 => ⟨S1x1x256x256, .f32⟩
  | 26 => ⟨S256x256, .f32⟩
  | 27 => ⟨S1x256, .f32⟩
  | 28 => ⟨S20000x256, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x256, .f32⟩
  | 38 => ⟨S_, .f32⟩
  | 39 => ⟨S100000x256, .f32⟩
  | 40 => ⟨S400000x1, .i32⟩
  | 41 => ⟨S100000x256, .f32⟩
  | 42 => ⟨S_, .f32⟩
  | 43 => ⟨S400000, .f32⟩
  | 44 => ⟨S_, .f32⟩
  | 45 => ⟨S100000, .f32⟩
  | 46 => ⟨S400000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x256, .f32⟩
  | 53 => ⟨S100000x256, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x256, .f32⟩
  | 63 => ⟨S_, .f32⟩
  | 64 => ⟨S100000x256, .f32⟩
  | 65 => ⟨S400000x1, .i32⟩
  | 66 => ⟨S100000x256, .f32⟩
  | 67 => ⟨S_, .f32⟩
  | 68 => ⟨S400000, .f32⟩
  | 69 => ⟨S_, .f32⟩
  | 70 => ⟨S100000, .f32⟩
  | 71 => ⟨S400000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x256, .f32⟩
  | 78 => ⟨S100000x256, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x256, .f32⟩
  | 88 => ⟨S_, .f32⟩
  | 89 => ⟨S5000x256, .f32⟩
  | 90 => ⟨S400000x1, .i32⟩
  | 91 => ⟨S5000x256, .f32⟩
  | 92 => ⟨S_, .f32⟩
  | 93 => ⟨S400000, .f32⟩
  | 94 => ⟨S_, .f32⟩
  | 95 => ⟨S5000, .f32⟩
  | 96 => ⟨S400000x1, .i32⟩
  | 97 => ⟨S5000, .f32⟩
  | 98 => ⟨S_, .f32⟩
  | 99 => ⟨S5000, .f32⟩
  | 100 => ⟨S5000, .f32⟩
  | 101 => ⟨S5000x1, .f32⟩
  | 102 => ⟨S5000x256, .f32⟩
  | 103 => ⟨S5000x256, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x256, .f32⟩
  | 113 => ⟨S_, .f32⟩
  | 114 => ⟨S20000x256, .f32⟩
  | 115 => ⟨S400000x1, .i32⟩
  | 116 => ⟨S20000x256, .f32⟩
  | 117 => ⟨S_, .f32⟩
  | 118 => ⟨S400000, .f32⟩
  | 119 => ⟨S_, .f32⟩
  | 120 => ⟨S20000, .f32⟩
  | 121 => ⟨S400000x1, .i32⟩
  | 122 => ⟨S20000, .f32⟩
  | 123 => ⟨S_, .f32⟩
  | 124 => ⟨S20000, .f32⟩
  | 125 => ⟨S20000, .f32⟩
  | 126 => ⟨S20000x1, .f32⟩
  | 127 => ⟨S20000x256, .f32⟩
  | _ => ⟨S100000x32, .f32⟩

abbrev hbmTy0_2 (i : Nat) : BufTy := match i % 128 with
  | 0 => ⟨S20000x256, .f32⟩
  | 1 => ⟨S1x1x256x256, .f32⟩
  | 2 => ⟨S256x256, .f32⟩
  | 3 => ⟨S1x1x256, .f32⟩
  | 4 => ⟨S256, .f32⟩
  | 5 => ⟨S1x1x256x256, .f32⟩
  | 6 => ⟨S256x256, .f32⟩
  | 7 => ⟨S1x1x256x256, .f32⟩
  | 8 => ⟨S256x256, .f32⟩
  | 9 => ⟨S1x1x256, .f32⟩
  | 10 => ⟨S256, .f32⟩
  | 11 => ⟨S1x1x256x256, .f32⟩
  | 12 => ⟨S256x256, .f32⟩
  | 13 => ⟨S1x256, .f32⟩
  | 14 => ⟨S1x256, .f32⟩
  | 15 => ⟨S100000x256, .f32⟩
  | 16 => ⟨S1x1x256x256, .f32⟩
  | 17 => ⟨S256x256, .f32⟩
  | 18 => ⟨S1x1x256, .f32⟩
  | 19 => ⟨S256, .f32⟩
  | 20 => ⟨S1x1x256x256, .f32⟩
  | 21 => ⟨S256x256, .f32⟩
  | 22 => ⟨S1x256, .f32⟩
  | 23 => ⟨S5000x256, .f32⟩
  | 24 => ⟨S1x1x256x256, .f32⟩
  | 25 => ⟨S256x256, .f32⟩
  | 26 => ⟨S1x1x256, .f32⟩
  | 27 => ⟨S256, .f32⟩
  | 28 => ⟨S1x1x256x256, .f32⟩
  | 29 => ⟨S256x256, .f32⟩
  | 30 => ⟨S1x256, .f32⟩
  | 31 => ⟨S20000x256, .f32⟩
  | 32 => ⟨S1x128, .f32⟩
  | 33 => ⟨S1x1, .f32⟩
  | 34 => ⟨S1x128, .f32⟩
  | 35 => ⟨S1x1, .f32⟩
  | 36 => ⟨S100000x1, .f32⟩
  | 37 => ⟨S100000x1, .f32⟩
  | 38 => ⟨S100000, .f32⟩
  | 39 => ⟨S100000, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | .local _ .vmem, ⟨0, _⟩ => ⟨S400x32, .f32⟩
  | .local _ .vmem, ⟨1, _⟩ => ⟨S400x32, .f32⟩
  | .local _ .vmem, ⟨2, _⟩ => ⟨S32x256, .f32⟩
  | .local _ .vmem, ⟨3, _⟩ => ⟨S1x256, .f32⟩
  | .local _ .vmem, ⟨4, _⟩ => ⟨S400x256, .f32⟩
  | .local _ .vmem, ⟨5, _⟩ => ⟨S400x256, .f32⟩
  | .local _ .vmem, ⟨6, _⟩ => ⟨S400x256, .f32⟩
  | .local _ .vmem, ⟨7, _⟩ => ⟨S400x256, .f32⟩
  | .local _ .vmem, ⟨8, _⟩ => ⟨S400x256, .f32⟩
  | .local _ .vmem, ⟨9, _⟩ => ⟨S400x256, .f32⟩
  | .local _ .vmem, ⟨10, _⟩ => ⟨S400x256, .f32⟩
  | .local _ .vmem, ⟨11, _⟩ => ⟨S400x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S400x256, .f32⟩
  | .local _ .vmem, ⟨19, _⟩ => ⟨S400x256, .f32⟩
  | .local _ .vmem, ⟨20, _⟩ => ⟨S200x256, .f32⟩
  | .local _ .vmem, ⟨21, _⟩ => ⟨S200x256, .f32⟩
  | .local _ .vmem, ⟨22, _⟩ => ⟨S200x256, .f32⟩
  | .local _ .vmem, ⟨23, _⟩ => ⟨S200x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S200x256, .f32⟩
  | .local _ .vmem, ⟨28, _⟩ => ⟨S200x256, .f32⟩
  | .local _ .vmem, ⟨29, _⟩ => ⟨S400x256, .f32⟩
  | .local _ .vmem, ⟨30, _⟩ => ⟨S400x256, .f32⟩
  | .local _ .vmem, ⟨31, _⟩ => ⟨S400x256, .f32⟩
  | .local _ .vmem, ⟨32, _⟩ => ⟨S400x256, .f32⟩
  | .local _ .vmem, ⟨33, _⟩ => ⟨S256x256, .f32⟩
  | .local _ .vmem, ⟨34, _⟩ => ⟨S1x256, .f32⟩
  | .local _ .vmem, ⟨35, _⟩ => ⟨S256x256, .f32⟩
  | .local _ .vmem, ⟨36, _⟩ => ⟨S400x256, .f32⟩
  | .local _ .vmem, ⟨37, _⟩ => ⟨S400x256, .f32⟩
  | .local _ .vmem, ⟨38, _⟩ => ⟨S400x256, .f32⟩
  | .local _ .vmem, ⟨39, _⟩ => ⟨S400x256, .f32⟩
  | .local _ .vmem, ⟨40, _⟩ => ⟨S400x256, .f32⟩
  | .local _ .vmem, ⟨41, _⟩ => ⟨S400x256, .f32⟩
  | .local _ .vmem, ⟨42, _⟩ => ⟨S400x256, .f32⟩
  | .local _ .vmem, ⟨43, _⟩ => ⟨S400x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S256x256, .f32⟩
  | .local _ .vmem, ⟨48, _⟩ => ⟨S1x256, .f32⟩
  | .local _ .vmem, ⟨49, _⟩ => ⟨S256x256, .f32⟩
  | .local _ .vmem, ⟨50, _⟩ => ⟨S400x256, .f32⟩
  | .local _ .vmem, ⟨51, _⟩ => ⟨S400x256, .f32⟩
  | .local _ .vmem, ⟨52, _⟩ => ⟨S200x256, .f32⟩
  | .local _ .vmem, ⟨53, _⟩ => ⟨S200x256, .f32⟩
  | .local _ .vmem, ⟨54, _⟩ => ⟨S200x256, .f32⟩
  | .local _ .vmem, ⟨55, _⟩ => ⟨S200x256, .f32⟩
  | .local _ .vmem, ⟨56, _⟩ => ⟨S256x256, .f32⟩
  | .local _ .vmem, ⟨57, _⟩ => ⟨S1x256, .f32⟩
  | .local _ .vmem, ⟨58, _⟩ => ⟨S256x256, .f32⟩
  | .local _ .vmem, ⟨59, _⟩ => ⟨S200x256, .f32⟩
  | .local _ .vmem, ⟨60, _⟩ => ⟨S200x256, .f32⟩
  | .local _ .vmem, ⟨61, _⟩ => ⟨S400x256, .f32⟩
  | .local _ .vmem, ⟨62, _⟩ => ⟨S400x256, .f32⟩
  | .local _ .vmem, ⟨63, _⟩ => ⟨S400x256, .f32⟩
  | .local _ .vmem, ⟨64, _⟩ => ⟨S400x256, .f32⟩
  | .local _ .vmem, ⟨65, _⟩ => ⟨S256x256, .f32⟩
  | .local _ .vmem, ⟨66, _⟩ => ⟨S1x256, .f32⟩
  | .local _ .vmem, ⟨67, _⟩ => ⟨S256x256, .f32⟩
  | .local _ .vmem, ⟨68, _⟩ => ⟨S400x256, .f32⟩
  | .local _ .vmem, ⟨69, _⟩ => ⟨S400x256, .f32⟩
  | .local _ .vmem, ⟨70, _⟩ => ⟨S400x256, .f32⟩
  | .local _ .vmem, ⟨71, _⟩ => ⟨S400x256, .f32⟩
  | .local _ .vmem, ⟨72, _⟩ => ⟨S256x128, .f32⟩
  | .local _ .vmem, ⟨73, _⟩ => ⟨S1x128, .f32⟩
  | .local _ .vmem, ⟨74, _⟩ => ⟨S128x1, .f32⟩
  | .local _ .vmem, ⟨75, _⟩ => ⟨S1x1, .f32⟩
  | .local _ .vmem, ⟨76, _⟩ => ⟨S256x128, .f32⟩
  | .local _ .vmem, ⟨77, _⟩ => ⟨S1x128, .f32⟩
  | .local _ .vmem, ⟨78, _⟩ => ⟨S128x1, .f32⟩
  | .local _ .vmem, ⟨79, _⟩ => ⟨S1x1, .f32⟩
  | .local _ .vmem, ⟨80, _⟩ => ⟨S400x1, .f32⟩
  | .local _ .vmem, ⟨81, _⟩ => ⟨S400x1, .f32⟩
  | .local _ .vmem, ⟨82, _⟩ => ⟨S400x1, .f32⟩
  | .local _ .vmem, ⟨83, _⟩ => ⟨S400x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_7 : Ref sig .tc := ⟨.hbm, 64, rfl⟩
abbrev main_v31 : Ref sig .tc := ⟨.hbm, 65, rfl⟩
abbrev main_cst_8 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_9 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_16 : Ref sig .tc := ⟨.hbm, 101, rfl⟩
abbrev main_v59 : Ref sig .tc := ⟨.hbm, 102, rfl⟩
abbrev main_v60 : Ref sig .tc := ⟨.hbm, 103, rfl⟩
abbrev main_c_17 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_18 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_19 : Ref sig .tc := ⟨.hbm, 114, rfl⟩
abbrev main_v69 : Ref sig .tc := ⟨.hbm, 115, rfl⟩
abbrev main_cst_20 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_21 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_22 : Ref sig .tc := ⟨.hbm, 157, rfl⟩
abbrev main_v109 : Ref sig .tc := ⟨.hbm, 158, rfl⟩
abbrev main_v110 : Ref sig .tc := ⟨.hbm, 159, rfl⟩
abbrev main_c_23 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_24 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_25 : Ref sig .tc := ⟨.hbm, 170, rfl⟩
abbrev main_v119 : Ref sig .tc := ⟨.hbm, 171, rfl⟩
abbrev main_cst_26 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_27 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_28 : Ref sig .tc := ⟨.hbm, 182, rfl⟩
abbrev main_v128 : Ref sig .tc := ⟨.hbm, 183, rfl⟩
abbrev main_v129 : Ref sig .tc := ⟨.hbm, 184, rfl⟩
abbrev main_c_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_30 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_31 : Ref sig .tc := ⟨.hbm, 195, rfl⟩
abbrev main_v138 : Ref sig .tc := ⟨.hbm, 196, rfl⟩
abbrev main_cst_32 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_33 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_c_34 : Ref sig .tc := ⟨.hbm, 207, rfl⟩
abbrev main_v147 : Ref sig .tc := ⟨.hbm, 208, rfl⟩
abbrev main_v148 : Ref sig .tc := ⟨.hbm, 209, rfl⟩
abbrev main_c_35 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_36 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_37 : Ref sig .tc := ⟨.hbm, 220, rfl⟩
abbrev main_v157 : Ref sig .tc := ⟨.hbm, 221, rfl⟩
abbrev main_cst_38 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_39 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_c_40 : Ref sig .tc := ⟨.hbm, 232, rfl⟩
abbrev main_v166 : Ref sig .tc := ⟨.hbm, 233, rfl⟩
abbrev main_v167 : Ref sig .tc := ⟨.hbm, 234, rfl⟩
abbrev main_c_41 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_42 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_cst_43 : Ref sig .tc := ⟨.hbm, 245, rfl⟩
abbrev main_v176 : Ref sig .tc := ⟨.hbm, 246, rfl⟩
abbrev main_cst_44 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_cst_45 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220_0 : Ref sig .tc := ⟨.hbm, 292, rfl⟩
abbrev main_v220_1 : Ref sig .tc := ⟨.hbm, 293, rfl⟩
abbrev main_v221 : Ref sig .tc := ⟨.hbm, 294, rfl⟩
abbrev main_v222 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg9_0 : Ref sig .tc := ⟨.vmem, 50, rfl⟩
abbrev cc4_stg9_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg5_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg5_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg8_0 : Ref sig .tc := ⟨.vmem, 79, rfl⟩
abbrev cc7_stg9_0 : Ref sig .tc := ⟨.vmem, 80, rfl⟩
abbrev cc7_stg9_1 : Ref sig .tc := ⟨.vmem, 81, rfl⟩
abbrev cc7_stg10_0 : Ref sig .tc := ⟨.vmem, 82, rfl⟩
abbrev cc7_stg10_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem9_0 : DmaSem sig := 50
abbrev cc4_sem9_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem5_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem5_1 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc7_sem8_0 : DmaSem sig := 79
abbrev cc7_sem9_0 : DmaSem sig := 80
abbrev cc7_sem9_1 : DmaSem sig := 81
abbrev cc7_sem10_0 : DmaSem sig := 82
abbrev cc7_sem10_1 : DmaSem sig := 83

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S200x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S400x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S400x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S256x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S400x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S200x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S200x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S400x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S400x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S400x1 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S400x1 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

class Facts₀ : Prop where
  shapeCasts_S256_S1x256 : S256.ShapeCasts S1x256
  inb_S400x32_S400x32_0_0 : ∀ a, (![0, 0] : Fin 2 → Nat) a + S400x32.size a ≤ S400x32.size a
  h_S400x32 : 0 < S400x32.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  bcast_S_S400000 : S_.BroadcastsInDim S400000 (![] : Fin 0 → Fin S400000.rank)
  bcast_S400000_S400000x1_0 : S400000.BroadcastsInDim S400000x1 (![0] : Fin 1 → Fin S400000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S5000x256 : S_.BroadcastsInDim S5000x256 (![] : Fin 0 → Fin S5000x256.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S2x4x256x256_S1x1x256x256_0_0_0_0 : S2x4x256x256.Slices ![0, 0, 0, 0] S1x1x256x256
  shapeCasts_S1x1x256x256_S256x256 : S1x1x256x256.ShapeCasts S256x256
  slices_S2x4x256_S1x1x256_0_0_0 : S2x4x256.Slices ![0, 0, 0] S1x1x256
  shapeCasts_S1x1x256_S256 : S1x1x256.ShapeCasts S256
  slices_S2x4x256x256_S1x1x256x256_0_2_0_0 : S2x4x256x256.Slices ![0, 2, 0, 0] S1x1x256x256
  slices_S2x4x256_S1x1x256_0_2_0 : S2x4x256.Slices ![0, 2, 0] S1x1x256
  shapeCasts_S400x256_S400x256 : S400x256.ShapeCasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x4x256x256_S1x1x256x256_0_1_0_0 : S2x4x256x256.Slices ![0, 1, 0, 0] S1x1x256x256
  slices_S2x4x256_S1x1x256_0_1_0 : S2x4x256.Slices ![0, 1, 0] S1x1x256
  inb_S200x256_S200x256_0_0 : ∀ a, (![0, 0] : Fin 2 → Nat) a + S200x256.size a ≤ S200x256.size a
  h_S200x256 : 0 < S200x256.numel
  shapeCasts_S200x256_S200x256 : S200x256.ShapeCasts S200x256
  broadcasts_S1x256_S200x256 : S1x256.Broadcasts S200x256
  slices_S2x4x256x256_S1x1x256x256_0_3_0_0 : S2x4x256x256.Slices ![0, 3, 0, 0] S1x1x256x256
  slices_S2x4x256_S1x1x256_0_3_0 : S2x4x256.Slices ![0, 3, 0] S1x1x256
  slices_S2x4x256x256_S1x1x256x256_1_0_0_0 : S2x4x256x256.Slices ![1, 0, 0, 0] S1x1x256x256
  slices_S2x4x256_S1x1x256_1_0_0 : S2x4x256.Slices ![1, 0, 0] S1x1x256
  slices_S2x4x256x256_S1x1x256x256_1_2_0_0 : S2x4x256x256.Slices ![1, 2, 0, 0] S1x1x256x256
  slices_S2x4x256_S1x1x256_1_2_0 : S2x4x256.Slices ![1, 2, 0] S1x1x256
  slices_S2x4x256x256_S1x1x256x256_1_1_0_0 : S2x4x256x256.Slices ![1, 1, 0, 0] S1x1x256x256
  slices_S2x4x256_S1x1x256_1_1_0 : S2x4x256.Slices ![1, 1, 0] S1x1x256
  slices_S2x4x256x256_S1x1x256x256_1_3_0_0 : S2x4x256x256.Slices ![1, 3, 0, 0] S1x1x256x256
  slices_S2x4x256_S1x1x256_1_3_0 : S2x4x256.Slices ![1, 3, 0] S1x1x256
  shapeCasts_S128_S1x128 : S128.ShapeCasts S1x128
  shapeCasts_S1_S1x1 : S1.ShapeCasts S1x1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  shapeCasts_S100000x1_S100000 : S100000x1.ShapeCasts S100000
  dot_S400x32_S32x256_S400x256_1_0_0_1_n_n_wf : DotDims.WF S400x32 S32x256 S400x256 [1] [0] [0] [1] [] []
  gather_S20000x256_S400000x1_S400000x256_1_0_n_n_0_1_1256_wf : GatherDims.WF S20000x256 S400000x1 S400000x256 [1] [0] [] [0] [] 1 ![1, 256]
  scatter_S100000x256_S400000x1_S400000x256_1_0_0_1_wf : ScatterDims.WF S100000x256 S400000x1 S400000x256 [1] [0] [0] 1
  scatter_S100000_S400000x1_S400000_n_0_0_1_wf : ScatterDims.WF S100000 S400000x1 S400000 [] [0] [0] 1
  gather_S5000x256_S400000x1_S400000x256_1_0_n_n_0_1_1256_wf : GatherDims.WF S5000x256 S400000x1 S400000x256 [1] [0] [] [0] [] 1 ![1, 256]
  gather_S100000x256_S400000x1_S400000x256_1_0_n_n_0_1_1256_wf : GatherDims.WF S100000x256 S400000x1 S400000x256 [1] [0] [] [0] [] 1 ![1, 256]
  scatter_S5000x256_S400000x1_S400000x256_1_0_0_1_wf : ScatterDims.WF S5000x256 S400000x1 S400000x256 [1] [0] [0] 1
  scatter_S5000_S400000x1_S400000_n_0_0_1_wf : ScatterDims.WF S5000 S400000x1 S400000 [] [0] [0] 1
  scatter_S20000x256_S400000x1_S400000x256_1_0_0_1_wf : ScatterDims.WF S20000x256 S400000x1 S400000x256 [1] [0] [0] 1
  scatter_S20000_S400000x1_S400000_n_0_0_1_wf : ScatterDims.WF S20000 S400000x1 S400000 [] [0] [0] 1
  dot_S400x256_S256x256_S400x256_1_0_0_1_n_n_wf : DotDims.WF S400x256 S256x256 S400x256 [1] [0] [0] [1] [] []
  dot_S200x256_S256x256_S200x256_1_0_0_1_n_n_wf : DotDims.WF S200x256 S256x256 S200x256 [1] [0] [0] [1] [] []
  dot_S400x256_S256x128_S400x128_1_0_0_1_n_n_wf : DotDims.WF S400x256 S256x128 S400x128 [1] [0] [0] [1] [] []
  dot_S400x128_S128x1_S400x1_1_0_0_1_n_n_wf : DotDims.WF S400x128 S128x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32.size a ≤ S100000x32.size a
  hwx0_0 : ∀ i : grid0.Coords, EltTy.bits .f32 = 32 ∨ (Rect.block (s := S100000x32) S400x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S100000x256.size a
  hwx0_3 : ∀ i : grid0.Coords, EltTy.bits .f32 = 32 ∨ (Rect.block (s := S100000x256) S400x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x256.size a ≤ S100000x256.size a
  hwx1_0 : ∀ i : grid1.Coords, EltTy.bits .f32 = 32 ∨ (Rect.block (s := S100000x256) S400x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x256.size a ≤ S100000x256.size a
  hwx1_1 : ∀ i : grid1.Coords, EltTy.bits .f32 = 32 ∨ (Rect.block (s := S100000x256) S400x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S100000x256.size a
  hwx1_2 : ∀ i : grid1.Coords, EltTy.bits .f32 = 32 ∨ (Rect.block (s := S100000x256) S400x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x256.size a ≤ S100000x256.size a
  hwx1_9 : ∀ i : grid1.Coords, EltTy.bits .f32 = 32 ∨ (Rect.block (s := S100000x256) S400x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x256.size a ≤ S5000x256.size a
  hwx2_0 : ∀ i : grid2.Coords, EltTy.bits .f32 = 32 ∨ (Rect.block (s := S5000x256) S200x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x256.size a ≤ S5000x256.size a
  hwx2_1 : ∀ i : grid2.Coords, EltTy.bits .f32 = 32 ∨ (Rect.block (s := S5000x256) S200x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S200x256.size a ≤ S5000x256.size a
  hwx2_5 : ∀ i : grid2.Coords, EltTy.bits .f32 = 32 ∨ (Rect.block (s := S5000x256) S200x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x256.size a ≤ S20000x256.size a
  hwx3_0 : ∀ i : grid3.Coords, EltTy.bits .f32 = 32 ∨ (Rect.block (s := S20000x256) S400x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x256.size a ≤ S20000x256.size a
  hwx3_1 : ∀ i : grid3.Coords, EltTy.bits .f32 = 32 ∨ (Rect.block (s := S20000x256) S400x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S400x256.size a ≤ S20000x256.size a
  hwx3_5 : ∀ i : grid3.Coords, EltTy.bits .f32 = 32 ∨ (Rect.block (s := S20000x256) S400x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x256.size a ≤ S100000x256.size a
  hwx4_0 : ∀ i : grid4.Coords, EltTy.bits .f32 = 32 ∨ (Rect.block (s := S100000x256) S400x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S400x256.size a ≤ S100000x256.size a
  hwx4_1 : ∀ i : grid4.Coords, EltTy.bits .f32 = 32 ∨ (Rect.block (s := S100000x256) S400x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x256.size a ≤ S100000x256.size a
  hwx4_2 : ∀ i : grid4.Coords, EltTy.bits .f32 = 32 ∨ (Rect.block (s := S100000x256) S400x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x256.size a ≤ S256x256.size a
  hwx4_6 : ∀ i : grid4.Coords, EltTy.bits .f32 = 32 ∨ (Rect.block (s := S256x256) S256x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S256x256.size a ≤ S256x256.size a
  hwx4_8 : ∀ i : grid4.Coords, EltTy.bits .f32 = 32 ∨ (Rect.block (s := S256x256) S256x256.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S400x256.size a ≤ S100000x256.size a
  hwx4_9 : ∀ i : grid4.Coords, EltTy.bits .f32 = 32 ∨ (Rect.block (s := S100000x256) S400x256.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x256.size a ≤ S5000x256.size a
  hwx5_0 : ∀ i : grid5.Coords, EltTy.bits .f32 = 32 ∨ (Rect.block (s := S5000x256) S200x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S200x256.size a ≤ S5000x256.size a
  hwx5_1 : ∀ i : grid5.Coords, EltTy.bits .f32 = 32 ∨ (Rect.block (s := S5000x256) S200x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S200x256.size a ≤ S5000x256.size a
  hwx5_5 : ∀ i : grid5.Coords, EltTy.bits .f32 = 32 ∨ (Rect.block (s := S5000x256) S200x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x256.size a ≤ S20000x256.size a
  hwx6_0 : ∀ i : grid6.Coords, EltTy.bits .f32 = 32 ∨ (Rect.block (s := S20000x256) S400x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S400x256.size a ≤ S20000x256.size a
  hwx6_1 : ∀ i : grid6.Coords, EltTy.bits .f32 = 32 ∨ (Rect.block (s := S20000x256) S400x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S400x256.size a ≤ S20000x256.size a
  hwx6_5 : ∀ i : grid6.Coords, EltTy.bits .f32 = 32 ∨ (Rect.block (s := S20000x256) S400x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x256.size a ≤ S100000x256.size a
  hwx7_0 : ∀ i : grid7.Coords, EltTy.bits .f32 = 32 ∨ (Rect.block (s := S100000x256) S400x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x128.size a ≤ S256x128.size a
  hwx7_5 : ∀ i : grid7.Coords, EltTy.bits .f32 = 32 ∨ (Rect.block (s := S256x128) S256x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x1.size a ≤ S128x1.size a
  hwx7_7 : ∀ i : grid7.Coords, EltTy.bits .f32 = 32 ∨ (Rect.block (s := S128x1) S128x1.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x1.size a ≤ S1x1.size a
  hwx7_8 : ∀ i : grid7.Coords, EltTy.bits .f32 = 32 ∨ (Rect.block (s := S1x1) S1x1.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S400x1.size a ≤ S100000x1.size a
  hwx7_9 : ∀ i : grid7.Coords, EltTy.bits .f32 = 32 ∨ (Rect.block (s := S100000x1) S400x1.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S400x1.size a ≤ S100000x1.size a
  hwx7_10 : ∀ i : grid7.Coords, EltTy.bits .f32 = 32 ∨ (Rect.block (s := S100000x1) S400x1.size (cc7_transform_10 i) (hinb7_10 i)).WholeWords (EltTy.packing .f32)

variable [Facts₀]

def dot_S400x32_S32x256_S400x256_1_0_0_1_n_n : DotDims S400x32 S32x256 S400x256 where
  lhsContracting := [1]
  rhsContracting := [0]
  lhsNonContracting := [0]
  rhsNonContracting := [1]
  lhsBatch := []
  rhsBatch := []
  wf := dot_S400x32_S32x256_S400x256_1_0_0_1_n_n_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S5000x256_S400000x1_S400000x256_1_0_n_n_0_1_1256 : GatherDims S5000x256 S400000x1 S400000x256 where
  offsetDims := [1]
  collapsedSliceDims := [0]
  operandBatchingDims := []
  startIndicesBatchingDims := []
  startIndexMap := [0]
  indexVectorDim := 1
  sliceSizes := ![1, 256]
  wf := gather_S5000x256_S400000x1_S400000x256_1_0_n_n_0_1_1256_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S5000x256_S400000x1_S400000x256_1_0_0_1 : ScatterDims S5000x256 S400000x1 S400000x256 where
  updateWindowDims := [1]
  insertedWindowDims := [0]
  scatterDimsToOperandDims := [0]
  indexVectorDim := 1
  wf := scatter_S5000x256_S400000x1_S400000x256_1_0_0_1_wf
def scatter_S5000_S400000x1_S400000_n_0_0_1 : ScatterDims S5000 S400000x1 S400000 where
  updateWindowDims := []
  insertedWindowDims := [0]
  scatterDimsToOperandDims := [0]
  indexVectorDim := 1
  wf := scatter_S5000_S400000x1_S400000_n_0_0_1_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x1_S400x1_1_0_0_1_n_n : DotDims S400x128 S128x1 S400x1 where
  lhsContracting := [1]
  rhsContracting := [0]
  lhsNonContracting := [0]
  rhsNonContracting := [1]
  lhsBatch := []
  rhsBatch := []
  wf := dot_S400x128_S128x1_S400x1_1_0_0_1_n_n_wf

abbrev win0_0 : Pipeline.Window sig grid0 :=
  Pipeline.Window.ofSpec (Memref.whole main_arg0) S400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S400x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v79) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v90) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v83) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v85) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v91) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v89) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v92) S400x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v58) S200x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S200x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v99) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v98) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v100) S200x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S400x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S400x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v102) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v107) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v106) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v108) S400x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v127) S400x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v146) S400x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S400x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v186) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v197) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v190) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v192) S256x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v198) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v196) S256x256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v199) S400x256.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v165) S200x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S200x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v201) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v206) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v205) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v207) S200x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v184) S400x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S400x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v209) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v214) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v213) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v215) S400x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v199) S400x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v216) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg10) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v217) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg12) S256x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v218) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg14) S128x1.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v219) S1x1.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v220_0) S400x1.size cc7_transform_9 reads7_9 true false 2 stage7_9 sem7_9
    hrank7 hreads7_9 hinb7_9 nbuf7_9 (Memref.isWhole_whole _) hwx7_9 hstage7_9

abbrev win7_10 : Pipeline.Window sig grid7 :=
  Pipeline.Window.ofSpec (Memref.whole main_v220_1) S400x1.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S100000x32 : Shape := ⟨2, ![100000, 32]⟩
abbrev S20000x256 : Shape := ⟨2, ![20000, 256]⟩
abbrev S5000x256 : Shape := ⟨2, ![5000, 256]⟩
abbrev S32x256 : Shape := ⟨2, ![32, 256]⟩
abbrev S256 : Shape := ⟨1, ![256]⟩
abbrev S2x4x256x256 : Shape := ⟨4, ![2, 4, 256, 256]⟩
abbrev S2x4x256 : Shape := ⟨3, ![2, 4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S400000 : Shape := ⟨1, ![400000]⟩
abbrev S100000x256 : Shape := ⟨2, ![100000, 256]⟩
abbrev S1x256 : Shape := ⟨2, ![1, 256]⟩
abbrev S1x1x256x256 : Shape := ⟨4, ![1, 1, 256, 256]⟩
abbrev S256x256 : Shape := ⟨2, ![256, 256]⟩
abbrev S1x1x256 : Shape := ⟨3, ![1, 1, 256]⟩
abbrev S_ : Shape := ⟨0, ![]⟩
abbrev S400000x1 : Shape := ⟨2, ![400000, 1]⟩
abbrev S400000x256 : Shape := ⟨2, ![400000, 256]⟩
abbrev S100000 : Shape := ⟨1, ![100000]⟩
abbrev S100000x1 : Shape := ⟨2, ![100000, 1]⟩
abbrev S5000 : Shape := ⟨1, ![5000]⟩
abbrev S5000x1 : Shape := ⟨2, ![5000, 1]⟩
abbrev S20000 : Shape := ⟨1, ![20000]⟩
abbrev S20000x1 : Shape := ⟨2, ![20000, 1]⟩
abbrev S100000x128 : Shape := ⟨2, ![100000, 128]⟩
abbrev S1x128 : Shape := ⟨2, ![1, 128]⟩
abbrev S1x1 : Shape := ⟨2, ![1, 1]⟩

abbrev nBuf : Space → Nat
  | .hbm => 374
  | .vmem => 0
  | .smem => 0
  | _ => 0

abbrev hbmTy0_0 (i : Nat) : BufTy := match i % 128 with
  | 0 => ⟨S100000x32, .f32⟩
  | 1 => ⟨S20000x256, .f32⟩
  | 2 => ⟨S5000x256, .f32⟩
  | 3 => ⟨S32x256, .f32⟩
  | 4 => ⟨S256, .f32⟩
  | 5 => ⟨S2x4x256x256, .f32⟩
  | 6 => ⟨S2x4x256, .f32⟩
  | 7 => ⟨S2x4x256x256, .f32⟩
  | 8 => ⟨S256x128, .f32⟩
  | 9 => ⟨S128, .f32⟩
  | 10 => ⟨S128x1, .f32⟩
  | 11 => ⟨S1, .f32⟩
  | 12 => ⟨S256x128, .f32⟩
  | 13 => ⟨S128, .f32⟩
  | 14 => ⟨S128x1, .f32⟩
  | 15 => ⟨S1, .f32⟩
  | 16 => ⟨S400000, .i32⟩
  | 17 => ⟨S400000, .i32⟩
  | 18 => ⟨S400000, .i32⟩
  | 19 => ⟨S400000, .i32⟩
  | 20 => ⟨S400000, .i32⟩
  | 21 => ⟨S400000, .i32⟩
  | 22 => ⟨S400000, .i32⟩
  | 23 => ⟨S400000, .i32⟩
  | 24 => ⟨S100000x256, .f32⟩
  | 25 => ⟨S1x256, .f32⟩
  | 26 => ⟨S100000x256, .f32⟩
  | 27 => ⟨S100000x256, .f32⟩
  | 28 => ⟨S1x1x256x256, .f32⟩
  | 29 => ⟨S256x256, .f32⟩
  | 30 => ⟨S1x1x256, .f32⟩
  | 31 => ⟨S256, .f32⟩
  | 32 => ⟨S1x1x256x256, .f32⟩
  | 33 => ⟨S256x256, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x256, .f32⟩
  | 43 => ⟨S_, .f32⟩
  | 44 => ⟨S100000x256, .f32⟩
  | 45 => ⟨S400000x1, .i32⟩
  | 46 => ⟨S100000x256, .f32⟩
  | 47 => ⟨S_, .f32⟩
  | 48 => ⟨S400000, .f32⟩
  | 49 => ⟨S_, .f32⟩
  | 50 => ⟨S100000, .f32⟩
  | 51 => ⟨S400000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x256, .f32⟩
  | 58 => ⟨S100000x256, .f32⟩
  | 59 => ⟨S100000x256, .f32⟩
  | 60 => ⟨S1x256, .f32⟩
  | 61 => ⟨S100000x256, .f32⟩
  | 62 => ⟨S100000x256, .f32⟩
  | 63 => ⟨S100000x256, .f32⟩
  | 64 => ⟨S100000x256, .f32⟩
  | 65 => ⟨S1x1x256x256, .f32⟩
  | 66 => ⟨S256x256, .f32⟩
  | 67 => ⟨S1x1x256, .f32⟩
  | 68 => ⟨S256, .f32⟩
  | 69 => ⟨S1x1x256x256, .f32⟩
  | 70 => ⟨S256x256, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x256, .f32⟩
  | 80 => ⟨S_, .f32⟩
  | 81 => ⟨S5000x256, .f32⟩
  | 82 => ⟨S400000x1, .i32⟩
  | 83 => ⟨S5000x256, .f32⟩
  | 84 => ⟨S_, .f32⟩
  | 85 => ⟨S400000, .f32⟩
  | 86 => ⟨S_, .f32⟩
  | 87 => ⟨S5000, .f32⟩
  | 88 => ⟨S400000x1, .i32⟩
  | 89 => ⟨S5000, .f32⟩
  | 90 => ⟨S_, .f32⟩
  | 91 => ⟨S5000, .f32⟩
  | 92 => ⟨S5000, .f32⟩
  | 93 => ⟨S5000x1, .f32⟩
  | 94 => ⟨S5000x256, .f32⟩
  | 95 => ⟨S5000x256, .f32⟩
  | 96 => ⟨S5000x256, .f32⟩
  | 97 => ⟨S1x256, .f32⟩
  | 98 => ⟨S5000x256, .f32⟩
  | 99 => ⟨S5000x256, .f32⟩
  | 100 => ⟨S5000x256, .f32⟩
  | 101 => ⟨S5000x256, .f32⟩
  | 102 => ⟨S1x1x256x256, .f32⟩
  | 103 => ⟨S256x256, .f32⟩
  | 104 => ⟨S1x1x256, .f32⟩
  | 105 => ⟨S256, .f32⟩
  | 106 => ⟨S1x1x256x256, .f32⟩
  | 107 => ⟨S256x256, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x256, .f32⟩
  | 117 => ⟨S_, .f32⟩
  | 118 => ⟨S100000x256, .f32⟩
  | 119 => ⟨S400000x1, .i32⟩
  | 120 => ⟨S100000x256, .f32⟩
  | 121 => ⟨S_, .f32⟩
  | 122 => ⟨S400000, .f32⟩
  | 123 => ⟨S_, .f32⟩
  | 124 => ⟨S100000, .f32⟩
  | 125 => ⟨S400000x1, .i32⟩
  | 126 => ⟨S100000, .f32⟩
  | 127 => ⟨S_, .f32⟩
  | _ => ⟨S100000x32, .f32⟩

abbrev hbmTy0_1 (i : Nat) : BufTy := match i % 128 with
  | 0 => ⟨S100000, .f32⟩
  | 1 => ⟨S100000, .f32⟩
  | 2 => ⟨S100000x1, .f32⟩
  | 3 => ⟨S100000x256, .f32⟩
  | 4 => ⟨S100000x256, .f32⟩
  | 5 => ⟨S100000x256, .f32⟩
  | 6 => ⟨S1x256, .f32⟩
  | 7 => ⟨S100000x256, .f32⟩
  | 8 => ⟨S100000x256, .f32⟩
  | 9 => ⟨S100000x256, .f32⟩
  | 10 => ⟨S100000x256, .f32⟩
  | 11 => ⟨S1x1x256x256, .f32⟩
  | 12 => ⟨S256x256, .f32⟩
  | 13 => ⟨S1x1x256, .f32⟩
  | 14 => ⟨S256, .f32⟩
  | 15 => ⟨S1x1x256x256, .f32⟩
  | 16 => ⟨S256x256, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x256, .f32⟩
  | 26 => ⟨S_, .f32⟩
  | 27 => ⟨S20000x256, .f32⟩
  | 28 => ⟨S400000x1, .i32⟩
  | 29 => ⟨S20000x256, .f32⟩
  | 30 => ⟨S_, .f32⟩
  | 31 => ⟨S400000, .f32⟩
  | 32 => ⟨S_, .f32⟩
  | 33 => ⟨S20000, .f32⟩
  | 34 => ⟨S400000x1, .i32⟩
  | 35 => ⟨S20000, .f32⟩
  | 36 => ⟨S_, .f32⟩
  | 37 => ⟨S20000, .f32⟩
  | 38 => ⟨S20000, .f32⟩
  | 39 => ⟨S20000x1, .f32⟩
  | 40 => ⟨S20000x256, .f32⟩
  | 41 => ⟨S20000x256, .f32⟩
  | 42 => ⟨S20000x256, .f32⟩
  | 43 => ⟨S1x256, .f32⟩
  | 44 => ⟨S20000x256, .f32⟩
  | 45 => ⟨S20000x256, .f32⟩
  | 46 => ⟨S20000x256, .f32⟩
  | 47 => ⟨S20000x256, .f32⟩
  | 48 => ⟨S100000x256, .f32⟩
  | 49 => ⟨S_, .f32⟩
  | 50 => ⟨S100000x256, .f32⟩
  | 51 => ⟨S100000x256, .f32⟩
  | 52 => ⟨S_, .f32⟩
  | 53 => ⟨S100000x256, .f32⟩
  | 54 => ⟨S100000x256, .f32⟩
  | 55 => ⟨S_, .f32⟩
  | 56 => ⟨S5000x256, .f32⟩
  | 57 => ⟨S5000x256, .f32⟩
  | 58 => ⟨S_, .f32⟩
  | 59 => ⟨S20000x256, .f32⟩
  | 60 => ⟨S20000x256, .f32⟩
  | 61 => ⟨S1x1x256x256, .f32⟩
  | 62 => ⟨S256x256, .f32⟩
  | 63 => ⟨S1x1x256, .f32⟩
  | 64 => ⟨S256, .f32⟩
  | 65 => ⟨S1x1x256x256, .f32⟩
  | 66 => ⟨S256x256, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x256, .f32⟩
  | 76 => ⟨S_, .f32⟩
  | 77 => ⟨S100000x256, .f32⟩
  | 78 => ⟨S400000x1, .i32⟩
  | 79 => ⟨S100000x256, .f32⟩
  | 80 => ⟨S_, .f32⟩
  | 81 => ⟨S400000, .f32⟩
  | 82 => ⟨S_, .f32⟩
  | 83 => ⟨S100000, .f32⟩
  | 84 => ⟨S400000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x256, .f32⟩
  | 91 => ⟨S100000x256, .f32⟩
  | 92 => ⟨S100000x256, .f32⟩
  | 93 => ⟨S1x256, .f32⟩
  | 94 => ⟨S100000x256, .f32⟩
  | 95 => ⟨S100000x256, .f32⟩
  | 96 => ⟨S100000x256, .f32⟩
  | 97 => ⟨S100000x256, .f32⟩
  | 98 => ⟨S1x1x256x256, .f32⟩
  | 99 => ⟨S256x256, .f32⟩
  | 100 => ⟨S1x1x256, .f32⟩
  | 101 => ⟨S256, .f32⟩
  | 102 => ⟨S1x1x256x256, .f32⟩
  | 103 => ⟨S256x256, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x256, .f32⟩
  | 113 => ⟨S_, .f32⟩
  | 114 => ⟨S5000x256, .f32⟩
  | 115 => ⟨S400000x1, .i32⟩
  | 116 => ⟨S5000x256, .f32⟩
  | 117 => ⟨S_, .f32⟩
  | 118 => ⟨S400000, .f32⟩
  | 119 => ⟨S_, .f32⟩
  | 120 => ⟨S5000, .f32⟩
  | 121 => ⟨S400000x1, .i32⟩
  | 122 => ⟨S5000, .f32⟩
  | 123 => ⟨S_, .f32⟩
  | 124 => ⟨S5000, .f32⟩
  | 125 => ⟨S5000, .f32⟩
  | 126 => ⟨S5000x1, .f32⟩
  | 127 => ⟨S5000x256, .f32⟩
  | _ => ⟨S100000x32, .f32⟩

abbrev hbmTy0_2 (i : Nat) : BufTy := match i % 128 with
  | 0 => ⟨S5000x256, .f32⟩
  | 1 => ⟨S5000x256, .f32⟩
  | 2 => ⟨S1x256, .f32⟩
  | 3 => ⟨S5000x256, .f32⟩
  | 4 => ⟨S5000x256, .f32⟩
  | 5 => ⟨S5000x256, .f32⟩
  | 6 => ⟨S5000x256, .f32⟩
  | 7 => ⟨S1x1x256x256, .f32⟩
  | 8 => ⟨S256x256, .f32⟩
  | 9 => ⟨S1x1x256, .f32⟩
  | 10 => ⟨S256, .f32⟩
  | 11 => ⟨S1x1x256x256, .f32⟩
  | 12 => ⟨S256x256, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x256, .f32⟩
  | 22 => ⟨S_, .f32⟩
  | 23 => ⟨S100000x256, .f32⟩
  | 24 => ⟨S400000x1, .i32⟩
  | 25 => ⟨S100000x256, .f32⟩
  | 26 => ⟨S_, .f32⟩
  | 27 => ⟨S400000, .f32⟩
  | 28 => ⟨S_, .f32⟩
  | 29 => ⟨S100000, .f32⟩
  | 30 => ⟨S400000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x256, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S100000x256, .f32⟩
  | 43 => ⟨S100000x256, .f32⟩
  | 44 => ⟨S1x1x256x256, .f32⟩
  | 45 => ⟨S256x256, .f32⟩
  | 46 => ⟨S1x1x256, .f32⟩
  | 47 => ⟨S256, .f32⟩
  | 48 => ⟨S1x1x256x256, .f32⟩
  | 49 => ⟨S256x256, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x256, .f32⟩
  | 59 => ⟨S_, .f32⟩
  | 60 => ⟨S20000x256, .f32⟩
  | 61 => ⟨S400000x1, .i32⟩
  | 62 => ⟨S20000x256, .f32⟩
  | 63 => ⟨S_, .f32⟩
  | 64 => ⟨S400000, .f32⟩
  | 65 => ⟨S_, .f32⟩
  | 66 => ⟨S20000, .f32⟩
  | 67 => ⟨S400000x1, .i32⟩
  | 68 => ⟨S20000, .f32⟩
  | 69 => ⟨S_, .f32⟩
  | 70 => ⟨S20000, .f32⟩
  | 71 => ⟨S20000, .f32⟩
  | 72 => ⟨S20000x1, .f32⟩
  | 73 => ⟨S20000x256, .f32⟩
  | 74 => ⟨S20000x256, .f32⟩
  | 75 => ⟨S20000x256, .f32⟩
  | 76 => ⟨S1x256, .f32⟩
  | 77 => ⟨S20000x256, .f32⟩
  | 78 => ⟨S20000x256, .f32⟩
  | 79 => ⟨S20000x256, .f32⟩
  | 80 => ⟨S20000x256, .f32⟩
  | 81 => ⟨S100000x256, .f32⟩
  | 82 => ⟨S_, .f32⟩
  | 83 => ⟨S100000x256, .f32⟩
  | 84 => ⟨S100000x256, .f32⟩
  | 85 => ⟨S_, .f32⟩
  | 86 => ⟨S100000x256, .f32⟩
  | 87 => ⟨S100000x256, .f32⟩
  | 88 => ⟨S_, .f32⟩
  | 89 => ⟨S5000x256, .f32⟩
  | 90 => ⟨S5000x256, .f32⟩
  | 91 => ⟨S_, .f32⟩
  | 92 => ⟨S20000x256, .f32⟩
  | 93 => ⟨S20000x256, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x1, .f32⟩
  | 102 => ⟨S1x1, .f32⟩
  | 103 => ⟨S100000x1, .f32⟩
  | 104 => ⟨S100000x1, .f32⟩
  | 105 => ⟨S100000, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x1, .f32⟩
  | 114 => ⟨S1x1, .f32⟩
  | 115 => ⟨S100000x1, .f32⟩
  | 116 => ⟨S100000x1, .f32⟩
  | 117 => ⟨S100000, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_4 : Ref sig .tc := ⟨.hbm, 71, rfl⟩
abbrev main_v41 : Ref sig .tc := ⟨.hbm, 72, rfl⟩
abbrev main_v42 : Ref sig .tc := ⟨.hbm, 73, rfl⟩
abbrev main_c_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_10 : Ref sig .tc := ⟨.hbm, 108, rfl⟩
abbrev main_v72 : Ref sig .tc := ⟨.hbm, 109, rfl⟩
abbrev main_v73 : Ref sig .tc := ⟨.hbm, 110, rfl⟩
abbrev main_c_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_cst_14 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_16 : Ref sig .tc := ⟨.hbm, 145, rfl⟩
abbrev main_v103 : Ref sig .tc := ⟨.hbm, 146, rfl⟩
abbrev main_v104 : Ref sig .tc := ⟨.hbm, 147, rfl⟩
abbrev main_c_17 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_18 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_19 : Ref sig .tc := ⟨.hbm, 158, rfl⟩
abbrev main_v113 : Ref sig .tc := ⟨.hbm, 159, rfl⟩
abbrev main_cst_20 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_21 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_22 : Ref sig .tc := ⟨.hbm, 177, rfl⟩
abbrev main_v129 : Ref sig .tc := ⟨.hbm, 178, rfl⟩
abbrev main_v130 : Ref sig .tc := ⟨.hbm, 179, rfl⟩
abbrev main_call0_cst : Ref sig .tc := ⟨.hbm, 180, rfl⟩
abbrev main_call0_v0 : Ref sig .tc := ⟨.hbm, 181, rfl⟩
abbrev main_v131 : Ref sig .tc := ⟨.hbm, 182, rfl⟩
abbrev main_call1_cst : Ref sig .tc := ⟨.hbm, 183, rfl⟩
abbrev main_call1_v0 : Ref sig .tc := ⟨.hbm, 184, rfl⟩
abbrev main_v132 : Ref sig .tc := ⟨.hbm, 185, rfl⟩
abbrev main_call2_cst : Ref sig .tc := ⟨.hbm, 186, rfl⟩
abbrev main_call2_v0 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_c_23 : Ref sig .tc := ⟨.hbm, 195, rfl⟩
abbrev main_v140 : Ref sig .tc := ⟨.hbm, 196, rfl⟩
abbrev main_v141 : Ref sig .tc := ⟨.hbm, 197, rfl⟩
abbrev main_c_24 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_25 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_26 : Ref sig .tc := ⟨.hbm, 208, rfl⟩
abbrev main_v150 : Ref sig .tc := ⟨.hbm, 209, rfl⟩
abbrev main_cst_27 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_28 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_c_29 : Ref sig .tc := ⟨.hbm, 232, rfl⟩
abbrev main_v171 : Ref sig .tc := ⟨.hbm, 233, rfl⟩
abbrev main_v172 : Ref sig .tc := ⟨.hbm, 234, rfl⟩
abbrev main_c_30 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_31 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_32 : Ref sig .tc := ⟨.hbm, 245, rfl⟩
abbrev main_v181 : Ref sig .tc := ⟨.hbm, 246, rfl⟩
abbrev main_cst_33 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_cst_34 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_c_35 : Ref sig .tc := ⟨.hbm, 269, rfl⟩
abbrev main_v202 : Ref sig .tc := ⟨.hbm, 270, rfl⟩
abbrev main_v203 : Ref sig .tc := ⟨.hbm, 271, rfl⟩
abbrev main_c_36 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_cst_37 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_cst_38 : Ref sig .tc := ⟨.hbm, 282, rfl⟩
abbrev main_v212 : Ref sig .tc := ⟨.hbm, 283, rfl⟩
abbrev main_cst_39 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_cst_40 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_c_41 : Ref sig .tc := ⟨.hbm, 306, rfl⟩
abbrev main_v233 : Ref sig .tc := ⟨.hbm, 307, rfl⟩
abbrev main_v234 : Ref sig .tc := ⟨.hbm, 308, rfl⟩
abbrev main_c_42 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_cst_43 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_cst_44 : Ref sig .tc := ⟨.hbm, 319, rfl⟩
abbrev main_v243 : Ref sig .tc := ⟨.hbm, 320, rfl⟩
abbrev main_cst_45 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_cst_46 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_cst_47 : Ref sig .tc := ⟨.hbm, 338, rfl⟩
abbrev main_v259 : Ref sig .tc := ⟨.hbm, 339, rfl⟩
abbrev main_v260 : Ref sig .tc := ⟨.hbm, 340, rfl⟩
abbrev main_call3_cst : Ref sig .tc := ⟨.hbm, 341, rfl⟩
abbrev main_call3_v0 : Ref sig .tc := ⟨.hbm, 342, rfl⟩
abbrev main_v261 : Ref sig .tc := ⟨.hbm, 343, rfl⟩
abbrev main_call4_cst : Ref sig .tc := ⟨.hbm, 344, rfl⟩
abbrev main_call4_v0 : Ref sig .tc := ⟨.hbm, 345, rfl⟩
abbrev main_v262 : Ref sig .tc := ⟨.hbm, 346, rfl⟩
abbrev main_call5_cst : Ref sig .tc := ⟨.hbm, 347, rfl⟩
abbrev main_call5_v0 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_call6_cst : Ref sig .tc := ⟨.hbm, 354, rfl⟩
abbrev main_call6_v0 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_call7_cst : Ref sig .tc := ⟨.hbm, 366, rfl⟩
abbrev main_call7_v0 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S2x4x256x256_S1x1x256x256_0_0_0_0 : S2x4x256x256.Slices ![0, 0, 0, 0] S1x1x256x256
  shapeCasts_S1x1x256x256_S256x256 : S1x1x256x256.ShapeCasts S256x256
  slices_S2x4x256_S1x1x256_0_0_0 : S2x4x256.Slices ![0, 0, 0] S1x1x256
  shapeCasts_S1x1x256_S256 : S1x1x256.ShapeCasts S256
  bcast_S_S400000 : S_.BroadcastsInDim S400000 (![] : Fin 0 → Fin S400000.rank)
  bcast_S400000_S400000x1_0 : S400000.BroadcastsInDim S400000x1 (![0] : Fin 1 → Fin S400000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S2x4x256x256_S1x1x256x256_0_1_0_0 : S2x4x256x256.Slices ![0, 1, 0, 0] S1x1x256x256
  slices_S2x4x256_S1x1x256_0_1_0 : S2x4x256.Slices ![0, 1, 0] S1x1x256
  bcast_S_S5000x256 : S_.BroadcastsInDim S5000x256 (![] : Fin 0 → Fin S5000x256.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  bcast_S1x256_S5000x256_0_1 : S1x256.BroadcastsInDim S5000x256 (![0, 1] : Fin 2 → Fin S5000x256.rank)
  slices_S2x4x256x256_S1x1x256x256_0_2_0_0 : S2x4x256x256.Slices ![0, 2, 0, 0] S1x1x256x256
  slices_S2x4x256_S1x1x256_0_2_0 : S2x4x256.Slices ![0, 2, 0] S1x1x256
  slices_S2x4x256x256_S1x1x256x256_0_3_0_0 : S2x4x256x256.Slices ![0, 3, 0, 0] S1x1x256x256
  slices_S2x4x256_S1x1x256_0_3_0 : S2x4x256.Slices ![0, 3, 0] S1x1x256
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  slices_S2x4x256x256_S1x1x256x256_1_0_0_0 : S2x4x256x256.Slices ![1, 0, 0, 0] S1x1x256x256
  slices_S2x4x256_S1x1x256_1_0_0 : S2x4x256.Slices ![1, 0, 0] S1x1x256
  slices_S2x4x256x256_S1x1x256x256_1_1_0_0 : S2x4x256x256.Slices ![1, 1, 0, 0] S1x1x256x256
  slices_S2x4x256_S1x1x256_1_1_0 : S2x4x256.Slices ![1, 1, 0] S1x1x256
  slices_S2x4x256x256_S1x1x256x256_1_2_0_0 : S2x4x256x256.Slices ![1, 2, 0, 0] S1x1x256x256
  slices_S2x4x256_S1x1x256_1_2_0 : S2x4x256.Slices ![1, 2, 0] S1x1x256
  slices_S2x4x256x256_S1x1x256x256_1_3_0_0 : S2x4x256x256.Slices ![1, 3, 0, 0] S1x1x256x256
  slices_S2x4x256_S1x1x256_1_3_0 : S2x4x256.Slices ![1, 3, 0] S1x1x256
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x32_S32x256_S100000x256_1_0_0_1_n_n_wf : DotDims.WF S100000x32 S32x256 S100000x256 [1] [0] [0] [1] [] []
  gather_S20000x256_S400000x1_S400000x256_1_0_n_n_0_1_1256_wf : GatherDims.WF S20000x256 S400000x1 S400000x256 [1] [0] [] [0] [] 1 ![1, 256]
  scatter_S100000x256_S400000x1_S400000x256_1_0_0_1_wf : ScatterDims.WF S100000x256 S400000x1 S400000x256 [1] [0] [0] 1
  scatter_S100000_S400000x1_S400000_n_0_0_1_wf : ScatterDims.WF S100000 S400000x1 S400000 [] [0] [0] 1
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S5000x256_S400000x1_S400000x256_1_0_0_1_wf : ScatterDims.WF S5000x256 S400000x1 S400000x256 [1] [0] [0] 1
  scatter_S5000_S400000x1_S400000_n_0_0_1_wf : ScatterDims.WF S5000 S400000x1 S400000 [] [0] [0] 1
  dot_S5000x256_S256x256_S5000x256_1_0_0_1_n_n_wf : DotDims.WF S5000x256 S256x256 S5000x256 [1] [0] [0] [1] [] []
  gather_S5000x256_S400000x1_S400000x256_1_0_n_n_0_1_1256_wf : GatherDims.WF S5000x256 S400000x1 S400000x256 [1] [0] [] [0] [] 1 ![1, 256]
  scatter_S20000x256_S400000x1_S400000x256_1_0_0_1_wf : ScatterDims.WF S20000x256 S400000x1 S400000x256 [1] [0] [0] 1
  scatter_S20000_S400000x1_S400000_n_0_0_1_wf : ScatterDims.WF S20000 S400000x1 S400000 [] [0] [0] 1
  dot_S20000x256_S256x256_S20000x256_1_0_0_1_n_n_wf : DotDims.WF S20000x256 S256x256 S20000x256 [1] [0] [0] [1] [] []
  dot_S100000x256_S256x128_S100000x128_1_0_0_1_n_n_wf : DotDims.WF S100000x256 S256x128 S100000x128 [1] [0] [0] [1] [] []
  dot_S100000x128_S128x1_S100000x1_1_0_0_1_n_n_wf : DotDims.WF S100000x128 S128x1 S100000x1 [1] [0] [0] [1] [] []

variable [Facts₀]

def dot_S100000x32_S32x256_S100000x256_1_0_0_1_n_n : DotDims S100000x32 S32x256 S100000x256 where
  lhsContracting := [1]
  rhsContracting := [0]
  lhsNonContracting := [0]
  rhsNonContracting := [1]
  lhsBatch := []
  rhsBatch := []
  wf := dot_S100000x32_S32x256_S100000x256_1_0_0_1_n_n_wf
def gather_S20000x256_S400000x1_S400000x256_1_0_n_n_0_1_1256 : GatherDims S20000x256 S400000x1 S400000x256 where
  offsetDims := [1]
  collapsedSliceDims := [0]
  operandBatchingDims := []
  startIndicesBatchingDims := []
  startIndexMap := [0]
  indexVectorDim := 1
  sliceSizes := ![1, 256]
  wf := gather_S20000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S5000x256_S400000x1_S400000x256_1_0_0_1 : ScatterDims S5000x256 S400000x1 S400000x256 where
  updateWindowDims := [1]
  insertedWindowDims := [0]
  scatterDimsToOperandDims := [0]
  indexVectorDim := 1
  wf := scatter_S5000x256_S400000x1_S400000x256_1_0_0_1_wf
def scatter_S5000_S400000x1_S400000_n_0_0_1 : ScatterDims S5000 S400000x1 S400000 where
  updateWindowDims := []
  insertedWindowDims := [0]
  scatterDimsToOperandDims := [0]
  indexVectorDim := 1
  wf := scatter_S5000_S400000x1_S400000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S5000x256_S400000x1_S400000x256_1_0_n_n_0_1_1256 : GatherDims S5000x256 S400000x1 S400000x256 where
  offsetDims := [1]
  collapsedSliceDims := [0]
  operandBatchingDims := []
  startIndicesBatchingDims := []
  startIndexMap := [0]
  indexVectorDim := 1
  sliceSizes := ![1, 256]
  wf := gather_S5000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run with its two result arrays named.

  @main is seventeen segments: nine stretches of host operations and eight tiled kernel regions between them.  The
  buffer contents at each segment boundary are a fold from the launch memory (a stretch applies its operations; a
  region replaces its output arrays by what its blocks wrote back and leaves every other buffer alone).  Every weakly
  fair execution terminates with every unscoped buffer at the last boundary's contents; read at the two result
  buffers and at the argument buffers this is the statement below.
-/
import proofs.«106822_j76312978915563_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result arrays end at the last
    boundary's contents and the argument arrays as launched. -/
theorem run : θ_run defs (onTc (τ := τ) (main (F := F))) ⟨m, fun _ => 0, ρ⟩ (fun r => ∀ c : Dev nD,
      r.2.mem ((c.tc : Thread nD τ).loc main_v221) = W17 m ρ c (Proc.devRef .tc main_v221)
      ∧ r.2.mem ((c.tc : Thread nD τ).loc main_v222) = W17 m ρ c (Proc.devRef .tc main_v222)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v221 (by decide)),
       h c _ (mem_uc main_v222 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c)⟩)

end Cert.KernelIdeal.Results

end
-- ==== Proof.Keep.lean ====
/-
  What the host stretches and the kernel regions of the idealized kernel program leave alone.

  A stretch of host operations writes only its own result buffers (listed here per stretch), and a kernel region writes
  only its output arrays; every other buffer keeps its contents across that segment.  In particular the argument
  arrays, which nothing writes, hold their launch contents at every segment boundary where they are still read.
-/
import proofs.«106822_j76312978915563_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

/-! ## The buffers each stretch writes -/

/-- The result buffers of host stretch 0. -/
abbrev wr0 : List (Ref sig .tc) := [main_v0]
theorem writes0 : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 1. -/
abbrev wr1 : List (Ref sig .tc) := [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_v20, main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_c_10, main_v40, main_v41, main_c_11, main_v42, main_v43, main_v44, main_v45, main_v46, main_cst_12, main_v47, main_v48, main_v49, main_cst_13, main_v50, main_cst_14, main_v51, main_v52, main_v53, main_cst_15, main_v54, main_v55, main_v56, main_v57, main_v58, main_c_16, main_v59, main_v60, main_c_17, main_v61, main_v62, main_v63, main_v64, main_v65, main_cst_18, main_v66, main_v67, main_v68, main_cst_19, main_v69, main_cst_20, main_v70, main_v71, main_v72, main_cst_21, main_v73, main_v74, main_v75, main_v76, main_v77, main_v78, main_v79, main_v80, main_v81, main_v82, main_v83, main_v84, main_v85, main_v86, main_v87, main_v88, main_v89, main_v90, main_v91]
set_option maxHeartbeats 4000000 in
theorem writes1 : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 2. -/
abbrev wr2 : List (Ref sig .tc) := [main_v93, main_v94, main_v95, main_v96, main_v97, main_v98, main_v99]
theorem writes2 : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 3. -/
abbrev wr3 : List (Ref sig .tc) := [main_v101, main_v102, main_v103, main_v104, main_v105, main_v106, main_v107]
theorem writes3 : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 4. -/
abbrev wr4 : List (Ref sig .tc) := [main_c_22, main_v109, main_v110, main_c_23, main_v111, main_v112, main_v113, main_v114, main_v115, main_cst_24, main_v116, main_v117, main_v118, main_cst_25, main_v119, main_cst_26, main_v120, main_v121, main_v122, main_cst_27, main_v123, main_v124, main_v125, main_v126, main_v127, main_c_28, main_v128, main_v129, main_c_29, main_v130, main_v131, main_v132, main_v133, main_v134, main_cst_30, main_v135, main_v136, main_v137, main_cst_31, main_v138, main_cst_32, main_v139, main_v140, main_v141, main_cst_33, main_v142, main_v143, main_v144, main_v145, main_v146, main_c_34, main_v147, main_v148, main_c_35, main_v149, main_v150, main_v151, main_v152, main_v153, main_cst_36, main_v154, main_v155, main_v156, main_cst_37, main_v157, main_cst_38, main_v158, main_v159, main_v160, main_cst_39, main_v161, main_v162, main_v163, main_v164, main_v165, main_c_40, main_v166, main_v167, main_c_41, main_v168, main_v169, main_v170, main_v171, main_v172, main_cst_42, main_v173, main_v174, main_v175, main_cst_43, main_v176, main_cst_44, main_v177, main_v178, main_v179, main_cst_45, main_v180, main_v181, main_v182, main_v183, main_v184, main_v185, main_v186, main_v187, main_v188, main_v189, main_v190, main_v191, main_v192, main_v193, main_v194, main_v195, main_v196, main_v197, main_v198]
set_option maxHeartbeats 4000000 in
theorem writes4 : (hostOps4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 5. -/
abbrev wr5 : List (Ref sig .tc) := [main_v200, main_v201, main_v202, main_v203, main_v204, main_v205, main_v206]
theorem writes5 : (hostOps5 : List (HloOp τ sig (Elt F))).Forall fun op => op.writes ⊆ (wr5.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 6. -/
abbrev wr6 : List (Ref sig .tc) := [main_v208, main_v209, main_v210, main_v211, main_v212, main_v213, main_v214]
theorem writes6 : (hostOps6 : List (HloOp τ sig (Elt F))).Forall fun op => op.writes ⊆ (wr6.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 7. -/
abbrev wr7 : List (Ref sig .tc) := [main_v216, main_v217, main_v218, main_v219]
theorem writes7 : (hostOps7 : List (HloOp τ sig (Elt F))).Forall fun op => op.writes ⊆ (wr7.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The result buffers of host stretch 8. -/
abbrev wr8 : List (Ref sig .tc) := [main_v221, main_v222]
theorem writes8 : (hostOps8 : List (HloOp τ sig (Elt F))).Forall fun op => op.writes ⊆ (wr8.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-! ## A buffer a stretch does not write keeps its contents across it -/

theorem host0 (r : Ref sig .tc) (h : r ∉ wr0) : W1 m ρ c (Proc.devRef .tc r) = W0 m ρ c (Proc.devRef .tc r) :=
  StableHlo.after_of_writes_sub hostOps0 _ writes0 h
theorem host1 (r : Ref sig .tc) (h : r ∉ wr1) : W3 m ρ c (Proc.devRef .tc r) = W2 m ρ c (Proc.devRef .tc r) :=
  StableHlo.after_of_writes_sub hostOps1 _ writes1 h
theorem host2 (r : Ref sig .tc) (h : r ∉ wr2) : W5 m ρ c (Proc.devRef .tc r) = W4 m ρ c (Proc.devRef .tc r) :=
  StableHlo.after_of_writes_sub hostOps2 _ writes2 h
theorem host3 (r : Ref sig .tc) (h : r ∉ wr3) : W7 m ρ c (Proc.devRef .tc r) = W6 m ρ c (Proc.devRef .tc r) :=
  StableHlo.after_of_writes_sub hostOps3 _ writes3 h
theorem host4 (r : Ref sig .tc) (h : r ∉ wr4) : W9 m ρ c (Proc.devRef .tc r) = W8 m ρ c (Proc.devRef .tc r) :=
  StableHlo.after_of_writes_sub hostOps4 _ writes4 h
theorem host5 (r : Ref sig .tc) (h : r ∉ wr5) : W11 m ρ c (Proc.devRef .tc r) = W10 m ρ c (Proc.devRef .tc r) :=
  StableHlo.after_of_writes_sub hostOps5 _ writes5 h
theorem host6 (r : Ref sig .tc) (h : r ∉ wr6) : W13 m ρ c (Proc.devRef .tc r) = W12 m ρ c (Proc.devRef .tc r) :=
  StableHlo.after_of_writes_sub hostOps6 _ writes6 h
theorem host7 (r : Ref sig .tc) (h : r ∉ wr7) : W15 m ρ c (Proc.devRef .tc r) = W14 m ρ c (Proc.devRef .tc r) :=
  StableHlo.after_of_writes_sub hostOps7 _ writes7 h
theorem host8 (r : Ref sig .tc) (h : r ∉ wr8) : W17 m ρ c (Proc.devRef .tc r) = W16 m ρ c (Proc.devRef .tc r) :=
  StableHlo.after_of_writes_sub hostOps8 _ writes8 h

/-! ## The argument arrays at the segment boundaries where they are still read -/

/-- The argument arrays still read after boundary 1. -/
abbrev live1 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]
theorem args1 (r : Ref sig .tc) (hr : r ∈ live1) : W1 m ρ c (Proc.devRef .tc r) = m ((c : Thread nD τ).loc r) :=
  (host0 m ρ c r ((by decide : ∀ r ∈ live1, r ∉ wr0) r hr)).trans rfl
/-- The argument arrays still read after boundary 2. -/
abbrev live2 : List (Ref sig .tc) := [main_arg1, main_arg2, main_arg4, main_arg5, main_arg6, main_arg7, main_arg8, main_arg9, main_arg10, main_arg11, main_arg12, main_arg13, main_arg14, main_arg15, main_arg16, main_arg17, main_arg18, main_arg19, main_arg20, main_arg21, main_arg22, main_arg23]
theorem args2 (r : Ref sig .tc) (hr : r ∈ live2) : W2 m ρ c (Proc.devRef .tc r) = m ((c : Thread nD τ).loc r) :=
  (W2_of_ne m ρ c r ((by decide : ∀ r ∈ live2, ∀ w, Pipeline.arrRef spec0 w ≠ r) r hr)).trans (args1 m ρ c r ((by decide : ∀ r ∈ live2, r ∈ live1) r hr))
abbrev live3 : List (Ref sig .tc) := live2
theorem args3 (r : Ref sig .tc) (hr : r ∈ live3) : W3 m ρ c (Proc.devRef .tc r) = m ((c : Thread nD τ).loc r) :=
  (host1 m ρ c r ((by decide : ∀ r ∈ live3, r ∉ wr1) r hr)).trans (args2 m ρ c r ((by decide : ∀ r ∈ live3, r ∈ live2) r hr))
abbrev live4 : List (Ref sig .tc) := live3
theorem args4 (r : Ref sig .tc) (hr : r ∈ live4) : W4 m ρ c (Proc.devRef .tc r) = m ((c : Thread nD τ).loc r) :=
  (W4_of_ne m ρ c r ((by decide : ∀ r ∈ live4, ∀ w, Pipeline.arrRef spec1 w ≠ r) r hr)).trans (args3 m ρ c r ((by decide : ∀ r ∈ live4, r ∈ live3) r hr))
abbrev live5 : List (Ref sig .tc) := live4
theorem args5 (r : Ref sig .tc) (hr : r ∈ live5) : W5 m ρ c (Proc.devRef .tc r) = m ((c : Thread nD τ).loc r) :=
  (host2 m ρ c r ((by decide : ∀ r ∈ live5, r ∉ wr2) r hr)).trans (args4 m ρ c r ((by decide : ∀ r ∈ live5, r ∈ live4) r hr))
/-- The argument arrays still read after boundary 6. -/
abbrev live6 : List (Ref sig .tc) := [main_arg1, main_arg4, main_arg5, main_arg6, main_arg7, main_arg8, main_arg9, main_arg10, main_arg11, main_arg12, main_arg13, main_arg14, main_arg15, main_arg16, main_arg17, main_arg18, main_arg19, main_arg20, main_arg21, main_arg22, main_arg23]
theorem args6 (r : Ref sig .tc) (hr : r ∈ live6) : W6 m ρ c (Proc.devRef .tc r) = m ((c : Thread nD τ).loc r) :=
  (W6_of_ne m ρ c r ((by decide : ∀ r ∈ live6, ∀ w, Pipeline.arrRef spec2 w ≠ r) r hr)).trans (args5 m ρ c r ((by decide : ∀ r ∈ live6, r ∈ live5) r hr))
abbrev live7 : List (Ref sig .tc) := live6
theorem args7 (r : Ref sig .tc) (hr : r ∈ live7) : W7 m ρ c (Proc.devRef .tc r) = m ((c : Thread nD τ).loc r) :=
  (host3 m ρ c r ((by decide : ∀ r ∈ live7, r ∉ wr3) r hr)).trans (args6 m ρ c r ((by decide : ∀ r ∈ live7, r ∈ live6) r hr))
/-- The argument arrays still read after boundary 8. -/
abbrev live8 : List (Ref sig .tc) := [main_arg4, main_arg5, main_arg6, main_arg7, main_arg8, main_arg9, main_arg10, main_arg11, main_arg12, main_arg13, main_arg14, main_arg15, main_arg16, main_arg17, main_arg18, main_arg19, main_arg20, main_arg21, main_arg22, main_arg23]
theorem args8 (r : Ref sig .tc) (hr : r ∈ live8) : W8 m ρ c (Proc.devRef .tc r) = m ((c : Thread nD τ).loc r) :=
  (W8_of_ne m ρ c r ((by decide : ∀ r ∈ live8, ∀ w, Pipeline.arrRef spec3 w ≠ r) r hr)).trans (args7 m ρ c r ((by decide : ∀ r ∈ live8, r ∈ live7) r hr))
abbrev live9 : List (Ref sig .tc) := live8
theorem args9 (r : Ref sig .tc) (hr : r ∈ live9) : W9 m ρ c (Proc.devRef .tc r) = m ((c : Thread nD τ).loc r) :=
  (host4 m ρ c r ((by decide : ∀ r ∈ live9, r ∉ wr4) r hr)).trans (args8 m ρ c r ((by decide : ∀ r ∈ live9, r ∈ live8) r hr))
abbrev live10 : List (Ref sig .tc) := live9
theorem args10 (r : Ref sig .tc) (hr : r ∈ live10) : W10 m ρ c (Proc.devRef .tc r) = m ((c : Thread nD τ).loc r) :=
  (W10_of_ne m ρ c r ((by decide : ∀ r ∈ live10, ∀ w, Pipeline.arrRef spec4 w ≠ r) r hr)).trans (args9 m ρ c r ((by decide : ∀ r ∈ live10, r ∈ live9) r hr))
abbrev live11 : List (Ref sig .tc) := live10
theorem args11 (r : Ref sig .tc) (hr : r ∈ live11) : W11 m ρ c (Proc.devRef .tc r) = m ((c : Thread nD τ).loc r) :=
  (host5 m ρ c r ((by decide : ∀ r ∈ live11, r ∉ wr5) r hr)).trans (args10 m ρ c r ((by decide : ∀ r ∈ live11, r ∈ live10) r hr))
abbrev live12 : List (Ref sig .tc) := live11
theorem args12 (r : Ref sig .tc) (hr : r ∈ live12) : W12 m ρ c (Proc.devRef .tc r) = m ((c : Thread nD τ).loc r) :=
  (W12_of_ne m ρ c r ((by decide : ∀ r ∈ live12, ∀ w, Pipeline.arrRef spec5 w ≠ r) r hr)).trans (args11 m ρ c r ((by decide : ∀ r ∈ live12, r ∈ live11) r hr))
abbrev live13 : List (Ref sig .tc) := live12
theorem args13 (r : Ref sig .tc) (hr : r ∈ live13) : W13 m ρ c (Proc.devRef .tc r) = m ((c : Thread nD τ).loc r) :=
  (host6 m ρ c r ((by decide : ∀ r ∈ live13, r ∉ wr6) r hr)).trans (args12 m ρ c r ((by decide : ∀ r ∈ live13, r ∈ live12) r hr))
abbrev live14 : List (Ref sig .tc) := live13
theorem args14 (r : Ref sig .tc) (hr : r ∈ live14) : W14 m ρ c (Proc.devRef .tc r) = m ((c : Thread nD τ).loc r) :=
  (W14_of_ne m ρ c r ((by decide : ∀ r ∈ live14, ∀ w, Pipeline.arrRef spec6 w ≠ r) r hr)).trans (args13 m ρ c r ((by decide : ∀ r ∈ live14, r ∈ live13) r hr))
abbrev live15 : List (Ref sig .tc) := live14
theorem args15 (r : Ref sig .tc) (hr : r ∈ live15) : W15 m ρ c (Proc.devRef .tc r) = m ((c : Thread nD τ).loc r) :=
  (host7 m ρ c r ((by decide : ∀ r ∈ live15, r ∉ wr7) r hr)).trans (args14 m ρ c r ((by decide : ∀ r ∈ live15, r ∈ live14) r hr))

end Cert.KernelIdeal.Keep

end
-- ==== Proof.Spec.lean ====
/-
  The mathematics both programs compute, entry by entry, on the extended reals.

  Every dense layer here is "a row of the left matrix against a column of the right one, plus a bias entry":
  `dot f g = ∑ k, f k * g k`.  Three layer shapes occur.
  * An affine layer  `x · W + b`  (the input projection).
  * A neighbourhood-combining layer  `max (((m · Wl) + bl) + (xr · Wr)) 0`  for a node kind with one incoming
    relation, and  `max (½ · ((((mu · Wl₀) + b₀) + (xr · Wr₀)) + (((mm · Wl₂) + b₂) + (xr · Wr₂)))) 0`  for the
    node kind with two incoming relations (the mean of the two relations' updates, then the positive part).
  * A two-layer head  `(max ((x · W₁) + b₁) 0) · W₂ + b₂`  whose second matrix has a single column.
  The grouping of the sums is the one written above on both sides, so no law of the extended reals beyond
  reading the definitions is needed to identify the two programs.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : Nat) := (⟨2, ![a, b]⟩ : Shape).Idx → EReal

/-- The inner product of two finite families. -/
def dot {K : Nat} (f g : Fin K → EReal) : EReal := ∑ k : Fin K, f k * g k

/-- The number zero and the number one half, as the binary words both programs spell them with. -/
def zero : EReal := Ideal.ofBits .f32 0x00000000#32
def half : EReal := Ideal.ofBits .f32 0x3F000000#32

/-- Row `r` of `x` against column `q` of `W`. -/
def rowcol {M K N : Nat} (x : Mat M K) (W : Mat K N) (r : Fin M) (q : Fin N) : EReal :=
  dot (fun k => x (ix2 r k)) (fun k => W (ix2 k q))

/-- Entry `(r, q)` of `x · W + b`, the bias a single row. -/
def affineAt {M K N : Nat} (x : Mat M K) (W : Mat K N) (b : Mat 1 N) (r : Fin M) (q : Fin N) : EReal :=
  rowcol x W r q + b (ix2 0 q)

/-- `x · W + b`. -/
def affine {M K N : Nat} (x : Mat M K) (W : Mat K N) (b : Mat 1 N) : Mat M N :=
  fun i => affineAt x W b (i 0) (i 1)

/-- Entry `(r, q)` of the update of a node kind with one incoming relation:
    `max (((m · Wl) + bl) + (xr · Wr)) 0`. -/
def sage1At {M : Nat} (m xr : Mat M 256) (Wl : Mat 256 256) (bl : Mat 1 256) (Wr : Mat 256 256)
    (r : Fin M) (q : Fin 256) : EReal :=
  max ((rowcol m Wl r q + bl (ix2 0 q)) + rowcol xr Wr r q) zero

/-- The update of a node kind with one incoming relation. -/
def sage1 {M : Nat} (m xr : Mat M 256) (Wl : Mat 256 256) (bl : Mat 1 256) (Wr : Mat 256 256) : Mat M 256 :=
  fun i => sage1At m xr Wl bl Wr (i 0) (i 1)

/-- Entry `(r, q)` of the update of the node kind with two incoming relations: half the sum of the two
    relations' updates, then the positive part. -/
def sage2At {M : Nat} (mu mm xr : Mat M 256) (Wl0 : Mat 256 256) (b0 : Mat 1 256) (Wr0 : Mat 256 256)
    (Wl2 : Mat 256 256) (b2 : Mat 1 256) (Wr2 : Mat 256 256) (r : Fin M) (q : Fin 256) : EReal :=
  max (half * (((rowcol mu Wl0 r q + b0 (ix2 0 q)) + rowcol xr Wr0 r q)
      + ((rowcol mm Wl2 r q + b2 (ix2 0 q)) + rowcol xr Wr2 r q))) zero

/-- The update of the node kind with two incoming relations. -/
def sage2 {M : Nat} (mu mm xr : Mat M 256) (Wl0 : Mat 256 256) (b0 : Mat 1 256) (Wr0 : Mat 256 256)
    (Wl2 : Mat 256 256) (b2 : Mat 1 256) (Wr2 : Mat 256 256) : Mat M 256 :=
  fun i => sage2At mu mm xr Wl0 b0 Wr0 Wl2 b2 Wr2 (i 0) (i 1)

/-- Entry `(r, j)` of the hidden layer of a head: `max ((x · W₁) + b₁) 0`. -/
def hiddenAt {M : Nat} (x : Mat M 256) (W1 : Mat 256 128) (b1 : Mat 1 128) (r : Fin M) (j : Fin 128) : EReal :=
  max (rowcol x W1 r j + b1 (ix2 0 j)) zero

/-- Entry `(r, q)` of a two-layer head with one output column: `(max ((x · W₁) + b₁) 0) · W₂ + b₂`. -/
def headAt {M : Nat} (x : Mat M 256) (W1 : Mat 256 128) (b1 : Mat 1 128) (W2 : Mat 128 1) (b2 : Mat 1 1)
    (r : Fin M) (q : Fin 1) : EReal :=
  dot (fun j => hiddenAt x W1 b1 r j) (fun j => W2 (ix2 j q)) + b2 (ix2 0 q)

/-- A two-layer head with one output column. -/
def head {M : Nat} (x : Mat M 256) (W1 : Mat 256 128) (b1 : Mat 1 128) (W2 : Mat 128 1) (b2 : Mat 1 1) : Mat M 1 :=
  fun i => headAt x W1 b1 W2 b2 (i 0) (i 1)

end Cert.Spec

end
-- ==== Proof.RefStages.lean ====
/-
  The reference program's stages, read entry by entry.

  The reference computes every dense layer as one whole matrix product followed by whole-array additions, a scaling and
  a positive part.  Read at an entry `(p, q)`, a matrix product is the sum over `k` of row `p` of the left factor
  against column `q` of the right one, a bias broadcast along the rows is the bias entry of column `q`, and the
  remaining operations act entry by entry; so each layer's result is the corresponding function of `Spec` of the
  layer's operands.  The operands themselves (neighbourhood means, slices of the stacked parameters) are kept as the
  reference names them: nothing about them is needed beyond their names.
-/
import proofs.«106822_j76312978915563_2_alg».proof.Proof.RefRead
import proofs.«106822_j76312978915563_2_alg».proof.Proof.Spec
import Idealize.ShloMosaic.Lib.ValueIdx
import Idealize.ShloMosaic.Lib.ValueLayout

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.SL.Sem Idealize.ShloMosaic.ValueIdx

/-- The projected transaction features: each entry is a row of the features against a column of the projection matrix, plus the bias entry of that column. -/
theorem proj_eq (x0 : (⟨S100000x32, .f32⟩ : BufTy).Contents (Elt Ideal)) (x3 : (⟨S32x256, .f32⟩ : BufTy).Contents (Elt Ideal)) (x4 : (⟨S256, .f32⟩ : BufTy).Contents (Elt Ideal)) (hS1x256 : (S256 : Shape).ShapeCasts S1x256) :
    (val_main_v3 (F := Ideal) x0 x3 x4) = Spec.affine x0 x3 (shapeCast S1x256 x4 hS1x256) := by
  funext i
  obtain ⟨p, q, rfl⟩ : ∃ (p : Fin 100000) (q : Fin 256), i = ix2 p q := ⟨i 0, i 1, eq_ix2 i⟩
  rw [val_main_v3_apply, val_main_v0_apply, val_main_v2_apply, val_main_v1_apply]
  have l_v0 : ∀ k, lidx_main_v0 (ix2 p q) k = ix2 p k := fun k => funext fun a => by match a with | ⟨0, _⟩ => rfl | ⟨1, _⟩ => rfl
  have r_v0 : ∀ k, ridx_main_v0 (ix2 p q) k = ix2 k q := fun k => funext fun a => by match a with | ⟨0, _⟩ => rfl | ⟨1, _⟩ => rfl
  have b_v2 : idx_main_v1 (idx_main_v2 (ix2 p q)) = ix1 q := funext fun a => by match a with | ⟨0, _⟩ => rfl
  show _ = Spec.affineAt x0 x3 (shapeCast S1x256 x4 hS1x256) p q
  unfold Spec.affineAt Spec.rowcol Spec.dot
  simp only [shapeCast_a_1a_apply, l_v0, r_v0, b_v2]
  rfl

/-- The transaction features after the first layer: half the sum of the update along the user relation and the update along the merchant relation, then the positive part. -/
theorem tx1_eq (x0 : (⟨S100000x32, .f32⟩ : BufTy).Contents (Elt Ideal)) (x1 : (⟨S20000x256, .f32⟩ : BufTy).Contents (Elt Ideal)) (x2 : (⟨S5000x256, .f32⟩ : BufTy).Contents (Elt Ideal)) (x3 : (⟨S32x256, .f32⟩ : BufTy).Contents (Elt Ideal)) (x4 : (⟨S256, .f32⟩ : BufTy).Contents (Elt Ideal)) (x5 : (⟨S2x4x256x256, .f32⟩ : BufTy).Contents (Elt Ideal)) (x6 : (⟨S2x4x256, .f32⟩ : BufTy).Contents (Elt Ideal)) (x7 : (⟨S2x4x256x256, .f32⟩ : BufTy).Contents (Elt Ideal)) (x16 : (⟨S400000, .i32⟩ : BufTy).Contents (Elt Ideal)) (x17 : (⟨S400000, .i32⟩ : BufTy).Contents (Elt Ideal)) (x20 : (⟨S400000, .i32⟩ : BufTy).Contents (Elt Ideal)) (x21 : (⟨S400000, .i32⟩ : BufTy).Contents (Elt Ideal)) (hS1x256 : (S256 : Shape).ShapeCasts S1x256) :
    (val_main_v131 (F := Ideal) x0 x1 x2 x3 x4 x5 x6 x7 x16 x17 x20 x21) = Spec.sage2 (val_main_v28 (F := Ideal) x1 x16 x17) (val_main_v90 (F := Ideal) x2 x20 x21) (val_main_v3 (F := Ideal) x0 x3 x4) (val_main_v5 (F := Ideal) x5) (shapeCast S1x256 (val_main_v7 (F := Ideal) x6) hS1x256) (val_main_v9 (F := Ideal) x7) (val_main_v67 (F := Ideal) x5) (shapeCast S1x256 (val_main_v69 (F := Ideal) x6) hS1x256) (val_main_v71 (F := Ideal) x7) := by
  funext i
  obtain ⟨p, q, rfl⟩ : ∃ (p : Fin 100000) (q : Fin 256), i = ix2 p q := ⟨i 0, i 1, eq_ix2 i⟩
  rw [val_main_v131_apply, val_main_v130_apply, val_main_v129_apply, val_main_cst_22_apply, val_main_v128_apply, val_main_v34_apply, val_main_v32_apply, val_main_v29_apply, val_main_v31_apply, val_main_v30_apply, val_main_v33_apply, val_main_v96_apply, val_main_v94_apply, val_main_v91_apply, val_main_v93_apply, val_main_v92_apply, val_main_v95_apply, val_main_call0_v0_apply, val_main_call0_cst_apply]
  have l_v29 : ∀ k, lidx_main_v29 (ix2 p q) k = ix2 p k := fun k => funext fun a => by match a with | ⟨0, _⟩ => rfl | ⟨1, _⟩ => rfl
  have r_v29 : ∀ k, ridx_main_v29 (ix2 p q) k = ix2 k q := fun k => funext fun a => by match a with | ⟨0, _⟩ => rfl | ⟨1, _⟩ => rfl
  have l_v33 : ∀ k, lidx_main_v33 (ix2 p q) k = ix2 p k := fun k => funext fun a => by match a with | ⟨0, _⟩ => rfl | ⟨1, _⟩ => rfl
  have r_v33 : ∀ k, ridx_main_v33 (ix2 p q) k = ix2 k q := fun k => funext fun a => by match a with | ⟨0, _⟩ => rfl | ⟨1, _⟩ => rfl
  have l_v91 : ∀ k, lidx_main_v91 (ix2 p q) k = ix2 p k := fun k => funext fun a => by match a with | ⟨0, _⟩ => rfl | ⟨1, _⟩ => rfl
  have r_v91 : ∀ k, ridx_main_v91 (ix2 p q) k = ix2 k q := fun k => funext fun a => by match a with | ⟨0, _⟩ => rfl | ⟨1, _⟩ => rfl
  have l_v95 : ∀ k, lidx_main_v95 (ix2 p q) k = ix2 p k := fun k => funext fun a => by match a with | ⟨0, _⟩ => rfl | ⟨1, _⟩ => rfl
  have r_v95 : ∀ k, ridx_main_v95 (ix2 p q) k = ix2 k q := fun k => funext fun a => by match a with | ⟨0, _⟩ => rfl | ⟨1, _⟩ => rfl
  have b_v31 : idx_main_v30 (idx_main_v31 (ix2 p q)) = ix1 q := funext fun a => by match a with | ⟨0, _⟩ => rfl
  have b_v93 : idx_main_v92 (idx_main_v93 (ix2 p q)) = ix1 q := funext fun a => by match a with | ⟨0, _⟩ => rfl
  show _ = Spec.sage2At (val_main_v28 (F := Ideal) x1 x16 x17) (val_main_v90 (F := Ideal) x2 x20 x21) (val_main_v3 (F := Ideal) x0 x3 x4) (val_main_v5 (F := Ideal) x5) (shapeCast S1x256 (val_main_v7 (F := Ideal) x6) hS1x256) (val_main_v9 (F := Ideal) x7) (val_main_v67 (F := Ideal) x5) (shapeCast S1x256 (val_main_v69 (F := Ideal) x6) hS1x256) (val_main_v71 (F := Ideal) x7) p q
  unfold Spec.sage2At Spec.rowcol Spec.dot
  simp only [shapeCast_a_1a_apply, l_v29, r_v29, l_v33, r_v33, l_v91, r_v91, l_v95, r_v95, b_v31, b_v93]
  rfl

/-- The merchant features after the first layer. -/
theorem merch1_eq (x0 : (⟨S100000x32, .f32⟩ : BufTy).Contents (Elt Ideal)) (x2 : (⟨S5000x256, .f32⟩ : BufTy).Contents (Elt Ideal)) (x3 : (⟨S32x256, .f32⟩ : BufTy).Contents (Elt Ideal)) (x4 : (⟨S256, .f32⟩ : BufTy).Contents (Elt Ideal)) (x5 : (⟨S2x4x256x256, .f32⟩ : BufTy).Contents (Elt Ideal)) (x6 : (⟨S2x4x256, .f32⟩ : BufTy).Contents (Elt Ideal)) (x7 : (⟨S2x4x256x256, .f32⟩ : BufTy).Contents (Elt Ideal)) (x18 : (⟨S400000, .i32⟩ : BufTy).Contents (Elt Ideal)) (x19 : (⟨S400000, .i32⟩ : BufTy).Contents (Elt Ideal)) (hS1x256 : (S256 : Shape).ShapeCasts S1x256) :
    (val_main_v132 (F := Ideal) x0 x2 x3 x4 x5 x6 x7 x18 x19) = Spec.sage1 (val_main_v59 (F := Ideal) x0 x3 x4 x18 x19) x2 (val_main_v36 (F := Ideal) x5) (shapeCast S1x256 (val_main_v38 (F := Ideal) x6) hS1x256) (val_main_v40 (F := Ideal) x7) := by
  funext i
  obtain ⟨p, q, rfl⟩ : ∃ (p : Fin 5000) (q : Fin 256), i = ix2 p q := ⟨i 0, i 1, eq_ix2 i⟩
  rw [val_main_v132_apply, val_main_v65_apply, val_main_v63_apply, val_main_v60_apply, val_main_v62_apply, val_main_v61_apply, val_main_v64_apply, val_main_call1_v0_apply, val_main_call1_cst_apply]
  have l_v60 : ∀ k, lidx_main_v60 (ix2 p q) k = ix2 p k := fun k => funext fun a => by match a with | ⟨0, _⟩ => rfl | ⟨1, _⟩ => rfl
  have r_v60 : ∀ k, ridx_main_v60 (ix2 p q) k = ix2 k q := fun k => funext fun a => by match a with | ⟨0, _⟩ => rfl | ⟨1, _⟩ => rfl
  have l_v64 : ∀ k, lidx_main_v64 (ix2 p q) k = ix2 p k := fun k => funext fun a => by match a with | ⟨0, _⟩ => rfl | ⟨1, _⟩ => rfl
  have r_v64 : ∀ k, ridx_main_v64 (ix2 p q) k = ix2 k q := fun k => funext fun a => by match a with | ⟨0, _⟩ => rfl | ⟨1, _⟩ => rfl
  have b_v62 : idx_main_v61 (idx_main_v62 (ix2 p q)) = ix1 q := funext fun a => by match a with | ⟨0, _⟩ => rfl
  show _ = Spec.sage1At (val_main_v59 (F := Ideal) x0 x3 x4 x18 x19) x2 (val_main_v36 (F := Ideal) x5) (shapeCast S1x256 (val_main_v38 (F := Ideal) x6) hS1x256) (val_main_v40 (F := Ideal) x7) p q
  unfold Spec.sage1At Spec.rowcol Spec.dot
  simp only [shapeCast_a_1a_apply, l_v60, r_v60, l_v64, r_v64, b_v62]
  rfl

/-- The user features after the first layer. -/
theorem user1_eq (x0 : (⟨S100000x32, .f32⟩ : BufTy).Contents (Elt Ideal)) (x1 : (⟨S20000x256, .f32⟩ : BufTy).Contents (Elt Ideal)) (x3 : (⟨S32x256, .f32⟩ : BufTy).Contents (Elt Ideal)) (x4 : (⟨S256, .f32⟩ : BufTy).Contents (Elt Ideal)) (x5 : (⟨S2x4x256x256, .f32⟩ : BufTy).Contents (Elt Ideal)) (x6 : (⟨S2x4x256, .f32⟩ : BufTy).Contents (Elt Ideal)) (x7 : (⟨S2x4x256x256, .f32⟩ : BufTy).Contents (Elt Ideal)) (x22 : (⟨S400000, .i32⟩ : BufTy).Contents (Elt Ideal)) (x23 : (⟨S400000, .i32⟩ : BufTy).Contents (Elt Ideal)) (hS1x256 : (S256 : Shape).ShapeCasts S1x256) :
    (val_main_v133 (F := Ideal) x0 x1 x3 x4 x5 x6 x7 x22 x23) = Spec.sage1 (val_main_v121 (F := Ideal) x0 x3 x4 x22 x23) x1 (val_main_v98 (F := Ideal) x5) (shapeCast S1x256 (val_main_v100 (F := Ideal) x6) hS1x256) (val_main_v102 (F := Ideal) x7) := by
  funext i
  obtain ⟨p, q, rfl⟩ : ∃ (p : Fin 20000) (q : Fin 256), i = ix2 p q := ⟨i 0, i 1, eq_ix2 i⟩
  rw [val_main_v133_apply, val_main_v127_apply, val_main_v125_apply, val_main_v122_apply, val_main_v124_apply, val_main_v123_apply, val_main_v126_apply, val_main_call2_v0_apply, val_main_call2_cst_apply]
  have l_v122 : ∀ k, lidx_main_v122 (ix2 p q) k = ix2 p k := fun k => funext fun a => by match a with | ⟨0, _⟩ => rfl | ⟨1, _⟩ => rfl
  have r_v122 : ∀ k, ridx_main_v122 (ix2 p q) k = ix2 k q := fun k => funext fun a => by match a with | ⟨0, _⟩ => rfl | ⟨1, _⟩ => rfl
  have l_v126 : ∀ k, lidx_main_v126 (ix2 p q) k = ix2 p k := fun k => funext fun a => by match a with | ⟨0, _⟩ => rfl | ⟨1, _⟩ => rfl
  have r_v126 : ∀ k, ridx_main_v126 (ix2 p q) k = ix2 k q := fun k => funext fun a => by match a with | ⟨0, _⟩ => rfl | ⟨1, _⟩ => rfl
  have b_v124 : idx_main_v123 (idx_main_v124 (ix2 p q)) = ix1 q := funext fun a => by match a with | ⟨0, _⟩ => rfl
  show _ = Spec.sage1At (val_main_v121 (F := Ideal) x0 x3 x4 x22 x23) x1 (val_main_v98 (F := Ideal) x5) (shapeCast S1x256 (val_main_v100 (F := Ideal) x6) hS1x256) (val_main_v102 (F := Ideal) x7) p q
  unfold Spec.sage1At Spec.rowcol Spec.dot
  simp only [shapeCast_a_1a_apply, l_v122, r_v122, l_v126, r_v126, b_v124]
  rfl

/-- The transaction features after the second layer. -/
theorem tx2_eq (x0 : (⟨S100000x32, .f32⟩ : BufTy).Contents (Elt Ideal)) (x1 : (⟨S20000x256, .f32⟩ : BufTy).Contents (Elt Ideal)) (x2 : (⟨S5000x256, .f32⟩ : BufTy).Contents (Elt Ideal)) (x3 : (⟨S32x256, .f32⟩ : BufTy).Contents (Elt Ideal)) (x4 : (⟨S256, .f32⟩ : BufTy).Contents (Elt Ideal)) (x5 : (⟨S2x4x256x256, .f32⟩ : BufTy).Contents (Elt Ideal)) (x6 : (⟨S2x4x256, .f32⟩ : BufTy).Contents (Elt Ideal)) (x7 : (⟨S2x4x256x256, .f32⟩ : BufTy).Contents (Elt Ideal)) (x16 : (⟨S400000, .i32⟩ : BufTy).Contents (Elt Ideal)) (x17 : (⟨S400000, .i32⟩ : BufTy).Contents (Elt Ideal)) (x18 : (⟨S400000, .i32⟩ : BufTy).Contents (Elt Ideal)) (x19 : (⟨S400000, .i32⟩ : BufTy).Contents (Elt Ideal)) (x20 : (⟨S400000, .i32⟩ : BufTy).Contents (Elt Ideal)) (x21 : (⟨S400000, .i32⟩ : BufTy).Contents (Elt Ideal)) (x22 : (⟨S400000, .i32⟩ : BufTy).Contents (Elt Ideal)) (x23 : (⟨S400000, .i32⟩ : BufTy).Contents (Elt Ideal)) (hS1x256 : (S256 : Shape).ShapeCasts S1x256) :
    (val_main_v261 (F := Ideal) x0 x1 x2 x3 x4 x5 x6 x7 x16 x17 x18 x19 x20 x21 x22 x23) = Spec.sage2 (val_main_v158 (F := Ideal) x0 x1 x3 x4 x5 x6 x7 x16 x17 x22 x23) (val_main_v220 (F := Ideal) x0 x2 x3 x4 x5 x6 x7 x18 x19 x20 x21) (val_main_v131 (F := Ideal) x0 x1 x2 x3 x4 x5 x6 x7 x16 x17 x20 x21) (val_main_v135 (F := Ideal) x5) (shapeCast S1x256 (val_main_v137 (F := Ideal) x6) hS1x256) (val_main_v139 (F := Ideal) x7) (val_main_v197 (F := Ideal) x5) (shapeCast S1x256 (val_main_v199 (F := Ideal) x6) hS1x256) (val_main_v201 (F := Ideal) x7) := by
  funext i
  obtain ⟨p, q, rfl⟩ : ∃ (p : Fin 100000) (q : Fin 256), i = ix2 p q := ⟨i 0, i 1, eq_ix2 i⟩
  rw [val_main_v261_apply, val_main_v260_apply, val_main_v259_apply, val_main_cst_47_apply, val_main_v258_apply, val_main_v164_apply, val_main_v162_apply, val_main_v159_apply, val_main_v161_apply, val_main_v160_apply, val_main_v163_apply, val_main_v226_apply, val_main_v224_apply, val_main_v221_apply, val_main_v223_apply, val_main_v222_apply, val_main_v225_apply, val_main_call3_v0_apply, val_main_call3_cst_apply]
  have l_v159 : ∀ k, lidx_main_v159 (ix2 p q) k = ix2 p k := fun k => funext fun a => by match a with | ⟨0, _⟩ => rfl | ⟨1, _⟩ => rfl
  have r_v159 : ∀ k, ridx_main_v159 (ix2 p q) k = ix2 k q := fun k => funext fun a => by match a with | ⟨0, _⟩ => rfl | ⟨1, _⟩ => rfl
  have l_v163 : ∀ k, lidx_main_v163 (ix2 p q) k = ix2 p k := fun k => funext fun a => by match a with | ⟨0, _⟩ => rfl | ⟨1, _⟩ => rfl
  have r_v163 : ∀ k, ridx_main_v163 (ix2 p q) k = ix2 k q := fun k => funext fun a => by match a with | ⟨0, _⟩ => rfl | ⟨1, _⟩ => rfl
  have l_v221 : ∀ k, lidx_main_v221 (ix2 p q) k = ix2 p k := fun k => funext fun a => by match a with | ⟨0, _⟩ => rfl | ⟨1, _⟩ => rfl
  have r_v221 : ∀ k, ridx_main_v221 (ix2 p q) k = ix2 k q := fun k => funext fun a => by match a with | ⟨0, _⟩ => rfl | ⟨1, _⟩ => rfl
  have l_v225 : ∀ k, lidx_main_v225 (ix2 p q) k = ix2 p k := fun k => funext fun a => by match a with | ⟨0, _⟩ => rfl | ⟨1, _⟩ => rfl
  have r_v225 : ∀ k, ridx_main_v225 (ix2 p q) k = ix2 k q := fun k => funext fun a => by match a with | ⟨0, _⟩ => rfl | ⟨1, _⟩ => rfl
  have b_v161 : idx_main_v160 (idx_main_v161 (ix2 p q)) = ix1 q := funext fun a => by match a with | ⟨0, _⟩ => rfl
  have b_v223 : idx_main_v222 (idx_main_v223 (ix2 p q)) = ix1 q := funext fun a => by match a with | ⟨0, _⟩ => rfl
  show _ = Spec.sage2At (val_main_v158 (F := Ideal) x0 x1 x3 x4 x5 x6 x7 x16 x17 x22 x23) (val_main_v220 (F := Ideal) x0 x2 x3 x4 x5 x6 x7 x18 x19 x20 x21) (val_main_v131 (F := Ideal) x0 x1 x2 x3 x4 x5 x6 x7 x16 x17 x20 x21) (val_main_v135 (F := Ideal) x5) (shapeCast S1x256 (val_main_v137 (F := Ideal) x6) hS1x256) (val_main_v139 (F := Ideal) x7) (val_main_v197 (F := Ideal) x5) (shapeCast S1x256 (val_main_v199 (F := Ideal) x6) hS1x256) (val_main_v201 (F := Ideal) x7) p q
  unfold Spec.sage2At Spec.rowcol Spec.dot
  simp only [shapeCast_a_1a_apply, l_v159, r_v159, l_v163, r_v163, l_v221, r_v221, l_v225, r_v225, b_v161, b_v223]
  rfl

/-- The first head's column before its last axis is dropped: the hidden layer of the final transaction features against the head's single output column, plus its bias. -/
theorem head0_eq (x0 : (⟨S100000x32, .f32⟩ : BufTy).Contents (Elt Ideal)) (x1 : (⟨S20000x256, .f32⟩ : BufTy).Contents (Elt Ideal)) (x2 : (⟨S5000x256, .f32⟩ : BufTy).Contents (Elt Ideal)) (x3 : (⟨S32x256, .f32⟩ : BufTy).Contents (Elt Ideal)) (x4 : (⟨S256, .f32⟩ : BufTy).Contents (Elt Ideal)) (x5 : (⟨S2x4x256x256, .f32⟩ : BufTy).Contents (Elt Ideal)) (x6 : (⟨S2x4x256, .f32⟩ : BufTy).Contents (Elt Ideal)) (x7 : (⟨S2x4x256x256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x16 : (⟨S400000, .i32⟩ : BufTy).Contents (Elt Ideal)) (x17 : (⟨S400000, .i32⟩ : BufTy).Contents (Elt Ideal)) (x18 : (⟨S400000, .i32⟩ : BufTy).Contents (Elt Ideal)) (x19 : (⟨S400000, .i32⟩ : BufTy).Contents (Elt Ideal)) (x20 : (⟨S400000, .i32⟩ : BufTy).Contents (Elt Ideal)) (x21 : (⟨S400000, .i32⟩ : BufTy).Contents (Elt Ideal)) (x22 : (⟨S400000, .i32⟩ : BufTy).Contents (Elt Ideal)) (x23 : (⟨S400000, .i32⟩ : BufTy).Contents (Elt Ideal)) (hS1x128 : (S128 : Shape).ShapeCasts S1x128) (hS1x1 : (S1 : Shape).ShapeCasts S1x1) :
    (val_main_v272 (F := Ideal) x0 x1 x2 x3 x4 x5 x6 x7 x8 x9 x10 x11 x16 x17 x18 x19 x20 x21 x22 x23) = Spec.head (val_main_v261 (F := Ideal) x0 x1 x2 x3 x4 x5 x6 x7 x16 x17 x18 x19 x20 x21 x22 x23) x8 (shapeCast S1x128 x9 hS1x128) x10 (shapeCast S1x1 x11 hS1x1) := by
  funext i
  obtain ⟨p, q, rfl⟩ : ∃ (p : Fin 100000) (q : Fin 1), i = ix2 p q := ⟨i 0, i 1, eq_ix2 i⟩
  rw [val_main_v272_apply, val_main_v269_apply, val_main_v271_apply, val_main_v270_apply]
  have l2 : ∀ k, lidx_main_v269 (ix2 p q) k = ix2 p k := fun k => funext fun a => by match a with | ⟨0, _⟩ => rfl | ⟨1, _⟩ => rfl
  have r2 : ∀ k, ridx_main_v269 (ix2 p q) k = ix2 k q := fun k => funext fun a => by match a with | ⟨0, _⟩ => rfl | ⟨1, _⟩ => rfl
  have b2 : idx_main_v270 (idx_main_v271 (ix2 p q)) = ix1 q := funext fun a => by match a with | ⟨0, _⟩ => exact Fin.ext (by show (0 : Nat) = q.val; omega)
  have l1 : ∀ (j : Fin 128) k, lidx_main_v264 (ix2 p j) k = ix2 p k := fun j k => funext fun a => by match a with | ⟨0, _⟩ => rfl | ⟨1, _⟩ => rfl
  have r1 : ∀ (j : Fin 128) k, ridx_main_v264 (ix2 p j) k = ix2 k j := fun j k => funext fun a => by match a with | ⟨0, _⟩ => rfl | ⟨1, _⟩ => rfl
  have b1 : ∀ j : Fin 128, idx_main_v265 (idx_main_v266 (ix2 p j)) = ix1 j := fun j => funext fun a => by match a with | ⟨0, _⟩ => rfl
  show _ = Spec.headAt (val_main_v261 (F := Ideal) x0 x1 x2 x3 x4 x5 x6 x7 x16 x17 x18 x19 x20 x21 x22 x23) x8 (shapeCast S1x128 x9 hS1x128) x10 (shapeCast S1x1 x11 hS1x1) p q
  unfold Spec.headAt Spec.hiddenAt Spec.rowcol Spec.dot
  simp only [l2, r2, b2, val_main_v268_apply, val_main_v267_apply, val_main_v264_apply, val_main_v266_apply, val_main_v265_apply, val_main_call6_v0_apply, val_main_call6_cst_apply, l1, r1, b1, shapeCast_a_1a_apply]
  rfl

/-- The second head's column before its last axis is dropped. -/
theorem head1_eq (x0 : (⟨S100000x32, .f32⟩ : BufTy).Contents (Elt Ideal)) (x1 : (⟨S20000x256, .f32⟩ : BufTy).Contents (Elt Ideal)) (x2 : (⟨S5000x256, .f32⟩ : BufTy).Contents (Elt Ideal)) (x3 : (⟨S32x256, .f32⟩ : BufTy).Contents (Elt Ideal)) (x4 : (⟨S256, .f32⟩ : BufTy).Contents (Elt Ideal)) (x5 : (⟨S2x4x256x256, .f32⟩ : BufTy).Contents (Elt Ideal)) (x6 : (⟨S2x4x256, .f32⟩ : BufTy).Contents (Elt Ideal)) (x7 : (⟨S2x4x256x256, .f32⟩ : BufTy).Contents (Elt Ideal)) (x12 : (⟨S256x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) (x16 : (⟨S400000, .i32⟩ : BufTy).Contents (Elt Ideal)) (x17 : (⟨S400000, .i32⟩ : BufTy).Contents (Elt Ideal)) (x18 : (⟨S400000, .i32⟩ : BufTy).Contents (Elt Ideal)) (x19 : (⟨S400000, .i32⟩ : BufTy).Contents (Elt Ideal)) (x20 : (⟨S400000, .i32⟩ : BufTy).Contents (Elt Ideal)) (x21 : (⟨S400000, .i32⟩ : BufTy).Contents (Elt Ideal)) (x22 : (⟨S400000, .i32⟩ : BufTy).Contents (Elt Ideal)) (x23 : (⟨S400000, .i32⟩ : BufTy).Contents (Elt Ideal)) (hS1x128 : (S128 : Shape).ShapeCasts S1x128) (hS1x1 : (S1 : Shape).ShapeCasts S1x1) :
    (val_main_v282 (F := Ideal) x0 x1 x2 x3 x4 x5 x6 x7 x12 x13 x14 x15 x16 x17 x18 x19 x20 x21 x22 x23) = Spec.head (val_main_v261 (F := Ideal) x0 x1 x2 x3 x4 x5 x6 x7 x16 x17 x18 x19 x20 x21 x22 x23) x12 (shapeCast S1x128 x13 hS1x128) x14 (shapeCast S1x1 x15 hS1x1) := by
  funext i
  obtain ⟨p, q, rfl⟩ : ∃ (p : Fin 100000) (q : Fin 1), i = ix2 p q := ⟨i 0, i 1, eq_ix2 i⟩
  rw [val_main_v282_apply, val_main_v279_apply, val_main_v281_apply, val_main_v280_apply]
  have l2 : ∀ k, lidx_main_v279 (ix2 p q) k = ix2 p k := fun k => funext fun a => by match a with | ⟨0, _⟩ => rfl | ⟨1, _⟩ => rfl
  have r2 : ∀ k, ridx_main_v279 (ix2 p q) k = ix2 k q := fun k => funext fun a => by match a with | ⟨0, _⟩ => rfl | ⟨1, _⟩ => rfl
  have b2 : idx_main_v280 (idx_main_v281 (ix2 p q)) = ix1 q := funext fun a => by match a with | ⟨0, _⟩ => exact Fin.ext (by show (0 : Nat) = q.val; omega)
  have l1 : ∀ (j : Fin 128) k, lidx_main_v274 (ix2 p j) k = ix2 p k := fun j k => funext fun a => by match a with | ⟨0, _⟩ => rfl | ⟨1, _⟩ => rfl
  have r1 : ∀ (j : Fin 128) k, ridx_main_v274 (ix2 p j) k = ix2 k j := fun j k => funext fun a => by match a with | ⟨0, _⟩ => rfl | ⟨1, _⟩ => rfl
  have b1 : ∀ j : Fin 128, idx_main_v275 (idx_main_v276 (ix2 p j)) = ix1 j := fun j => funext fun a => by match a with | ⟨0, _⟩ => rfl
  show _ = Spec.headAt (val_main_v261 (F := Ideal) x0 x1 x2 x3 x4 x5 x6 x7 x16 x17 x18 x19 x20 x21 x22 x23) x12 (shapeCast S1x128 x13 hS1x128) x14 (shapeCast S1x1 x15 hS1x1) p q
  unfold Spec.headAt Spec.hiddenAt Spec.rowcol Spec.dot
  simp only [l2, r2, b2, val_main_v278_apply, val_main_v277_apply, val_main_v274_apply, val_main_v276_apply, val_main_v275_apply, val_main_call7_v0_apply, val_main_call7_cst_apply, l1, r1, b1, shapeCast_a_1a_apply]
  rfl

end Cert.ReferenceIdeal.Stages

end
-- ==== Proof.Region0.lean ====
/-
  The input projection, array by array.

  Each of the 250 grid points reads rows `400 t … 400 t + 399` of the node features (a 400x32 block), the whole
  32x256 weight matrix and the whole 1x256 bias row, and writes a 400x256 block: entry `(p, q)` is the block's row
  `p` against the weight's column `q`, plus the bias entry `q`. Read in the array's own coordinates that is entry
  `(400 t + p, q)` of `x · W + b`; the 250 row blocks fill the 100000x256 result, row `r` coming from point `r / 400`.
-/
import proofs.«106822_j76312978915563_2_alg».proof.Proof.Gen.KernelIdeal.Frame
import proofs.«106822_j76312978915563_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem Idealize.ShloMosaic.ValueIdx

/-- In this product the left operand's row coordinate is the output's row. -/
theorem matmul_apply0_l0 (i : S400x256.Idx) (c : dot_S400x32_S32x256_S400x256_1_0_0_1_n_n.contr.Idx) : (dot_S400x32_S32x256_S400x256_1_0_0_1_n_n.lhsIdx i c 0).val = (i 0).val := by
  unfold DotDims.lhsIdx
  rw [dif_neg (show ¬(0 : Fin S400x32.rank) ∈ dot_S400x32_S32x256_S400x256_1_0_0_1_n_n.lhsBatch by decide),
    dif_pos (show (0 : Fin S400x32.rank) ∈ dot_S400x32_S32x256_S400x256_1_0_0_1_n_n.lhsNonContracting by decide)]
  rfl
/-- In this product the left operand's column coordinate is the summation index. -/
theorem matmul_apply0_l1 (i : S400x256.Idx) (c : dot_S400x32_S32x256_S400x256_1_0_0_1_n_n.contr.Idx) : (dot_S400x32_S32x256_S400x256_1_0_0_1_n_n.lhsIdx i c 1).val = (c ⟨0, by decide⟩).val :=
  dot_S400x32_S32x256_S400x256_1_0_0_1_n_n.lhsIdx_val_of_single rfl i c
/-- In this product the right operand's row coordinate is the summation index. -/
theorem matmul_apply0_r0 (i : S400x256.Idx) (c : dot_S400x32_S32x256_S400x256_1_0_0_1_n_n.contr.Idx) : (dot_S400x32_S32x256_S400x256_1_0_0_1_n_n.rhsIdx i c 0).val = (c ⟨0, by decide⟩).val :=
  dot_S400x32_S32x256_S400x256_1_0_0_1_n_n.rhsIdx_val_of_single rfl i c
/-- In this product the right operand's column coordinate is the output's column. -/
theorem matmul_apply0_r1 (i : S400x256.Idx) (c : dot_S400x32_S32x256_S400x256_1_0_0_1_n_n.contr.Idx) : (dot_S400x32_S32x256_S400x256_1_0_0_1_n_n.rhsIdx i c 1).val = (i 1).val := by
  unfold DotDims.rhsIdx
  rw [dif_neg (show ¬(1 : Fin S32x256.rank) ∈ dot_S400x32_S32x256_S400x256_1_0_0_1_n_n.rhsBatch by decide),
    dif_pos (show (1 : Fin S32x256.rank) ∈ dot_S400x32_S32x256_S400x256_1_0_0_1_n_n.rhsNonContracting by decide)]
  rfl

/-- A product of a 400x32 block with the 32x256 matrix into a zero accumulator, read at an entry, is the block's row against the matrix's column. -/
theorem matmul_apply0 (a : FVec Ideal S400x32 .bf16) (b : FVec Ideal S32x256 .bf16) (p : Fin 400) (q : Fin 256) :
    matmul dot_S400x32_S32x256_S400x256_1_0_0_1_n_n none a b (constant S400x256 .f32 0x00000000#32) (ix2 p q)
      = ∑ k : Fin 32, a (ix2 p k) * b (ix2 k q) := by
  refine (Ideal.matmul_constant_zero_apply dot_S400x32_S32x256_S400x256_1_0_0_1_n_n none a b (ix2 p q)).trans ?_
  rw [← Equiv.sum_comp (ValueIdx.contrEquiv1 dot_S400x32_S32x256_S400x256_1_0_0_1_n_n 32 rfl rfl).symm]
  refine Finset.sum_congr rfl fun k _ => ?_
  have hk := ValueIdx.contrEquiv1_symm_val dot_S400x32_S32x256_S400x256_1_0_0_1_n_n 32 rfl rfl k
  have el : dot_S400x32_S32x256_S400x256_1_0_0_1_n_n.lhsIdx (ix2 p q) ((ValueIdx.contrEquiv1 dot_S400x32_S32x256_S400x256_1_0_0_1_n_n 32 rfl rfl).symm k) = ix2 p k :=
    funext fun ax => Fin.ext (by
      match ax with
      | ⟨0, _⟩ => exact matmul_apply0_l0 _ _
      | ⟨1, _⟩ => exact (matmul_apply0_l1 _ _).trans hk)
  have er : dot_S400x32_S32x256_S400x256_1_0_0_1_n_n.rhsIdx (ix2 p q) ((ValueIdx.contrEquiv1 dot_S400x32_S32x256_S400x256_1_0_0_1_n_n 32 rfl rfl).symm k) = ix2 k q :=
    funext fun ax => Fin.ext (by
      match ax with
      | ⟨0, _⟩ => exact (matmul_apply0_r0 _ _).trans hk
      | ⟨1, _⟩ => exact matmul_apply0_r1 _ _)
  rw [el, er]

/-- An entry of the body's result: the block's row against the weight's column, plus the bias entry of that column. -/
theorem pay_apply (x0 : Vec Ideal S400x32 .f32) (x1 : Vec Ideal S32x256 .f32) (x2 : Vec Ideal S1x256 .f32) (p : Fin 400) (q : Fin 256) :
    k0_pay1 x0 x1 x2 (ix2 p q) = Spec.affineAt x0 x1 x2 p q := by
  unfold k0_pay1
  refine (addf_apply _ _ _).trans ?_
  rw [matmul_apply0, shapeCast_self, broadcastTo_1b_ab_apply]
  rfl

/-- The zero offsets, as a constant function. -/
theorem hz : (![0, 0] : Fin 2 → Nat) = fun _ => 0 := funext fun a => by fin_cases a <;> rfl

variable (V : (c : Dev nD) → (b : Ref sig .tc) → Buf (Elt Ideal) ((c : Thread nD τ).loc b))

/-- The index maps over the grid: the row-tiled windows sit at block row `t`, column block 0; the weight and the
    bias are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Two affine entries agree when the rows, the columns and the bias entries they read agree. -/
theorem affineAt_congr {M M' K N : Nat} (x : Spec.Mat M K) (x' : Spec.Mat M' K) (W W' : Spec.Mat K N) (b b' : Spec.Mat 1 N)
    (r : Fin M) (r' : Fin M') (q q' : Fin N)
    (hx : ∀ k, x (ix2 r k) = x' (ix2 r' k)) (hW : ∀ k, W (ix2 k q) = W' (ix2 k q')) (hb : b (ix2 0 q) = b' (ix2 0 q')) :
    Spec.affineAt x W b r q = Spec.affineAt x' W' b' r' q' := by
  unfold Spec.affineAt Spec.rowcol Spec.dot
  rw [hb]
  exact congrArg (· + _) (Finset.sum_congr rfl fun k _ => by
    show x (ix2 r k) * W (ix2 k q) = x' (ix2 r' k) * W' (ix2 k q'); rw [hx k, hW k])

/-- The input window's block at point `t` is rows `400 t … 400 t + 399` of the node features. -/
theorem blk0_apply (c : Dev nD) (t : Fin cfg0.N) (x : S400x32.Idx) (k : S100000x32.Idx)
    (hk0 : (k 0).val = 400 * t.val + (x 0).val) (hk1 : (k 1).val = (x 1).val) :
    (iblk0 V c 0 t : Vec Ideal S400x32 .f32) x = (V c main_arg0 : S100000x32.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 400 + 1 * (x 0).val = (k 0).val; rw [e0, hk0]; omega
  | ⟨1, _⟩ => show win0_0.index t (1 : Fin 2) * 32 + 1 * (x 1).val = (k 1).val; rw [e1, hk1]; omega

/-- The weight window's block at every point is the whole weight matrix. -/
theorem blk1_apply (c : Dev nD) (t : Fin cfg0.N) (x : S32x256.Idx) (k : S32x256.Idx)
    (hk0 : (k 0).val = (x 0).val) (hk1 : (k 1).val = (x 1).val) :
    (iblk0 V c 1 t : Vec Ideal S32x256 .f32) x = (V c main_arg3 : S32x256.Idx → EReal) k := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 32 + 1 * (x 0).val = (k 0).val; rw [e0, hk0]; omega
  | ⟨1, _⟩ => show win0_1.index t (1 : Fin 2) * 256 + 1 * (x 1).val = (k 1).val; rw [e1, hk1]; omega

/-- The bias window's block at every point is the whole bias row. -/
theorem blk2_apply (c : Dev nD) (t : Fin cfg0.N) (x : S1x256.Idx) (k : S1x256.Idx)
    (hk0 : (k 0).val = (x 0).val) (hk1 : (k 1).val = (x 1).val) :
    (iblk0 V c 2 t : Vec Ideal S1x256 .f32) x = (V c main_v0 : S1x256.Idx → EReal) k := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 256 + 1 * (x 1).val = (k 1).val; rw [e1, hk1]; omega

/-- What point `t` writes back is block `t` of the affine layer of the arrays as the region finds them: entry
    `(p, q)` of the block is row `400 t + p` of the features against column `q` of the weight, plus bias entry `q`. -/
theorem flushed_eq (c : Dev nD) (t : Fin cfg0.N) :
    (dat0 (F := Ideal) V c).flushed 3 t
      = ((cfg0.win 3).blk t).view.read (Elt Ideal) (Spec.affine (V c main_arg0) (V c main_arg3) (V c main_v0)) := by
  show (cfg0.win 3).cut (grid0.coords t) ((dat0 V c).after 3 t) = _
  rw [after0_3]
  unfold out0_3
  rw [View.canon_unit_zero hz]
  simp only [View.ld_unit_zero (S := S400x32) hz, View.ld_unit_zero (S := S32x256) hz, View.ld_unit_zero (S := S1x256) hz]
  funext j
  obtain ⟨p, q, rfl⟩ : ∃ (p : Fin 400) (q : Fin 256), j = ix2 p q := ⟨j 0, j 1, eq_ix2 j⟩
  obtain ⟨-, -, -, -, -, -, e0, e1⟩ := idx_facts t
  have ht : t.val < 250 := lt_of_lt_of_eq t.isLt N_0
  refine (pay_apply _ _ _ p q).trans ?_
  show Spec.affineAt (iblk0 V c 0 t) (iblk0 V c 1 t) (iblk0 V c 2 t) p q
    = Spec.affineAt (V c main_arg0) (V c main_arg3) (V c main_v0)
        ((((cfg0.win 3).blk t).view.emb (ix2 p q)) 0) ((((cfg0.win 3).blk t).view.emb (ix2 p q)) 1)
  have h0 : ((((cfg0.win 3).blk t).view.emb (ix2 p q)) 0).val = 400 * t.val + p.val := by
    show win0_3.index t (0 : Fin 2) * 400 + 1 * p.val = _; rw [e0]; omega
  have h1 : ((((cfg0.win 3).blk t).view.emb (ix2 p q)) 1).val = q.val := by
    show win0_3.index t (1 : Fin 2) * 256 + 1 * q.val = _; rw [e1]; omega
  refine affineAt_congr _ _ _ _ _ _ _ _ _ _ (fun k => ?_) (fun k => ?_) ?_
  · exact blk0_apply V c t (ix2 p k) _ h0 rfl
  · exact blk1_apply V c t (ix2 k q) _ rfl h1
  · exact blk2_apply V c t (ix2 0 q) _ rfl h1

/-- An index of the result array is in point `t`'s block iff each coordinate is in the block's range on its axis. -/
theorem mem_blk (t : Fin cfg0.N) (i : S100000x256.Idx) :
    i ∈ ((cfg0.win 3).blk t).view.set ↔ ∀ a : Fin 2, win0_3.index t a * S400x256.size a ≤ (i a).val
      ∧ (i a).val < win0_3.index t a * S400x256.size a + S400x256.size a := by
  show i ∈ ((View.whole main_v1).slice (win0_3.rect t)).set ↔ _
  rw [View.set_slice_whole, Rect.mem_set_unit]
  exact Iff.rfl

/-- The result array after the region: the affine layer of the arrays as the region finds them. Row `r` is
    written by point `r / 400`, and the 250 row blocks fill the array. -/
theorem out (c : Dev nD) :
    (dat0 (F := Ideal) V c).arrAt 3 cfg0.N = Spec.affine (V c main_arg0) (V c main_arg3) (V c main_v0) :=
  (dat0 (F := Ideal) V c).arrAt_eq_of_cover 3 _ (fun t _ => flushed_eq V c t) fun i => by
    have hi0 : (i 0).val < 100000 := (i 0).isLt
    have hi1 : (i 1).val < 256 := (i 1).isLt
    have hN : cfg0.N = 250 := N_0
    have hlt : (i 0).val / 400 < cfg0.N := by rw [hN]; omega
    obtain ⟨-, -, -, -, -, -, e0, e1⟩ := idx_facts ⟨(i 0).val / 400, hlt⟩
    refine ⟨⟨(i 0).val / 400, hlt⟩, flush0_3 _, ?_⟩
    rw [mem_blk]
    intro a
    match a with
    | ⟨0, _⟩ =>
      show win0_3.index ⟨(i 0).val / 400, hlt⟩ (0 : Fin 2) * 400 ≤ (i 0).val
        ∧ (i 0).val < win0_3.index ⟨(i 0).val / 400, hlt⟩ (0 : Fin 2) * 400 + 400
      rw [e0]; show (i 0).val / 400 * 400 ≤ (i 0).val ∧ (i 0).val < (i 0).val / 400 * 400 + 400; omega
    | ⟨1, _⟩ =>
      show win0_3.index ⟨(i 0).val / 400, hlt⟩ (1 : Fin 2) * 256 ≤ (i 1).val
        ∧ (i 1).val < win0_3.index ⟨(i 0).val / 400, hlt⟩ (1 : Fin 2) * 256 + 256
      rw [e1]; omega

end Cert.KernelIdeal.Region0

end
-- ==== Proof.Region1.lean ====
/-
  Region 1: the update of the node kind with two incoming relations, block by block.

  The 100000 rows are cut into 250 consecutive blocks of 400 rows. At grid point `t` the body reads rows
  `400 t … 400 t + 399` of the three row-tiled inputs (the two relations' aggregated features `mu`, `mm` and the
  nodes' own features `xr`), the four 256×256 weight matrices and the two bias rows whole, and writes the same rows
  of the output: entry `(p, q)` of the block is

      max (½ · ((((mu · Wl₀) + b₀) + (xr · Wr₀)) + (((mm · Wl₂) + b₂) + (xr · Wr₂)))) 0

  at row `400 t + p` and column `q`, where a product's entry is a row of the left factor against a column of the
  right one. An entry of the output therefore depends on one row of each row-tiled input and on one column of each
  weight and bias. The 250 blocks tile the array, so the array ends holding that function at every entry.
-/
import proofs.«106822_j76312978915563_2_alg».proof.Proof.Gen.KernelIdeal.Frame
import proofs.«106822_j76312978915563_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem Idealize.ShloMosaic.ValueIdx

/-- The operand indices of the product of a 400×256 block with a 256×256 matrix: at output entry `i` and contracted
    position `s` the left factor is read at `(i 0, s)` and the right one at `(s, i 1)`. -/
theorem lhs_0 (i : S400x256.Idx) (s : dot_S400x256_S256x256_S400x256_1_0_0_1_n_n.contr.Idx) :
    (dot_S400x256_S256x256_S400x256_1_0_0_1_n_n.lhsIdx i s 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_1 (i : S400x256.Idx) (s : dot_S400x256_S256x256_S400x256_1_0_0_1_n_n.contr.Idx) :
    (dot_S400x256_S256x256_S400x256_1_0_0_1_n_n.lhsIdx i s 1).val = (s ⟨0, by decide⟩).val :=
  dot_S400x256_S256x256_S400x256_1_0_0_1_n_n.lhsIdx_val_of_single rfl i s
theorem rhs_0 (i : S400x256.Idx) (s : dot_S400x256_S256x256_S400x256_1_0_0_1_n_n.contr.Idx) :
    (dot_S400x256_S256x256_S400x256_1_0_0_1_n_n.rhsIdx i s 0).val = (s ⟨0, by decide⟩).val :=
  dot_S400x256_S256x256_S400x256_1_0_0_1_n_n.rhsIdx_val_of_single rfl i s
theorem rhs_1 (i : S400x256.Idx) (s : dot_S400x256_S256x256_S400x256_1_0_0_1_n_n.contr.Idx) :
    (dot_S400x256_S256x256_S400x256_1_0_0_1_n_n.rhsIdx i s 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A row of the left factor against a column of the right one: the product of a 400×256 block with a
    256×256 matrix into a zero accumulator, at entry `(p, q)`, is the sum over the 256 contracted positions. -/
theorem mm_apply (a : FVec Ideal S400x256 .bf16) (b : FVec Ideal S256x256 .bf16) (p : Fin 400) (q : Fin 256) :
    matmul dot_S400x256_S256x256_S400x256_1_0_0_1_n_n none a b (constant (F := Ideal) S400x256 .f32 0x00000000#32) (ix2 p q)
      = ∑ k : Fin 256, a (ix2 p k) * b (ix2 k q) := by
  refine (Ideal.matmul_constant_zero_apply dot_S400x256_S256x256_S400x256_1_0_0_1_n_n none a b (ix2 p q)).trans ?_
  rw [← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 p q) ((ValueIdx.contrEquiv1 dot_S400x256_S256x256_S400x256_1_0_0_1_n_n 256 rfl rfl).symm k) = ix2 p k := funext fun a => Fin.ext (by
    match a with
    | ⟨0, _⟩ => exact lhs_0 _ _
    | ⟨1, _⟩ => exact (lhs_1 _ _).trans hk)
  have er : dot_S400x256_S256x256_S400x256_1_0_0_1_n_n.rhsIdx (ix2 p q) ((ValueIdx.contrEquiv1 dot_S400x256_S256x256_S400x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- One dense layer's product at an entry: the block's row `p` against the matrix's column `q`. -/
theorem lin_apply (x : Vec Ideal S400x256 .f32) (W : Vec Ideal S256x256 .f32)
    (hx : S400x256.ShapeCasts S400x256) (hW : S256x256.ShapeCasts S256x256) (hb : FTy.bits .bf16 < FTy.bits .f32)
    (p : Fin 400) (q : Fin 256) :
    matmul dot_S400x256_S256x256_S400x256_1_0_0_1_n_n none
        (truncf .bf16 (shapeCast S400x256 x hx : FVec Ideal S400x256 .f32) hb)
        (truncf .bf16 (shapeCast S256x256 W hW : FVec Ideal S256x256 .f32) hb)
        (constant (F := Ideal) S400x256 .f32 0x00000000#32) (ix2 p q)
      = Spec.rowcol x W p q := by
  refine (mm_apply _ _ p q).trans ?_
  rw [shapeCast_self, shapeCast_self]
  rfl

/-- The bias row spread over the block's rows: entry `(p, q)` is the row's entry `q`. -/
theorem bias_apply (b : Vec Ideal S1x256 .f32) (hc : S1x256.ShapeCasts S1x256) (hbr : S1x256.Broadcasts S400x256)
    (p : Fin 400) (q : Fin 256) :
    broadcastTo S400x256 (shapeCast S1x256 b hc : FVec Ideal S1x256 .f32) hbr (ix2 p q) = b (ix2 0 q) := by
  rw [shapeCast_self]
  exact broadcastTo_apply b hbr (ix2 p q) (ix2 0 q) (fun a => by
    match a with
    | ⟨0, _⟩ => rfl
    | ⟨1, _⟩ => rfl)

/-- The sum of the two relations' updates at entry `(p, q)` of a block: each is "aggregated row against the
    left weight's column, plus the bias entry, plus the node's own row against the right weight's column". -/
theorem pay2_apply (mu mm xr : Vec Ideal S400x256 .f32) (Wl0 Wr0 Wl2 Wr2 : Vec Ideal S256x256 .f32)
    (b0 b2 : Vec Ideal S1x256 .f32) (p : Fin 400) (q : Fin 256) :
    k1_pay2 (F := Ideal) mu mm xr Wl0 Wr0 Wl2 Wr2 b0 b2 (ix2 p q)
      = ((Spec.rowcol mu Wl0 p q + b0 (ix2 0 q)) + Spec.rowcol xr Wr0 p q)
        + ((Spec.rowcol mm Wl2 p q + b2 (ix2 0 q)) + Spec.rowcol xr Wr2 p q) := by
  unfold k1_pay2
  simp only [addf_apply]
  rw [lin_apply, lin_apply, lin_apply, lin_apply, bias_apply, bias_apply]

/-- Half of it, then the positive part. -/
theorem pay1_apply (v : FVec Ideal S400x256 .f32) (p : Fin 400) (q : Fin 256) :
    k1_pay1 (F := Ideal) v (Scalar.ofBits .f32 0x3F000000#32) (ix2 p q) = max (Spec.half * v (ix2 p q)) Spec.zero := rfl

variable (V : (c : Dev nD) → (b : Ref sig .tc) → Buf (Elt Ideal) ((c : Thread nD τ).loc b))

theorem hz : (![0, 0] : Fin 2 → Nat) = fun _ => 0 := funext fun a => by fin_cases a <;> rfl

/-- Row `p` of the block at grid point `t` is row `400 t + p` of the array: the 250 points cut the 100000 rows
    into consecutive blocks of 400. -/
def rowOf (t : Fin cfg1.N) (p : Fin 400) : Fin 100000 :=
  ⟨400 * t.val + p.val, by have := t.isLt; have hN : cfg1.N = 250 := N_1; have := p.isLt; omega⟩

/-- The block indices at every grid point `t`: the three row-tiled inputs and the output are at block `(t, 0)`,
    the weights and the biases at block `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- The block at point `t` of the aggregated features of the first relation: entry `(p, k)` is the array's entry `(400 t + p, k)`. -/
theorem blk0 (c : Dev nD) (t : Fin cfg1.N) (p : Fin 400) (k : Fin 256) :
    (iblk1 (F := Ideal) V c 0 t : Vec Ideal S400x256 .f32) (ix2 p k)
      = (V c main_v20 : S100000x256.Idx → EReal) (ix2 (rowOf t p) k) := by
  show V c main_v20 (((cfg1.win 0).blk t).view.emb (ix2 p k)) = _
  refine congrArg _ (funext fun a => Fin.ext ?_)
  obtain ⟨⟨e0, e1⟩, -, -, -, -, -, -, -, -, -⟩ := idx_facts t
  match a with
  | ⟨0, _⟩ => show win1_0.index t (0 : Fin 2) * 400 + 1 * p.val = 400 * t.val + p.val; rw [e0]; omega
  | ⟨1, _⟩ => show win1_0.index t (1 : Fin 2) * 256 + 1 * k.val = k.val; rw [e1]; omega

/-- So a row of that block against a column of a matrix is the array's row `400 t + p` against it. -/
theorem rowcol_blk0 (c : Dev nD) (t : Fin cfg1.N) (W : Spec.Mat 256 256) (p : Fin 400) (q : Fin 256) :
    Spec.rowcol (iblk1 (F := Ideal) V c 0 t : Vec Ideal S400x256 .f32) W p q
      = Spec.rowcol (V c main_v20 : S100000x256.Idx → EReal) W (rowOf t p) q := by
  unfold Spec.rowcol
  exact congrArg (fun f => Spec.dot f _) (funext fun k => blk0 V c t p k)

/-- The block at point `t` of the aggregated features of the second relation: entry `(p, k)` is the array's entry `(400 t + p, k)`. -/
theorem blk1 (c : Dev nD) (t : Fin cfg1.N) (p : Fin 400) (k : Fin 256) :
    (iblk1 (F := Ideal) V c 1 t : Vec Ideal S400x256 .f32) (ix2 p k)
      = (V c main_v39 : S100000x256.Idx → EReal) (ix2 (rowOf t p) k) := by
  show V c main_v39 (((cfg1.win 1).blk t).view.emb (ix2 p k)) = _
  refine congrArg _ (funext fun a => Fin.ext ?_)
  obtain ⟨-, ⟨e0, e1⟩, -, -, -, -, -, -, -, -⟩ := idx_facts t
  match a with
  | ⟨0, _⟩ => show win1_1.index t (0 : Fin 2) * 400 + 1 * p.val = 400 * t.val + p.val; rw [e0]; omega
  | ⟨1, _⟩ => show win1_1.index t (1 : Fin 2) * 256 + 1 * k.val = k.val; rw [e1]; omega

/-- So a row of that block against a column of a matrix is the array's row `400 t + p` against it. -/
theorem rowcol_blk1 (c : Dev nD) (t : Fin cfg1.N) (W : Spec.Mat 256 256) (p : Fin 400) (q : Fin 256) :
    Spec.rowcol (iblk1 (F := Ideal) V c 1 t : Vec Ideal S400x256 .f32) W p q
      = Spec.rowcol (V c main_v39 : S100000x256.Idx → EReal) W (rowOf t p) q := by
  unfold Spec.rowcol
  exact congrArg (fun f => Spec.dot f _) (funext fun k => blk1 V c t p k)

/-- The block at point `t` of the nodes' own features: entry `(p, k)` is the array's entry `(400 t + p, k)`. -/
theorem blk2 (c : Dev nD) (t : Fin cfg1.N) (p : Fin 400) (k : Fin 256) :
    (iblk1 (F := Ideal) V c 2 t : Vec Ideal S400x256 .f32) (ix2 p k)
      = (V c main_v1 : S100000x256.Idx → EReal) (ix2 (rowOf t p) k) := by
  show V c main_v1 (((cfg1.win 2).blk t).view.emb (ix2 p k)) = _
  refine congrArg _ (funext fun a => Fin.ext ?_)
  obtain ⟨-, -, ⟨e0, e1⟩, -, -, -, -, -, -, -⟩ := idx_facts t
  match a with
  | ⟨0, _⟩ => show win1_2.index t (0 : Fin 2) * 400 + 1 * p.val = 400 * t.val + p.val; rw [e0]; omega
  | ⟨1, _⟩ => show win1_2.index t (1 : Fin 2) * 256 + 1 * k.val = k.val; rw [e1]; omega

/-- So a row of that block against a column of a matrix is the array's row `400 t + p` against it. -/
theorem rowcol_blk2 (c : Dev nD) (t : Fin cfg1.N) (W : Spec.Mat 256 256) (p : Fin 400) (q : Fin 256) :
    Spec.rowcol (iblk1 (F := Ideal) V c 2 t : Vec Ideal S400x256 .f32) W p q
      = Spec.rowcol (V c main_v1 : S100000x256.Idx → EReal) W (rowOf t p) q := by
  unfold Spec.rowcol
  exact congrArg (fun f => Spec.dot f _) (funext fun k => blk2 V c t p k)

/-- A weight matrix's block at any point is the whole matrix. -/
theorem blk3 (c : Dev nD) (t : Fin cfg1.N) :
    (iblk1 (F := Ideal) V c 3 t : Vec Ideal S256x256 .f32) = (V c main_v79 : S256x256.Idx → EReal) := by
  funext y
  show V c main_v79 (((cfg1.win 3).blk t).view.emb y) = _
  refine congrArg _ (funext fun a => Fin.ext ?_)
  obtain ⟨-, -, -, ⟨e0, e1⟩, -, -, -, -, -, -⟩ := idx_facts t
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- A bias row's block at any point is the whole row. -/
theorem blk4 (c : Dev nD) (t : Fin cfg1.N) :
    (iblk1 (F := Ideal) V c 4 t : Vec Ideal S1x256 .f32) = (V c main_v90 : S1x256.Idx → EReal) := by
  funext y
  show V c main_v90 (((cfg1.win 4).blk t).view.emb y) = _
  refine congrArg _ (funext fun a => Fin.ext ?_)
  obtain ⟨-, -, -, -, ⟨e0, e1⟩, -, -, -, -, -⟩ := idx_facts t
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- A weight matrix's block at any point is the whole matrix. -/
theorem blk5 (c : Dev nD) (t : Fin cfg1.N) :
    (iblk1 (F := Ideal) V c 5 t : Vec Ideal S256x256 .f32) = (V c main_v83 : S256x256.Idx → EReal) := by
  funext y
  show V c main_v83 (((cfg1.win 5).blk t).view.emb y) = _
  refine congrArg _ (funext fun a => Fin.ext ?_)
  obtain ⟨-, -, -, -, -, ⟨e0, e1⟩, -, -, -, -⟩ := idx_facts t
  match a with
  | ⟨0, _⟩ => show win1_5.index t (0 : Fin 2) * 256 + 1 * (y 0).val = (y 0).val; rw [e0]; omega
  | ⟨1, _⟩ => show win1_5.index t (1 : Fin 2) * 256 + 1 * (y 1).val = (y 1).val; rw [e1]; omega

/-- A weight matrix's block at any point is the whole matrix. -/
theorem blk6 (c : Dev nD) (t : Fin cfg1.N) :
    (iblk1 (F := Ideal) V c 6 t : Vec Ideal S256x256 .f32) = (V c main_v85 : S256x256.Idx → EReal) := by
  funext y
  show V c main_v85 (((cfg1.win 6).blk t).view.emb y) = _
  refine congrArg _ (funext fun a => Fin.ext ?_)
  obtain ⟨-, -, -, -, -, -, ⟨e0, e1⟩, -, -, -⟩ := idx_facts t
  match a with
  | ⟨0, _⟩ => show win1_6.index t (0 : Fin 2) * 256 + 1 * (y 0).val = (y 0).val; rw [e0]; omega
  | ⟨1, _⟩ => show win1_6.index t (1 : Fin 2) * 256 + 1 * (y 1).val = (y 1).val; rw [e1]; omega

/-- A bias row's block at any point is the whole row. -/
theorem blk7 (c : Dev nD) (t : Fin cfg1.N) :
    (iblk1 (F := Ideal) V c 7 t : Vec Ideal S1x256 .f32) = (V c main_v91 : S1x256.Idx → EReal) := by
  funext y
  show V c main_v91 (((cfg1.win 7).blk t).view.emb y) = _
  refine congrArg _ (funext fun a => Fin.ext ?_)
  obtain ⟨-, -, -, -, -, -, -, ⟨e0, e1⟩, -, -⟩ := idx_facts t
  match a with
  | ⟨0, _⟩ => show win1_7.index t (0 : Fin 2) * 1 + 1 * (y 0).val = (y 0).val; rw [e0]; omega
  | ⟨1, _⟩ => show win1_7.index t (1 : Fin 2) * 256 + 1 * (y 1).val = (y 1).val; rw [e1]; omega

/-- A weight matrix's block at any point is the whole matrix. -/
theorem blk8 (c : Dev nD) (t : Fin cfg1.N) :
    (iblk1 (F := Ideal) V c 8 t : Vec Ideal S256x256 .f32) = (V c main_v89 : S256x256.Idx → EReal) := by
  funext y
  show V c main_v89 (((cfg1.win 8).blk t).view.emb y) = _
  refine congrArg _ (funext fun a => Fin.ext ?_)
  obtain ⟨-, -, -, -, -, -, -, -, ⟨e0, e1⟩, -⟩ := idx_facts t
  match a with
  | ⟨0, _⟩ => show win1_8.index t (0 : Fin 2) * 256 + 1 * (y 0).val = (y 0).val; rw [e0]; omega
  | ⟨1, _⟩ => show win1_8.index t (1 : Fin 2) * 256 + 1 * (y 1).val = (y 1).val; rw [e1]; omega

/-- What the output array ends holding: at every entry, half the sum of the two relations' updates, then the
    positive part, of the arrays the region finds. -/
abbrev G (c : Dev nD) : S100000x256.Idx → EReal :=
  Spec.sage2 (V c main_v20) (V c main_v39) (V c main_v1) (V c main_v79) (V c main_v90) (V c main_v83) (V c main_v85) (V c main_v91) (V c main_v89)

/-- The output block's entry `(p, q)` at point `t` sits at the array's entry `(400 t + p, q)`. -/
theorem emb9 (t : Fin cfg1.N) (p : Fin 400) (q : Fin 256) :
    ((cfg1.win 9).blk t).view.emb (ix2 p q) = (ix2 (rowOf t p) q : S100000x256.Idx) := by
  refine funext fun a => Fin.ext ?_
  obtain ⟨-, -, -, -, -, -, -, -, -, ⟨e0, e1⟩⟩ := idx_facts t
  match a with
  | ⟨0, _⟩ => show win1_9.index t (0 : Fin 2) * 400 + 1 * p.val = 400 * t.val + p.val; rw [e0]; omega
  | ⟨1, _⟩ => show win1_9.index t (1 : Fin 2) * 256 + 1 * q.val = q.val; rw [e1]; omega

/-- What point `t` writes back is block `t` of `G`: rows `400 t … 400 t + 399`, each entry depending on that row of
    the three row-tiled inputs and on the whole weights and biases. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  unfold out1_9
  rw [View.canon_unit_zero hz]
  simp only [View.ld_unit_zero (S := S400x256) hz, View.ld_unit_zero (S := S256x256) hz, View.ld_unit_zero (S := S1x256) hz]
  funext j
  obtain ⟨p, q, rfl⟩ : ∃ (p : Fin 400) (q : Fin 256), j = ix2 p q := ⟨j 0, j 1, eq_ix2 j⟩
  show k1_pay1 (k1_pay2 (iblk1 V c 0 t) (iblk1 V c 1 t) (iblk1 V c 2 t) (iblk1 V c 3 t) (iblk1 V c 5 t) (iblk1 V c 6 t) (iblk1 V c 8 t) (iblk1 V c 4 t) (iblk1 V c 7 t)) (Scalar.ofBits .f32 0x3F000000#32) (ix2 p q)
    = G V c (((cfg1.win 9).blk t).view.emb (ix2 p q))
  rw [emb9]
  refine (pay1_apply _ p q).trans ?_
  refine (congrArg (fun z => max (Spec.half * z) Spec.zero)
    (pay2_apply (iblk1 V c 0 t) (iblk1 V c 1 t) (iblk1 V c 2 t) (iblk1 V c 3 t) (iblk1 V c 5 t) (iblk1 V c 6 t) (iblk1 V c 8 t) (iblk1 V c 4 t) (iblk1 V c 7 t) p q)).trans ?_
  rw [rowcol_blk0, rowcol_blk1, rowcol_blk2, rowcol_blk2, blk3, blk4, blk5, blk6, blk7, blk8]
  rfl

/-- An index of the array is in point `t`'s block iff each coordinate is in the block's range on its axis. -/
theorem mem_blk (t : Fin cfg1.N) (i : S100000x256.Idx) :
    i ∈ ((cfg1.win 9).blk t).view.set ↔ ∀ a : Fin 2, win1_9.index t a * S400x256.size a ≤ (i a).val ∧ (i a).val < win1_9.index t a * S400x256.size a + S400x256.size a := by
  show i ∈ ((View.whole main_v92).slice (win1_9.rect t)).set ↔ _
  rw [View.set_slice_whole, Rect.mem_set_unit]
  exact Iff.rfl

/-- Every row is in some point's block: row `r` is in the block of point `r / 400`. -/
theorem cover (i : S100000x256.Idx) :
    ∃ t : Fin cfg1.N, (cfg1.win 9).flush t = true ∧ i ∈ ((cfg1.win 9).blk t).view.set := by
  have hi0 : (i 0).val < 100000 := (i 0).isLt
  have hi1 : (i 1).val < 256 := (i 1).isLt
  have hN : cfg1.N = 250 := N_1
  have ht : (i 0).val / 400 < cfg1.N := by omega
  refine ⟨⟨(i 0).val / 400, ht⟩, flush1_9 _, ?_⟩
  rw [mem_blk]
  obtain ⟨-, -, -, -, -, -, -, -, -, ⟨e0, e1⟩⟩ := idx_facts ⟨(i 0).val / 400, ht⟩
  intro a
  match a with
  | ⟨0, _⟩ =>
    show win1_9.index ⟨(i 0).val / 400, ht⟩ (0 : Fin 2) * 400 ≤ (i 0).val ∧ (i 0).val < win1_9.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win1_9.index ⟨(i 0).val / 400, ht⟩ (1 : Fin 2) * 256 ≤ (i 1).val ∧ (i 1).val < win1_9.index ⟨(i 0).val / 400, ht⟩ (1 : Fin 2) * 256 + 256
    rw [e1]
    omega

/-- The output array after the region: the two-relation update of the arrays the region finds, entry by entry. -/
theorem out (c : Dev nD) :
    (dat1 (F := Ideal) V c).arrAt 9 cfg1.N = Spec.sage2 (V c main_v20) (V c main_v39) (V c main_v1) (V c main_v79) (V c main_v90) (V c main_v83) (V c main_v85) (V c main_v91) (V c main_v89) :=
  (dat1 (F := Ideal) V c).arrAt_eq_of_cover 9 (G V c) (fun t _ => flushed_eq V c t) (cover)

end Cert.KernelIdeal.Region1

end
-- ==== Proof.Region2.lean ====
/-
  The update of a node kind with one incoming relation, computed block by block.

  The region runs over 25 grid points. At point `t` its body sees rows `200 t … 200 t + 199` of the two 5000 x 256 arrays
  `m` and `xr`, and the whole of the 256 x 256 matrices `Wl`, `Wr` and of the 1 x 256 bias row, and stores
  `max (((m · Wl) + bias) + (xr · Wr)) 0` of those 200 rows, which is then written back to rows `200 t … 200 t + 199` of the result.
  Entry `(p, q)` of a block's result depends on row `p` of the two row blocks, column `q` of the two matrices and entry `q` of the
  bias, so it is entry `(200 t + p, q)` of the same expression of the whole arrays; and the 25 blocks of 200 rows cover the 5000
  rows. Hence the result array after the region is that expression of the arrays the region was entered with.
-/
import proofs.«106822_j76312978915563_2_alg».proof.Proof.Gen.KernelIdeal.Frame
import proofs.«106822_j76312978915563_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem Idealize.ShloMosaic.ValueIdx

/-- At an entry of the product the left operand is read in the entry's row. -/
theorem lhs_row (i : S200x256.Idx) (k : dot_S200x256_S256x256_S200x256_1_0_0_1_n_n.contr.Idx) :
    (dot_S200x256_S256x256_S200x256_1_0_0_1_n_n.lhsIdx i k 0).val = (i 0).val := by
  unfold DotDims.lhsIdx
  rw [dif_neg (show ¬(0 : Fin S200x256.rank) ∈ dot_S200x256_S256x256_S200x256_1_0_0_1_n_n.lhsBatch by decide), dif_pos (show (0 : Fin S200x256.rank) ∈ dot_S200x256_S256x256_S200x256_1_0_0_1_n_n.lhsNonContracting by decide)]
  rfl

/-- At an entry of the product the right operand is read in the entry's column. -/
theorem rhs_col (i : S200x256.Idx) (k : dot_S200x256_S256x256_S200x256_1_0_0_1_n_n.contr.Idx) :
    (dot_S200x256_S256x256_S200x256_1_0_0_1_n_n.rhsIdx i k 1).val = (i 1).val := by
  unfold DotDims.rhsIdx
  rw [dif_neg (show ¬(1 : Fin S256x256.rank) ∈ dot_S200x256_S256x256_S200x256_1_0_0_1_n_n.rhsBatch by decide), dif_pos (show (1 : Fin S256x256.rank) ∈ dot_S200x256_S256x256_S200x256_1_0_0_1_n_n.rhsNonContracting by decide)]
  rfl

/-- A product of a 200-row block with a 256 x 256 matrix, accumulated into zero, read at row `p` and column `q`: the sum over `k` of the
    block's entry `(p, k)` times the matrix's entry `(k, q)`. -/
theorem matmul_at (x : FVec Ideal S200x256 .bf16) (w : FVec Ideal S256x256 .bf16) (p : Fin 200) (q : Fin 256) :
    matmul dot_S200x256_S256x256_S200x256_1_0_0_1_n_n none x w (constant S200x256 .f32 0x00000000#32) (ix2 p q)
      = ∑ k : Fin 256, x (ix2 p k) * w (ix2 k q) := by
  refine (Ideal.matmul_constant_zero_apply dot_S200x256_S256x256_S200x256_1_0_0_1_n_n none x w (ix2 p q)).trans ?_
  rw [← Equiv.sum_comp (ValueIdx.contrEquiv1 dot_S200x256_S256x256_S200x256_1_0_0_1_n_n 256 rfl rfl).symm]
  refine Finset.sum_congr rfl fun k _ => ?_
  have hk := ValueIdx.contrEquiv1_symm_val dot_S200x256_S256x256_S200x256_1_0_0_1_n_n 256 rfl rfl k
  have el : dot_S200x256_S256x256_S200x256_1_0_0_1_n_n.lhsIdx (ix2 p q) ((ValueIdx.contrEquiv1 dot_S200x256_S256x256_S200x256_1_0_0_1_n_n 256 rfl rfl).symm k) = ix2 p k := funext fun a => Fin.ext (by
    match a with
    | ⟨0, _⟩ => exact lhs_row _ _
    | ⟨1, _⟩ => exact (dot_S200x256_S256x256_S200x256_1_0_0_1_n_n.lhsIdx_val_of_single rfl _ _).trans hk)
  have er : dot_S200x256_S256x256_S200x256_1_0_0_1_n_n.rhsIdx (ix2 p q) ((ValueIdx.contrEquiv1 dot_S200x256_S256x256_S200x256_1_0_0_1_n_n 256 rfl rfl).symm k) = ix2 k q := funext fun a => Fin.ext (by
    match a with
    | ⟨0, _⟩ => exact (dot_S200x256_S256x256_S200x256_1_0_0_1_n_n.rhsIdx_val_of_single rfl _ _).trans hk
    | ⟨1, _⟩ => exact rhs_col _ _)
  rw [el, er]

/-- The body's result at row `p` and column `q` of the block: the positive part of the block row `p` of `m` against column `q` of
    `Wl`, plus the bias entry `q`, plus the block row `p` of `xr` against column `q` of `Wr`. -/
theorem pay_at (m xr : Vec Ideal S200x256 .f32) (Wl Wr : Vec Ideal S256x256 .f32) (b : Vec Ideal S1x256 .f32) (p : Fin 200) (q : Fin 256) :
    k2_pay1 (F := Ideal) m xr Wl Wr b (ix2 p q) = Spec.sage1At m xr Wl b Wr p q := by
  unfold k2_pay1
  simp only [shapeCast_self]
  rw [maximumf_apply, addf_apply, addf_apply, matmul_at, matmul_at, broadcastTo_1b_ab_apply]
  rfl

/-- The zero offsets of a whole-block access, however spelt. -/
theorem hz : (![0, 0] : Fin 2 → Nat) = fun _ => 0 := funext fun a => by fin_cases a <;> rfl

/-- An entry of the update depends on one row of `m` and of `xr`, one column of `Wl` and of `Wr`, and one bias entry: two families of
    matrices that agree there give the same entry. -/
theorem sage1At_congr {M M' : Nat} (m xr : Spec.Mat M 256) (m' xr' : Spec.Mat M' 256) (Wl Wl' : Spec.Mat 256 256) (b b' : Spec.Mat 1 256)
    (Wr Wr' : Spec.Mat 256 256) (p : Fin M) (r : Fin M') (q q' : Fin 256)
    (hm : ∀ k, m (ix2 p k) = m' (ix2 r k)) (hx : ∀ k, xr (ix2 p k) = xr' (ix2 r k))
    (hWl : ∀ k, Wl (ix2 k q) = Wl' (ix2 k q')) (hb : b (ix2 0 q) = b' (ix2 0 q')) (hWr : ∀ k, Wr (ix2 k q) = Wr' (ix2 k q')) :
    Spec.sage1At m xr Wl b Wr p q = Spec.sage1At m' xr' Wl' b' Wr' r q' := by
  unfold Spec.sage1At Spec.rowcol Spec.dot
  simp only [hm, hx, hWl, hb, hWr]

/-- The block indices of the six windows at a grid point `t`: the row-tiled windows (`m`, `xr`, the result) are at block `(t, 0)`, the
    weights and the bias at block `(0, 0)` (decided over the 25 points). -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row `p` of the block of `m` at point `t` is row `200 t + p` of `m`. -/
theorem read0 (c : Dev nD) (t : Fin cfg2.N) (p : Fin 200) (k : Fin 256) (r : Fin 5000) (hr : r.val = t.val * 200 + p.val) :
    (iblk2 (F := Ideal) V c 0 t : Vec Ideal S200x256 .f32) (ix2 p k) = (V c main_v58 : S5000x256.Idx → EReal) (ix2 r k) := by
  unfold iblk2
  rw [View.read_apply]
  show V c main_v58 _ = V c main_v58 _
  congr 1
  funext a
  apply Fin.ext
  match a with
  | ⟨0, _⟩ => show win2_0.index t 0 * 200 + 1 * p.val = r.val; rw [(idx_facts t).1, hr]; omega
  | ⟨1, _⟩ => show win2_0.index t 1 * 256 + 1 * k.val = k.val; rw [(idx_facts t).2.1]; omega

/-- Row `p` of the block of `xr` at point `t` is row `200 t + p` of `xr`. -/
theorem read1 (c : Dev nD) (t : Fin cfg2.N) (p : Fin 200) (k : Fin 256) (r : Fin 5000) (hr : r.val = t.val * 200 + p.val) :
    (iblk2 (F := Ideal) V c 1 t : Vec Ideal S200x256 .f32) (ix2 p k) = (V c main_arg2 : S5000x256.Idx → EReal) (ix2 r k) := by
  unfold iblk2
  rw [View.read_apply]
  show V c main_arg2 _ = V c main_arg2 _
  congr 1
  funext a
  apply Fin.ext
  match a with
  | ⟨0, _⟩ => show win2_1.index t 0 * 200 + 1 * p.val = r.val; rw [(idx_facts t).2.2.1, hr]; omega
  | ⟨1, _⟩ => show win2_1.index t 1 * 256 + 1 * k.val = k.val; rw [(idx_facts t).2.2.2.1]; omega

/-- The block of `Wl` at every point is `Wl`. -/
theorem read2 (c : Dev nD) (t : Fin cfg2.N) (k q q' : Fin 256) (hq : q'.val = q.val) :
    (iblk2 (F := Ideal) V c 2 t : Vec Ideal S256x256 .f32) (ix2 k q) = (V c main_v94 : S256x256.Idx → EReal) (ix2 k q') := by
  unfold iblk2
  rw [View.read_apply]
  show V c main_v94 _ = V c main_v94 _
  congr 1
  funext a
  apply Fin.ext
  match a with
  | ⟨0, _⟩ => show win2_2.index t 0 * 256 + 1 * k.val = k.val; rw [(idx_facts t).2.2.2.2.1]; omega
  | ⟨1, _⟩ => show win2_2.index t 1 * 256 + 1 * q.val = q'.val; rw [(idx_facts t).2.2.2.2.2.1, hq]; omega

/-- The block of the bias row at every point is the bias row. -/
theorem read3 (c : Dev nD) (t : Fin cfg2.N) (q q' : Fin 256) (hq : q'.val = q.val) :
    (iblk2 (F := Ideal) V c 3 t : Vec Ideal S1x256 .f32) (ix2 (0 : Fin 1) q) = (V c main_v99 : S1x256.Idx → EReal) (ix2 (0 : Fin 1) q') := by
  unfold iblk2
  rw [View.read_apply]
  show V c main_v99 _ = V c main_v99 _
  congr 1
  funext a
  apply Fin.ext
  match a with
  | ⟨0, _⟩ => show win2_3.index t 0 * 1 + 1 * 0 = 0; rw [(idx_facts t).2.2.2.2.2.2.1]
  | ⟨1, _⟩ => show win2_3.index t 1 * 256 + 1 * q.val = q'.val; rw [(idx_facts t).2.2.2.2.2.2.2.1, hq]; omega

/-- The block of `Wr` at every point is `Wr`. -/
theorem read4 (c : Dev nD) (t : Fin cfg2.N) (k q q' : Fin 256) (hq : q'.val = q.val) :
    (iblk2 (F := Ideal) V c 4 t : Vec Ideal S256x256 .f32) (ix2 k q) = (V c main_v98 : S256x256.Idx → EReal) (ix2 k q') := by
  unfold iblk2
  rw [View.read_apply]
  show V c main_v98 _ = V c main_v98 _
  congr 1
  funext a
  apply Fin.ext
  match a with
  | ⟨0, _⟩ => show win2_4.index t 0 * 256 + 1 * k.val = k.val; rw [(idx_facts t).2.2.2.2.2.2.2.2.1]; omega
  | ⟨1, _⟩ => show win2_4.index t 1 * 256 + 1 * q.val = q'.val; rw [(idx_facts t).2.2.2.2.2.2.2.2.2.1, hq]; omega

/-- What point `t` writes back is rows `200 t … 200 t + 199` of the update of the whole arrays. -/
theorem flushed_eq (c : Dev nD) (t : Fin cfg2.N) :
    (dat2 (F := Ideal) V c).flushed 5 t = ((cfg2.win 5).blk t).view.read (Elt Ideal)
      (Spec.sage1 (V c main_v58) (V c main_arg2) (V c main_v94) (V c main_v99) (V c main_v98)) := by
  show (cfg2.win 5).cut (grid2.coords t) ((dat2 (F := Ideal) V c).after 5 t) = _
  rw [after2_5]
  unfold out2_5
  rw [View.canon_unit_zero hz]
  simp only [View.ld_unit_zero (S := S200x256) hz, View.ld_unit_zero (S := S256x256) hz, View.ld_unit_zero (S := S1x256) hz]
  refine funext fun j => ?_
  obtain ⟨p, q, rfl⟩ : ∃ (p : Fin 200) (q : Fin 256), j = ix2 p q := ⟨j 0, j 1, eq_ix2 j⟩
  rw [View.read_apply]
  have e0 : ((((cfg2.win 5).blk t).view.emb (ix2 p q)) 0 : Fin 5000).val = t.val * 200 + p.val := by
    show win2_5.index t 0 * 200 + 1 * p.val = _
    rw [(idx_facts t).2.2.2.2.2.2.2.2.2.2.1]; omega
  have e1 : ((((cfg2.win 5).blk t).view.emb (ix2 p q)) 1 : Fin 256).val = q.val := by
    show win2_5.index t 1 * 256 + 1 * q.val = _
    rw [(idx_facts t).2.2.2.2.2.2.2.2.2.2.2]; omega
  exact (pay_at _ _ _ _ _ p q).trans (sage1At_congr _ _ _ _ _ _ _ _ _ _ p _ q _
    (fun k => read0 V c t p k _ e0) (fun k => read1 V c t p k _ e0) (fun k => read2 V c t k q _ e1)
    (read3 V c t q _ e1) (fun k => read4 V c t k q _ e1))

/-- An index of the result array is in point `t`'s block iff each of its coordinates is in the block's range on that axis. -/
theorem mem_blk (t : Fin cfg2.N) (i : S5000x256.Idx) :
    i ∈ ((cfg2.win 5).blk t).view.set ↔ ∀ a : Fin 2, win2_5.index t a * S200x256.size a ≤ (i a).val
      ∧ (i a).val < win2_5.index t a * S200x256.size a + S200x256.size a := by
  show i ∈ ((View.whole main_v100).slice (win2_5.rect t)).set ↔ _
  rw [View.set_slice_whole, Rect.mem_set_unit]
  exact Iff.rfl

/-- Row `r` of the result array is in the block of point `r / 200`: the 25 blocks of 200 rows tile the 5000 rows. -/
theorem cover (i : S5000x256.Idx) : ∃ t : Fin cfg2.N, (cfg2.win 5).flush t = true ∧ i ∈ ((cfg2.win 5).blk t).view.set := by
  have hi0 : (i 0).val < 5000 := (i 0).isLt
  have hi1 : (i 1).val < 256 := (i 1).isLt
  have hN : cfg2.N = 25 := N_2
  have ht : (i 0).val / 200 < cfg2.N := by rw [hN]; omega
  refine ⟨⟨(i 0).val / 200, ht⟩, flush2_5 _, ?_⟩
  rw [mem_blk]
  obtain ⟨-, -, -, -, -, -, -, -, -, -, e0, e1⟩ := idx_facts ⟨(i 0).val / 200, ht⟩
  intro a
  match a with
  | ⟨0, _⟩ =>
    show win2_5.index ⟨(i 0).val / 200, ht⟩ 0 * 200 ≤ (i 0).val ∧ (i 0).val < win2_5.index ⟨(i 0).val / 200, ht⟩ 0 * 200 + 200
    rw [e0]
    show (i 0).val / 200 * 200 ≤ (i 0).val ∧ (i 0).val < (i 0).val / 200 * 200 + 200
    omega
  | ⟨1, _⟩ =>
    show win2_5.index ⟨(i 0).val / 200, ht⟩ 1 * 256 ≤ (i 1).val ∧ (i 1).val < win2_5.index ⟨(i 0).val / 200, ht⟩ 1 * 256 + 256
    rw [e1]
    omega

/-- After the region the result array is the update of the whole arrays: every point writes back its 200 rows of it, and the points'
    blocks cover the array. -/
theorem out (c : Dev nD) :
    (dat2 (F := Ideal) V c).arrAt 5 cfg2.N
      = Spec.sage1 (V c main_v58) (V c main_arg2) (V c main_v94) (V c main_v99) (V c main_v98) :=
  (dat2 (F := Ideal) V c).arrAt_eq_of_cover 5 _ (fun t _ => flushed_eq V c t) cover

end Cert.KernelIdeal.Region2

end
-- ==== Proof.Region3.lean ====
/-
  The update of a node kind with one incoming relation, computed block by block.

  The region runs over 50 grid points. At point `t` its body sees rows `400 t … 400 t + 399` of the two 20000 x 256 arrays
  `m` and `xr`, and the whole of the 256 x 256 matrices `Wl`, `Wr` and of the 1 x 256 bias row, and stores
  `max (((m · Wl) + bias) + (xr · Wr)) 0` of those 400 rows, which is then written back to rows `400 t … 400 t + 399` of the result.
  Entry `(p, q)` of a block's result depends on row `p` of the two row blocks, column `q` of the two matrices and entry `q` of the
  bias, so it is entry `(400 t + p, q)` of the same expression of the whole arrays; and the 50 blocks of 400 rows cover the 20000
  rows. Hence the result array after the region is that expression of the arrays the region was entered with.
-/
import proofs.«106822_j76312978915563_2_alg».proof.Proof.Gen.KernelIdeal.Frame
import proofs.«106822_j76312978915563_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Idealize.ShloMosaic Idealize.ShloMosaic.TcCoe Idealize.SL.Sem Idealize.ShloMosaic.ValueIdx

/-- At an entry of the product the left operand is read in the entry's row. -/
theorem lhs_row (i : S400x256.Idx) (k : dot_S400x256_S256x256_S400x256_1_0_0_1_n_n.contr.Idx) :
    (dot_S400x256_S256x256_S400x256_1_0_0_1_n_n.lhsIdx i k 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl

/-- At an entry of the product the right operand is read in the entry's column. -/
theorem rhs_col (i : S400x256.Idx) (k : dot_S400x256_S256x256_S400x256_1_0_0_1_n_n.contr.Idx) :
    (dot_S400x256_S256x256_S400x256_1_0_0_1_n_n.rhsIdx i k 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A product of a 400-row block with a 256 x 256 matrix, accumulated into zero, read at row `p` and column `q`: the sum over `k` of the
    block's entry `(p, k)` times the matrix's entry `(k, q)`. -/
theorem matmul_at (x : FVec Ideal S400x256 .bf16) (w : FVec Ideal S256x256 .bf16) (p : Fin 400) (q : Fin 256) :
    matmul dot_S400x256_S256x256_S400x256_1_0_0_1_n_n none x w (constant S400x256 .f32 0x00000000#32) (ix2 p q)
      = ∑ k : Fin 256, x (ix2 p k) * w (ix2 k q) := by
  refine (Ideal.matmul_constant_zero_apply dot_S400x256_S256x256_S400x256_1_0_0_1_n_n none x w (ix2 p q)).trans ?_
  rw [← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 p q) ((ValueIdx.contrEquiv1 dot_S400x256_S256x256_S400x256_1_0_0_1_n_n 256 rfl rfl).symm k) = ix2 p k := funext fun a => Fin.ext (by
    match a with
    | ⟨0, _⟩ => exact lhs_row _ _
    | ⟨1, _⟩ => exact (dot_S400x256_S256x256_S400x256_1_0_0_1_n_n.lhsIdx_val_of_single rfl _ _).trans hk)
  have er : dot_S400x256_S256x256_S400x256_1_0_0_1_n_n.rhsIdx (ix2 p q) ((ValueIdx.contrEquiv1 dot_S400x256_S256x256_S400x256_1_0_0_1_n_n 256 rfl rfl).symm k) = ix2 k q := funext fun a => Fin.ext (by
    match a with
    | ⟨0, _⟩ => exact (dot_S400x256_S256x256_S400x256_1_0_0_1_n_n.rhsIdx_val_of_single rfl _ _).trans hk
    | ⟨1, _⟩ => exact rhs_col _ _)
  rw [el, er]

/-- The body's result at row `p` and column `q` of the block: the positive part of the block row `p` of `m` against column `q` of
    `Wl`, plus the bias entry `q`, plus the block row `p` of `xr` against column `q` of `Wr`. -/
theorem pay_at (m xr : Vec Ideal S400x256 .f32) (Wl Wr : Vec Ideal S256x256 .f32) (b : Vec Ideal S1x256 .f32) (p : Fin 400) (q : Fin 256) :
    k3_pay1 (F := Ideal) m xr Wl Wr b (ix2 p q) = Spec.sage1At m xr Wl b Wr p q := by
  unfold k3_pay1
  simp only [shapeCast_self]
  rw [maximumf_apply, addf_apply, addf_apply, matmul_at, matmul_at, broadcastTo_1b_ab_apply]
  rfl

/-- The zero offsets of a whole-block access, however spelt. -/
theorem hz : (![0, 0] : Fin 2 → Nat) = fun _ => 0 := funext fun a => by fin_cases a <;> rfl

/-- An entry of the update depends on one row of `m` and of `xr`, one column of `Wl` and of `Wr`, and one bias entry: two families of
    matrices that agree there give the same entry. -/
theorem sage1At_congr {M M' : Nat} (m xr : Spec.Mat M 256) (m' xr' : Spec.Mat M' 256) (Wl Wl' : Spec.Mat 256 256) (b b' : Spec.Mat 1 256)
    (Wr Wr' : Spec.Mat 256 256) (p : Fin M) (r : Fin M') (q q' : Fin 256)
    (hm : ∀ k, m (ix2 p k) = m' (ix2 r k)) (hx : ∀ k, xr (ix2 p k) = xr' (ix2 r k))
    (hWl : ∀ k, Wl (ix2 k q) = Wl' (ix2 k q')) (hb : b (ix2 0 q) = b' (ix2 0 q')) (hWr : ∀ k, Wr (ix2 k q) = Wr' (ix2 k q')) :
    Spec.sage1At m xr Wl b Wr p q = Spec.sage1At m' xr' Wl' b' Wr' r q' := by
  unfold Spec.sage1At Spec.rowcol Spec.dot
  simp only [hm, hx, hWl, hb, hWr]

/-- The block indices of the six windows at a grid point `t`: the row-tiled windows (`m`, `xr`, the result) are at block `(t, 0)`, the
    weights and the bias at block `(0, 0)` (decided over the 50 points). -/
theorem idx_facts : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Row `p` of the block of `m` at point `t` is row `400 t + p` of `m`. -/
theorem read0 (c : Dev nD) (t : Fin cfg3.N) (p : Fin 400) (k : Fin 256) (r : Fin 20000) (hr : r.val = t.val * 400 + p.val) :
    (iblk3 (F := Ideal) V c 0 t : Vec Ideal S400x256 .f32) (ix2 p k) = (V c main_v77 : S20000x256.Idx → EReal) (ix2 r k) := by
  unfold iblk3
  rw [View.read_apply]
  show V c main_v77 _ = V c main_v77 _
  congr 1
  funext a
  apply Fin.ext
  match a with
  | ⟨0, _⟩ => show win3_0.index t 0 * 400 + 1 * p.val = r.val; rw [(idx_facts t).1, hr]; omega
  | ⟨1, _⟩ => show win3_0.index t 1 * 256 + 1 * k.val = k.val; rw [(idx_facts t).2.1]; omega

/-- Row `p` of the block of `xr` at point `t` is row `400 t + p` of `xr`. -/
theorem read1 (c : Dev nD) (t : Fin cfg3.N) (p : Fin 400) (k : Fin 256) (r : Fin 20000) (hr : r.val = t.val * 400 + p.val) :
    (iblk3 (F := Ideal) V c 1 t : Vec Ideal S400x256 .f32) (ix2 p k) = (V c main_arg1 : S20000x256.Idx → EReal) (ix2 r k) := by
  unfold iblk3
  rw [View.read_apply]
  show V c main_arg1 _ = V c main_arg1 _
  congr 1
  funext a
  apply Fin.ext
  match a with
  | ⟨0, _⟩ => show win3_1.index t 0 * 400 + 1 * p.val = r.val; rw [(idx_facts t).2.2.1, hr]; omega
  | ⟨1, _⟩ => show win3_1.index t 1 * 256 + 1 * k.val = k.val; rw [(idx_facts t).2.2.2.1]; omega

/-- The block of `Wl` at every point is `Wl`. -/
theorem read2 (c : Dev nD) (t : Fin cfg3.N) (k q q' : Fin 256) (hq : q'.val = q.val) :
    (iblk3 (F := Ideal) V c 2 t : Vec Ideal S256x256 .f32) (ix2 k q) = (V c main_v102 : S256x256.Idx → EReal) (ix2 k q') := by
  unfold iblk3
  rw [View.read_apply]
  show V c main_v102 _ = V c main_v102 _
  congr 1
  funext a
  apply Fin.ext
  match a with
  | ⟨0, _⟩ => show win3_2.index t 0 * 256 + 1 * k.val = k.val; rw [(idx_facts t).2.2.2.2.1]; omega
  | ⟨1, _⟩ => show win3_2.index t 1 * 256 + 1 * q.val = q'.val; rw [(idx_facts t).2.2.2.2.2.1, hq]; omega

/-- The block of the bias row at every point is the bias row. -/
theorem read3 (c : Dev nD) (t : Fin cfg3.N) (q q' : Fin 256) (hq : q'.val = q.val) :
    (iblk3 (F := Ideal) V c 3 t : Vec Ideal S1x256 .f32) (ix2 (0 : Fin 1) q) = (V c main_v107 : S1x256.Idx → EReal) (ix2 (0 : Fin 1) q') := by
  unfold iblk3
  rw [View.read_apply]
  show V c main_v107 _ = V c main_v107 _
  congr 1
  funext a
  apply Fin.ext
  match a with
  | ⟨0, _⟩ => show win3_3.index t 0 * 1 + 1 * 0 = 0; rw [(idx_facts t).2.2.2.2.2.2.1]
  | ⟨1, _⟩ => show win3_3.index t 1 * 256 + 1 * q.val = q'.val; rw [(idx_facts t).2.2.2.2.2.2.2.1, hq]; omega

/-- The block of `Wr` at every point is `Wr`. -/
theorem read4 (c : Dev nD) (t : Fin cfg3.N) (k q q' : Fin 256) (hq : q'.val = q.val) :
    (iblk3 (F := Ideal) V c 4 t : Vec Ideal S256x256 .f32) (ix2 k q) = (V c main_v106 : S256x256.Idx → EReal) (ix2 k q') := by
  unfold iblk3
  rw [View.read_apply]
  show V c main_v106 _ = V c main_v106 _
  congr 1
  funext a
  apply Fin.ext
  match a with
  | ⟨0, _⟩ => show win3_4.index t 0 * 256 + 1 * k.val = k.val; rw [(idx_facts t).2.2.2.2.2.2.2.2.1]; omega
  | ⟨1, _⟩ => show win3_4.index t 1 * 256 + 1 * q.val = q'.val; rw [(idx_facts t).2.2.2.2.2.2.2.2.2.1, hq]; omega

/-- What point `t` writes back is rows `400 t … 400 t + 399` of the update of the whole arrays. -/
theorem flushed_eq (c : Dev nD) (t : Fin cfg3.N) :
    (dat3 (F := Ideal) V c).flushed 5 t = ((cfg3.win 5).blk t).view.read (Elt Ideal)
      (Spec.sage1 (V c main_v77) (V c main_arg1) (V c main_v102) (V c main_v107) (V c main_v106)) := by
  show (cfg3.win 5).cut (grid3.coords t) ((dat3 (F := Ideal) V c).after 5 t) = _
  rw [after3_5]
  unfold out3_5
  rw [View.canon_unit_zero hz]
  simp only [View.ld_unit_zero (S := S400x256) hz, View.ld_unit_zero (S := S256x256) hz, View.ld_unit_zero (S := S1x256) hz]
  refine funext fun j => ?_
  obtain ⟨p, q, rfl⟩ : ∃ (p : Fin 400) (q : Fin 256), j = ix2 p q := ⟨j 0, j 1, eq_ix2 j⟩
  rw [View.read_apply]
  have e0 : ((((cfg3.win 5).blk t).view.emb (ix2 p q)) 0 : Fin 20000).val = t.val * 400 + p.val := by
    show win3_5.index t 0 * 400 + 1 * p.val = _
    rw [(idx_facts t).2.2.2.2.2.2.2.2.2.2.1]; omega
  have e1 : ((((cfg3.win 5).blk t).view.emb (ix2 p q)) 1 : Fin 256).val = q.val := by
    show win3_5.index t 1 * 256 + 1 * q.val = _
    rw [(idx_facts t).2.2.2.2.2.2.2.2.2.2.2]; omega
  exact (pay_at _ _ _ _ _ p q).trans (sage1At_congr _ _ _ _ _ _ _ _ _ _ p _ q _
    (fun k => read0 V c t p k _ e0) (fun k => read1 V c t p k _ e0) (fun k => read2 V c t k q _ e1)
    (read3 V c t q _ e1) (fun k => read4 V c t k q _ e1))

/-- An index of the result array is in point `t`'s block iff each of its coordinates is in the block's range on that axis. -/
theorem mem_blk (t : Fin cfg3.N) (i : S20000x256.Idx) :
    i ∈ ((cfg3.win 5).blk t).view.set ↔ ∀ a : Fin 2, win3_5.index t a * S400x256.size a ≤ (i a).val
      ∧ (i a).val < win3_5.index t a * S400x256.size a + S400x256.size a := by
  show i ∈ ((View.whole main_v108).slice (win3_5.rect t)).set ↔ _
  rw [View.set_slice_whole, Rect.mem_set_unit]
  exact Iff.rfl

/-- Row `r` of the result array is in the block of point `r / 400`: the 50 blocks of 400 rows tile the 20000 rows. -/
theorem cover (i : S20000x256.Idx) : ∃ t : Fin cfg3.N, (cfg3.win 5).flush t = true ∧ i ∈ ((cfg3.win 5).blk t).view.set := by
  have hi0 : (i 0).val < 20000 := (i 0).isLt
  have hi1 : (i 1).val < 256 := (i 1).isLt
  have hN : cfg3.N = 50 := N_3
  have ht : (i 0).val / 400 < cfg3.N := by rw [hN]; omega
  refine ⟨⟨(i 0).val / 400, ht⟩, flush3_5 _, ?_⟩
  rw [mem_blk]
  obtain ⟨-, -, -, -, -, -, -, -, -, -, e0, e1⟩ := idx_facts ⟨(i 0).val / 400, ht⟩
  intro a
  match a with
  | ⟨0, _⟩ =>
    show win3_5.index ⟨(i 0).val / 400, ht⟩ 0 * 400 ≤ (i 0).val ∧ (i 0).val < win3_5.index ⟨(i 0).val / 400, ht⟩ 0 * 400 + 400
    rw [e0]
    show (i 0).val / 400 * 400 ≤ (i 0).val ∧ (i 0).val < (i 0).val / 400 * 400 + 400
    omega
  | ⟨1, _⟩ =>
    show win3_5.index ⟨(i 0).val / 400, ht⟩ 1 * 256 ≤ (i 1).val ∧ (i 1).val < win3_5.index ⟨(i 0).val / 400, ht⟩ 1 * 256 + 256
    rw [e1]
    omega

/-- After the region the result array is the update of the whole arrays: every point writes back its 400 rows of it, and the points'
    blocks cover the array. -/
theorem out (c : Dev nD) :
    (dat3 (F := Ideal) V c).arrAt 5 cfg3.N
      = Spec.sage1 (V c main_v77) (V c main_arg1) (V c main_v102) (V c main_v107) (V c main_v106) :=
  (dat3 (F := Ideal) V c).arrAt_eq_of_cover 5 _ (fun t _ => flushed_eq V c t) cover

end Cert.KernelIdeal.Region3

end
-- ==== Proof.Region4.lean ====
/-
  Region 4: the update of the node kind with two incoming relations, block by block.

  The 100000 rows are cut into 250 consecutive blocks of 400 rows. At grid point `t` the body reads rows
  `400 t … 400 t + 399` of the three row-tiled inputs (the two relations' aggregated features `mu`, `mm` and the
  nodes' own features `xr`), the four 256×256 weight matrices and the two bias rows whole, and writes the same rows
  of the output: entry `(p, q)` of the block is

      max (½ · ((((mu · Wl₀) + b₀) + (xr · Wr₀)) + (((mm · Wl₂) + b₂) + (xr · Wr₂)))) 0

  at row `400 t + p` and column `q`, where a product's entry is a row of the left factor against a column of the
  right one. An entry of the output therefore depends on one row of each row-tiled input and on one column of each
  weight and bias. The 250 blocks tile the array, so the array ends holding that function at every entry.
-/
import proofs.«106822_j76312978915563_2_alg».proof.Proof.Gen.KernelIdeal.Frame
import proofs.«106822_j76312978915563_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region4

open Cert.KernelIdeal Cert.KernelIdeal.Gen Idealize.ShloMosaic Idealize.ShloMosaic.TcCoe Idealize.SL.Sem Idealize.ShloMosaic.ValueIdx

/-- The operand indices of the product of a 400×256 block with a 256×256 matrix: at output entry `i` and contracted
    position `s` the left factor is read at `(i 0, s)` and the right one at `(s, i 1)`. -/
theorem lhs_0 (i : S400x256.Idx) (s : dot_S400x256_S256x256_S400x256_1_0_0_1_n_n.contr.Idx) :
    (dot_S400x256_S256x256_S400x256_1_0_0_1_n_n.lhsIdx i s 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_1 (i : S400x256.Idx) (s : dot_S400x256_S256x256_S400x256_1_0_0_1_n_n.contr.Idx) :
    (dot_S400x256_S256x256_S400x256_1_0_0_1_n_n.lhsIdx i s 1).val = (s ⟨0, by decide⟩).val :=
  dot_S400x256_S256x256_S400x256_1_0_0_1_n_n.lhsIdx_val_of_single rfl i s
theorem rhs_0 (i : S400x256.Idx) (s : dot_S400x256_S256x256_S400x256_1_0_0_1_n_n.contr.Idx) :
    (dot_S400x256_S256x256_S400x256_1_0_0_1_n_n.rhsIdx i s 0).val = (s ⟨0, by decide⟩).val :=
  dot_S400x256_S256x256_S400x256_1_0_0_1_n_n.rhsIdx_val_of_single rfl i s
theorem rhs_1 (i : S400x256.Idx) (s : dot_S400x256_S256x256_S400x256_1_0_0_1_n_n.contr.Idx) :
    (dot_S400x256_S256x256_S400x256_1_0_0_1_n_n.rhsIdx i s 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A row of the left factor against a column of the right one: the product of a 400×256 block with a
    256×256 matrix into a zero accumulator, at entry `(p, q)`, is the sum over the 256 contracted positions. -/
theorem mm_apply (a : FVec Ideal S400x256 .bf16) (b : FVec Ideal S256x256 .bf16) (p : Fin 400) (q : Fin 256) :
    matmul dot_S400x256_S256x256_S400x256_1_0_0_1_n_n none a b (constant (F := Ideal) S400x256 .f32 0x00000000#32) (ix2 p q)
      = ∑ k : Fin 256, a (ix2 p k) * b (ix2 k q) := by
  refine (Ideal.matmul_constant_zero_apply dot_S400x256_S256x256_S400x256_1_0_0_1_n_n none a b (ix2 p q)).trans ?_
  rw [← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 p q) ((ValueIdx.contrEquiv1 dot_S400x256_S256x256_S400x256_1_0_0_1_n_n 256 rfl rfl).symm k) = ix2 p k := funext fun a => Fin.ext (by
    match a with
    | ⟨0, _⟩ => exact lhs_0 _ _
    | ⟨1, _⟩ => exact (lhs_1 _ _).trans hk)
  have er : dot_S400x256_S256x256_S400x256_1_0_0_1_n_n.rhsIdx (ix2 p q) ((ValueIdx.contrEquiv1 dot_S400x256_S256x256_S400x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- One dense layer's product at an entry: the block's row `p` against the matrix's column `q`. -/
theorem lin_apply (x : Vec Ideal S400x256 .f32) (W : Vec Ideal S256x256 .f32)
    (hx : S400x256.ShapeCasts S400x256) (hW : S256x256.ShapeCasts S256x256) (hb : FTy.bits .bf16 < FTy.bits .f32)
    (p : Fin 400) (q : Fin 256) :
    matmul dot_S400x256_S256x256_S400x256_1_0_0_1_n_n none
        (truncf .bf16 (shapeCast S400x256 x hx : FVec Ideal S400x256 .f32) hb)
        (truncf .bf16 (shapeCast S256x256 W hW : FVec Ideal S256x256 .f32) hb)
        (constant (F := Ideal) S400x256 .f32 0x00000000#32) (ix2 p q)
      = Spec.rowcol x W p q := by
  refine (mm_apply _ _ p q).trans ?_
  rw [shapeCast_self, shapeCast_self]
  rfl

/-- The bias row spread over the block's rows: entry `(p, q)` is the row's entry `q`. -/
theorem bias_apply (b : Vec Ideal S1x256 .f32) (hc : S1x256.ShapeCasts S1x256) (hbr : S1x256.Broadcasts S400x256)
    (p : Fin 400) (q : Fin 256) :
    broadcastTo S400x256 (shapeCast S1x256 b hc : FVec Ideal S1x256 .f32) hbr (ix2 p q) = b (ix2 0 q) := by
  rw [shapeCast_self]
  exact broadcastTo_apply b hbr (ix2 p q) (ix2 0 q) (fun a => by
    match a with
    | ⟨0, _⟩ => rfl
    | ⟨1, _⟩ => rfl)

/-- The sum of the two relations' updates at entry `(p, q)` of a block: each is "aggregated row against the
    left weight's column, plus the bias entry, plus the node's own row against the right weight's column". -/
theorem pay2_apply (mu mm xr : Vec Ideal S400x256 .f32) (Wl0 Wr0 Wl2 Wr2 : Vec Ideal S256x256 .f32)
    (b0 b2 : Vec Ideal S1x256 .f32) (p : Fin 400) (q : Fin 256) :
    k4_pay2 (F := Ideal) mu mm xr Wl0 Wr0 Wl2 Wr2 b0 b2 (ix2 p q)
      = ((Spec.rowcol mu Wl0 p q + b0 (ix2 0 q)) + Spec.rowcol xr Wr0 p q)
        + ((Spec.rowcol mm Wl2 p q + b2 (ix2 0 q)) + Spec.rowcol xr Wr2 p q) := by
  unfold k4_pay2
  simp only [addf_apply]
  rw [lin_apply, lin_apply, lin_apply, lin_apply, bias_apply, bias_apply]

/-- Half of it, then the positive part. -/
theorem pay1_apply (v : FVec Ideal S400x256 .f32) (p : Fin 400) (q : Fin 256) :
    k4_pay1 (F := Ideal) v (Scalar.ofBits .f32 0x3F000000#32) (ix2 p q) = max (Spec.half * v (ix2 p q)) Spec.zero := rfl

variable (V : (c : Dev nD) → (b : Ref sig .tc) → Buf (Elt Ideal) ((c : Thread nD τ).loc b))

theorem hz : (![0, 0] : Fin 2 → Nat) = fun _ => 0 := funext fun a => by fin_cases a <;> rfl

/-- Row `p` of the block at grid point `t` is row `400 t + p` of the array: the 250 points cut the 100000 rows
    into consecutive blocks of 400. -/
def rowOf (t : Fin cfg4.N) (p : Fin 400) : Fin 100000 :=
  ⟨400 * t.val + p.val, by have := t.isLt; have hN : cfg4.N = 250 := N_4; have := p.isLt; omega⟩

/-- The block indices at every grid point `t`: the three row-tiled inputs and the output are at block `(t, 0)`,
    the weights and the biases at block `(0, 0)`. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0) :=
  (by decide +kernel : ∀ t : Fin grid4.N, _)

/-- The block at point `t` of the aggregated features of the first relation: entry `(p, k)` is the array's entry `(400 t + p, k)`. -/
theorem blk0 (c : Dev nD) (t : Fin cfg4.N) (p : Fin 400) (k : Fin 256) :
    (iblk4 (F := Ideal) V c 0 t : Vec Ideal S400x256 .f32) (ix2 p k)
      = (V c main_v127 : S100000x256.Idx → EReal) (ix2 (rowOf t p) k) := by
  show V c main_v127 (((cfg4.win 0).blk t).view.emb (ix2 p k)) = _
  refine congrArg _ (funext fun a => Fin.ext ?_)
  obtain ⟨⟨e0, e1⟩, -, -, -, -, -, -, -, -, -⟩ := idx_facts t
  match a with
  | ⟨0, _⟩ => show win4_0.index t (0 : Fin 2) * 400 + 1 * p.val = 400 * t.val + p.val; rw [e0]; omega
  | ⟨1, _⟩ => show win4_0.index t (1 : Fin 2) * 256 + 1 * k.val = k.val; rw [e1]; omega

/-- So a row of that block against a column of a matrix is the array's row `400 t + p` against it. -/
theorem rowcol_blk0 (c : Dev nD) (t : Fin cfg4.N) (W : Spec.Mat 256 256) (p : Fin 400) (q : Fin 256) :
    Spec.rowcol (iblk4 (F := Ideal) V c 0 t : Vec Ideal S400x256 .f32) W p q
      = Spec.rowcol (V c main_v127 : S100000x256.Idx → EReal) W (rowOf t p) q := by
  unfold Spec.rowcol
  exact congrArg (fun f => Spec.dot f _) (funext fun k => blk0 V c t p k)

/-- The block at point `t` of the aggregated features of the second relation: entry `(p, k)` is the array's entry `(400 t + p, k)`. -/
theorem blk1 (c : Dev nD) (t : Fin cfg4.N) (p : Fin 400) (k : Fin 256) :
    (iblk4 (F := Ideal) V c 1 t : Vec Ideal S400x256 .f32) (ix2 p k)
      = (V c main_v146 : S100000x256.Idx → EReal) (ix2 (rowOf t p) k) := by
  show V c main_v146 (((cfg4.win 1).blk t).view.emb (ix2 p k)) = _
  refine congrArg _ (funext fun a => Fin.ext ?_)
  obtain ⟨-, ⟨e0, e1⟩, -, -, -, -, -, -, -, -⟩ := idx_facts t
  match a with
  | ⟨0, _⟩ => show win4_1.index t (0 : Fin 2) * 400 + 1 * p.val = 400 * t.val + p.val; rw [e0]; omega
  | ⟨1, _⟩ => show win4_1.index t (1 : Fin 2) * 256 + 1 * k.val = k.val; rw [e1]; omega

/-- So a row of that block against a column of a matrix is the array's row `400 t + p` against it. -/
theorem rowcol_blk1 (c : Dev nD) (t : Fin cfg4.N) (W : Spec.Mat 256 256) (p : Fin 400) (q : Fin 256) :
    Spec.rowcol (iblk4 (F := Ideal) V c 1 t : Vec Ideal S400x256 .f32) W p q
      = Spec.rowcol (V c main_v146 : S100000x256.Idx → EReal) W (rowOf t p) q := by
  unfold Spec.rowcol
  exact congrArg (fun f => Spec.dot f _) (funext fun k => blk1 V c t p k)

/-- The block at point `t` of the nodes' own features: entry `(p, k)` is the array's entry `(400 t + p, k)`. -/
theorem blk2 (c : Dev nD) (t : Fin cfg4.N) (p : Fin 400) (k : Fin 256) :
    (iblk4 (F := Ideal) V c 2 t : Vec Ideal S400x256 .f32) (ix2 p k)
      = (V c main_v92 : S100000x256.Idx → EReal) (ix2 (rowOf t p) k) := by
  show V c main_v92 (((cfg4.win 2).blk t).view.emb (ix2 p k)) = _
  refine congrArg _ (funext fun a => Fin.ext ?_)
  obtain ⟨-, -, ⟨e0, e1⟩, -, -, -, -, -, -, -⟩ := idx_facts t
  match a with
  | ⟨0, _⟩ => show win4_2.index t (0 : Fin 2) * 400 + 1 * p.val = 400 * t.val + p.val; rw [e0]; omega
  | ⟨1, _⟩ => show win4_2.index t (1 : Fin 2) * 256 + 1 * k.val = k.val; rw [e1]; omega

/-- So a row of that block against a column of a matrix is the array's row `400 t + p` against it. -/
theorem rowcol_blk2 (c : Dev nD) (t : Fin cfg4.N) (W : Spec.Mat 256 256) (p : Fin 400) (q : Fin 256) :
    Spec.rowcol (iblk4 (F := Ideal) V c 2 t : Vec Ideal S400x256 .f32) W p q
      = Spec.rowcol (V c main_v92 : S100000x256.Idx → EReal) W (rowOf t p) q := by
  unfold Spec.rowcol
  exact congrArg (fun f => Spec.dot f _) (funext fun k => blk2 V c t p k)

/-- A weight matrix's block at any point is the whole matrix. -/
theorem blk3 (c : Dev nD) (t : Fin cfg4.N) :
    (iblk4 (F := Ideal) V c 3 t : Vec Ideal S256x256 .f32) = (V c main_v186 : S256x256.Idx → EReal) := by
  funext y
  show V c main_v186 (((cfg4.win 3).blk t).view.emb y) = _
  refine congrArg _ (funext fun a => Fin.ext ?_)
  obtain ⟨-, -, -, ⟨e0, e1⟩, -, -, -, -, -, -⟩ := idx_facts t
  match a with
  | ⟨0, _⟩ => show win4_3.index t (0 : Fin 2) * 256 + 1 * (y 0).val = (y 0).val; rw [e0]; omega
  | ⟨1, _⟩ => show win4_3.index t (1 : Fin 2) * 256 + 1 * (y 1).val = (y 1).val; rw [e1]; omega

/-- A bias row's block at any point is the whole row. -/
theorem blk4 (c : Dev nD) (t : Fin cfg4.N) :
    (iblk4 (F := Ideal) V c 4 t : Vec Ideal S1x256 .f32) = (V c main_v197 : S1x256.Idx → EReal) := by
  funext y
  show V c main_v197 (((cfg4.win 4).blk t).view.emb y) = _
  refine congrArg _ (funext fun a => Fin.ext ?_)
  obtain ⟨-, -, -, -, ⟨e0, e1⟩, -, -, -, -, -⟩ := idx_facts t
  match a with
  | ⟨0, _⟩ => show win4_4.index t (0 : Fin 2) * 1 + 1 * (y 0).val = (y 0).val; rw [e0]; omega
  | ⟨1, _⟩ => show win4_4.index t (1 : Fin 2) * 256 + 1 * (y 1).val = (y 1).val; rw [e1]; omega

/-- A weight matrix's block at any point is the whole matrix. -/
theorem blk5 (c : Dev nD) (t : Fin cfg4.N) :
    (iblk4 (F := Ideal) V c 5 t : Vec Ideal S256x256 .f32) = (V c main_v190 : S256x256.Idx → EReal) := by
  funext y
  show V c main_v190 (((cfg4.win 5).blk t).view.emb y) = _
  refine congrArg _ (funext fun a => Fin.ext ?_)
  obtain ⟨-, -, -, -, -, ⟨e0, e1⟩, -, -, -, -⟩ := idx_facts t
  match a with
  | ⟨0, _⟩ => show win4_5.index t (0 : Fin 2) * 256 + 1 * (y 0).val = (y 0).val; rw [e0]; omega
  | ⟨1, _⟩ => show win4_5.index t (1 : Fin 2) * 256 + 1 * (y 1).val = (y 1).val; rw [e1]; omega

/-- A weight matrix's block at any point is the whole matrix. -/
theorem blk6 (c : Dev nD) (t : Fin cfg4.N) :
    (iblk4 (F := Ideal) V c 6 t : Vec Ideal S256x256 .f32) = (V c main_v192 : S256x256.Idx → EReal) := by
  funext y
  show V c main_v192 (((cfg4.win 6).blk t).view.emb y) = _
  refine congrArg _ (funext fun a => Fin.ext ?_)
  obtain ⟨-, -, -, -, -, -, ⟨e0, e1⟩, -, -, -⟩ := idx_facts t
  match a with
  | ⟨0, _⟩ => show win4_6.index t (0 : Fin 2) * 256 + 1 * (y 0).val = (y 0).val; rw [e0]; omega
  | ⟨1, _⟩ => show win4_6.index t (1 : Fin 2) * 256 + 1 * (y 1).val = (y 1).val; rw [e1]; omega

/-- A bias row's block at any point is the whole row. -/
theorem blk7 (c : Dev nD) (t : Fin cfg4.N) :
    (iblk4 (F := Ideal) V c 7 t : Vec Ideal S1x256 .f32) = (V c main_v198 : S1x256.Idx → EReal) := by
  funext y
  show V c main_v198 (((cfg4.win 7).blk t).view.emb y) = _
  refine congrArg _ (funext fun a => Fin.ext ?_)
  obtain ⟨-, -, -, -, -, -, -, ⟨e0, e1⟩, -, -⟩ := idx_facts t
  match a with
  | ⟨0, _⟩ => show win4_7.index t (0 : Fin 2) * 1 + 1 * (y 0).val = (y 0).val; rw [e0]; omega
  | ⟨1, _⟩ => show win4_7.index t (1 : Fin 2) * 256 + 1 * (y 1).val = (y 1).val; rw [e1]; omega

/-- A weight matrix's block at any point is the whole matrix. -/
theorem blk8 (c : Dev nD) (t : Fin cfg4.N) :
    (iblk4 (F := Ideal) V c 8 t : Vec Ideal S256x256 .f32) = (V c main_v196 : S256x256.Idx → EReal) := by
  funext y
  show V c main_v196 (((cfg4.win 8).blk t).view.emb y) = _
  refine congrArg _ (funext fun a => Fin.ext ?_)
  obtain ⟨-, -, -, -, -, -, -, -, ⟨e0, e1⟩, -⟩ := idx_facts t
  match a with
  | ⟨0, _⟩ => show win4_8.index t (0 : Fin 2) * 256 + 1 * (y 0).val = (y 0).val; rw [e0]; omega
  | ⟨1, _⟩ => show win4_8.index t (1 : Fin 2) * 256 + 1 * (y 1).val = (y 1).val; rw [e1]; omega

/-- What the output array ends holding: at every entry, half the sum of the two relations' updates, then the
    positive part, of the arrays the region finds. -/
abbrev G (c : Dev nD) : S100000x256.Idx → EReal :=
  Spec.sage2 (V c main_v127) (V c main_v146) (V c main_v92) (V c main_v186) (V c main_v197) (V c main_v190) (V c main_v192) (V c main_v198) (V c main_v196)

/-- The output block's entry `(p, q)` at point `t` sits at the array's entry `(400 t + p, q)`. -/
theorem emb9 (t : Fin cfg4.N) (p : Fin 400) (q : Fin 256) :
    ((cfg4.win 9).blk t).view.emb (ix2 p q) = (ix2 (rowOf t p) q : S100000x256.Idx) := by
  refine funext fun a => Fin.ext ?_
  obtain ⟨-, -, -, -, -, -, -, -, -, ⟨e0, e1⟩⟩ := idx_facts t
  match a with
  | ⟨0, _⟩ => show win4_9.index t (0 : Fin 2) * 400 + 1 * p.val = 400 * t.val + p.val; rw [e0]; omega
  | ⟨1, _⟩ => show win4_9.index t (1 : Fin 2) * 256 + 1 * q.val = q.val; rw [e1]; omega

/-- What point `t` writes back is block `t` of `G`: rows `400 t … 400 t + 399`, each entry depending on that row of
    the three row-tiled inputs and on the whole weights and biases. -/
theorem flushed_eq (c : Dev nD) (t : Fin cfg4.N) :
    (dat4 (F := Ideal) V c).flushed 9 t = ((cfg4.win 9).blk t).view.read (Elt Ideal) (G V c) := by
  show (cfg4.win 9).cut (grid4.coords t) ((dat4 (F := Ideal) V c).after 9 t) = _
  rw [after4_9]
  unfold out4_9
  rw [View.canon_unit_zero hz]
  simp only [View.ld_unit_zero (S := S400x256) hz, View.ld_unit_zero (S := S256x256) hz, View.ld_unit_zero (S := S1x256) hz]
  funext j
  obtain ⟨p, q, rfl⟩ : ∃ (p : Fin 400) (q : Fin 256), j = ix2 p q := ⟨j 0, j 1, eq_ix2 j⟩
  show k4_pay1 (k4_pay2 (iblk4 V c 0 t) (iblk4 V c 1 t) (iblk4 V c 2 t) (iblk4 V c 3 t) (iblk4 V c 5 t) (iblk4 V c 6 t) (iblk4 V c 8 t) (iblk4 V c 4 t) (iblk4 V c 7 t)) (Scalar.ofBits .f32 0x3F000000#32) (ix2 p q)
    = G V c (((cfg4.win 9).blk t).view.emb (ix2 p q))
  rw [emb9]
  refine (pay1_apply _ p q).trans ?_
  refine (congrArg (fun z => max (Spec.half * z) Spec.zero)
    (pay2_apply (iblk4 V c 0 t) (iblk4 V c 1 t) (iblk4 V c 2 t) (iblk4 V c 3 t) (iblk4 V c 5 t) (iblk4 V c 6 t) (iblk4 V c 8 t) (iblk4 V c 4 t) (iblk4 V c 7 t) p q)).trans ?_
  rw [rowcol_blk0, rowcol_blk1, rowcol_blk2, rowcol_blk2, blk3, blk4, blk5, blk6, blk7, blk8]
  rfl

/-- An index of the array is in point `t`'s block iff each coordinate is in the block's range on its axis. -/
theorem mem_blk (t : Fin cfg4.N) (i : S100000x256.Idx) :
    i ∈ ((cfg4.win 9).blk t).view.set ↔ ∀ a : Fin 2, win4_9.index t a * S400x256.size a ≤ (i a).val ∧ (i a).val < win4_9.index t a * S400x256.size a + S400x256.size a := by
  show i ∈ ((View.whole main_v199).slice (win4_9.rect t)).set ↔ _
  rw [View.set_slice_whole, Rect.mem_set_unit]
  exact Iff.rfl

/-- Every row is in some point's block: row `r` is in the block of point `r / 400`. -/
theorem cover (i : S100000x256.Idx) :
    ∃ t : Fin cfg4.N, (cfg4.win 9).flush t = true ∧ i ∈ ((cfg4.win 9).blk t).view.set := by
  have hi0 : (i 0).val < 100000 := (i 0).isLt
  have hi1 : (i 1).val < 256 := (i 1).isLt
  have hN : cfg4.N = 250 := N_4
  have ht : (i 0).val / 400 < cfg4.N := by omega
  refine ⟨⟨(i 0).val / 400, ht⟩, flush4_9 _, ?_⟩
  rw [mem_blk]
  obtain ⟨-, -, -, -, -, -, -, -, -, ⟨e0, e1⟩⟩ := idx_facts ⟨(i 0).val / 400, ht⟩
  intro a
  match a with
  | ⟨0, _⟩ =>
    show win4_9.index ⟨(i 0).val / 400, ht⟩ (0 : Fin 2) * 400 ≤ (i 0).val ∧ (i 0).val < win4_9.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win4_9.index ⟨(i 0).val / 400, ht⟩ (1 : Fin 2) * 256 ≤ (i 1).val ∧ (i 1).val < win4_9.index ⟨(i 0).val / 400, ht⟩ (1 : Fin 2) * 256 + 256
    rw [e1]
    omega

/-- The output array after the region: the two-relation update of the arrays the region finds, entry by entry. -/
theorem out (c : Dev nD) :
    (dat4 (F := Ideal) V c).arrAt 9 cfg4.N = Spec.sage2 (V c main_v127) (V c main_v146) (V c main_v92) (V c main_v186) (V c main_v197) (V c main_v190) (V c main_v192) (V c main_v198) (V c main_v196) :=
  (dat4 (F := Ideal) V c).arrAt_eq_of_cover 9 (G V c) (fun t _ => flushed_eq V c t) (cover)

end Cert.KernelIdeal.Region4

end
-- ==== Proof.Region7.lean ====
/-
  The two-layer heads, array by array.

  Each of the 250 grid points reads rows `400 t … 400 t + 399` of the node states (a 400x256 block) and, whole, two
  sets of head parameters: a 256x128 weight, a 1x128 bias row, a 128x1 weight and a 1x1 bias each. It writes two
  400x1 blocks. Entry `p` of either is: the block's row `p` against each column of the first weight, plus that
  column's bias entry, positive part taken (128 hidden entries); these against the second weight's one column;
  plus the second bias. In the arrays' own coordinates that is entry `(400 t + p, 0)` of
  `(max ((x · W₁) + b₁) 0) · W₂ + b₂`; the 250 row blocks fill each 100000x1 result, row `r` coming from point `r / 400`.
-/
import proofs.«106822_j76312978915563_2_alg».proof.Proof.Gen.KernelIdeal.Frame
import proofs.«106822_j76312978915563_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region7

open Cert.KernelIdeal Cert.KernelIdeal.Gen Idealize.ShloMosaic Idealize.ShloMosaic.TcCoe Idealize.SL.Sem Idealize.ShloMosaic.ValueIdx

/-- In this product the left operand's row coordinate is the output's row. -/
theorem matmul_apply1_l0 (i : S400x128.Idx) (c : dot_S400x256_S256x128_S400x128_1_0_0_1_n_n.contr.Idx) : (dot_S400x256_S256x128_S400x128_1_0_0_1_n_n.lhsIdx i c 0).val = (i 0).val := by
  unfold DotDims.lhsIdx
  rw [dif_neg (show ¬(0 : Fin S400x256.rank) ∈ dot_S400x256_S256x128_S400x128_1_0_0_1_n_n.lhsBatch by decide),
    dif_pos (show (0 : Fin S400x256.rank) ∈ dot_S400x256_S256x128_S400x128_1_0_0_1_n_n.lhsNonContracting by decide)]
  rfl
/-- In this product the left operand's column coordinate is the summation index. -/
theorem matmul_apply1_l1 (i : S400x128.Idx) (c : dot_S400x256_S256x128_S400x128_1_0_0_1_n_n.contr.Idx) : (dot_S400x256_S256x128_S400x128_1_0_0_1_n_n.lhsIdx i c 1).val = (c ⟨0, by decide⟩).val :=
  dot_S400x256_S256x128_S400x128_1_0_0_1_n_n.lhsIdx_val_of_single rfl i c
/-- In this product the right operand's row coordinate is the summation index. -/
theorem matmul_apply1_r0 (i : S400x128.Idx) (c : dot_S400x256_S256x128_S400x128_1_0_0_1_n_n.contr.Idx) : (dot_S400x256_S256x128_S400x128_1_0_0_1_n_n.rhsIdx i c 0).val = (c ⟨0, by decide⟩).val :=
  dot_S400x256_S256x128_S400x128_1_0_0_1_n_n.rhsIdx_val_of_single rfl i c
/-- In this product the right operand's column coordinate is the output's column. -/
theorem matmul_apply1_r1 (i : S400x128.Idx) (c : dot_S400x256_S256x128_S400x128_1_0_0_1_n_n.contr.Idx) : (dot_S400x256_S256x128_S400x128_1_0_0_1_n_n.rhsIdx i c 1).val = (i 1).val := by
  unfold DotDims.rhsIdx
  rw [dif_neg (show ¬(1 : Fin S256x128.rank) ∈ dot_S400x256_S256x128_S400x128_1_0_0_1_n_n.rhsBatch by decide),
    dif_pos (show (1 : Fin S256x128.rank) ∈ dot_S400x256_S256x128_S400x128_1_0_0_1_n_n.rhsNonContracting by decide)]
  rfl

/-- A product of a 400x256 block with a 256x128 matrix into a zero accumulator, read at an entry, is the block's row against the matrix's column. -/
theorem matmul_apply1 (a : FVec Ideal S400x256 .bf16) (b : FVec Ideal S256x128 .bf16) (p : Fin 400) (q : Fin 128) :
    matmul dot_S400x256_S256x128_S400x128_1_0_0_1_n_n none a b (constant S400x128 .f32 0x00000000#32) (ix2 p q)
      = ∑ k : Fin 256, a (ix2 p k) * b (ix2 k q) := by
  refine (Ideal.matmul_constant_zero_apply dot_S400x256_S256x128_S400x128_1_0_0_1_n_n none a b (ix2 p q)).trans ?_
  rw [← Equiv.sum_comp (ValueIdx.contrEquiv1 dot_S400x256_S256x128_S400x128_1_0_0_1_n_n 256 rfl rfl).symm]
  refine Finset.sum_congr rfl fun k _ => ?_
  have hk := ValueIdx.contrEquiv1_symm_val dot_S400x256_S256x128_S400x128_1_0_0_1_n_n 256 rfl rfl k
  have el : dot_S400x256_S256x128_S400x128_1_0_0_1_n_n.lhsIdx (ix2 p q) ((ValueIdx.contrEquiv1 dot_S400x256_S256x128_S400x128_1_0_0_1_n_n 256 rfl rfl).symm k) = ix2 p k :=
    funext fun ax => Fin.ext (by
      match ax with
      | ⟨0, _⟩ => exact matmul_apply1_l0 _ _
      | ⟨1, _⟩ => exact (matmul_apply1_l1 _ _).trans hk)
  have er : dot_S400x256_S256x128_S400x128_1_0_0_1_n_n.rhsIdx (ix2 p q) ((ValueIdx.contrEquiv1 dot_S400x256_S256x128_S400x128_1_0_0_1_n_n 256 rfl rfl).symm k) = ix2 k q :=
    funext fun ax => Fin.ext (by
      match ax with
      | ⟨0, _⟩ => exact (matmul_apply1_r0 _ _).trans hk
      | ⟨1, _⟩ => exact matmul_apply1_r1 _ _)
  rw [el, er]

/-- In this product the left operand's row coordinate is the output's row. -/
theorem matmul_apply2_l0 (i : S400x1.Idx) (c : dot_S400x128_S128x1_S400x1_1_0_0_1_n_n.contr.Idx) : (dot_S400x128_S128x1_S400x1_1_0_0_1_n_n.lhsIdx i c 0).val = (i 0).val := by
  unfold DotDims.lhsIdx
  rw [dif_neg (show ¬(0 : Fin S400x128.rank) ∈ dot_S400x128_S128x1_S400x1_1_0_0_1_n_n.lhsBatch by decide),
    dif_pos (show (0 : Fin S400x128.rank) ∈ dot_S400x128_S128x1_S400x1_1_0_0_1_n_n.lhsNonContracting by decide)]
  rfl
/-- In this product the left operand's column coordinate is the summation index. -/
theorem matmul_apply2_l1 (i : S400x1.Idx) (c : dot_S400x128_S128x1_S400x1_1_0_0_1_n_n.contr.Idx) : (dot_S400x128_S128x1_S400x1_1_0_0_1_n_n.lhsIdx i c 1).val = (c ⟨0, by decide⟩).val :=
  dot_S400x128_S128x1_S400x1_1_0_0_1_n_n.lhsIdx_val_of_single rfl i c
/-- In this product the right operand's row coordinate is the summation index. -/
theorem matmul_apply2_r0 (i : S400x1.Idx) (c : dot_S400x128_S128x1_S400x1_1_0_0_1_n_n.contr.Idx) : (dot_S400x128_S128x1_S400x1_1_0_0_1_n_n.rhsIdx i c 0).val = (c ⟨0, by decide⟩).val :=
  dot_S400x128_S128x1_S400x1_1_0_0_1_n_n.rhsIdx_val_of_single rfl i c
/-- In this product the right operand's column coordinate is the output's column. -/
theorem matmul_apply2_r1 (i : S400x1.Idx) (c : dot_S400x128_S128x1_S400x1_1_0_0_1_n_n.contr.Idx) : (dot_S400x128_S128x1_S400x1_1_0_0_1_n_n.rhsIdx i c 1).val = (i 1).val := by
  unfold DotDims.rhsIdx
  rw [dif_neg (show ¬(1 : Fin S128x1.rank) ∈ dot_S400x128_S128x1_S400x1_1_0_0_1_n_n.rhsBatch by decide),
    dif_pos (show (1 : Fin S128x1.rank) ∈ dot_S400x128_S128x1_S400x1_1_0_0_1_n_n.rhsNonContracting by decide)]
  rfl

/-- A product of a 400x128 block with a 128x1 matrix into a zero accumulator, read at an entry, is the block's row against the matrix's one column. -/
theorem matmul_apply2 (a : FVec Ideal S400x128 .bf16) (b : FVec Ideal S128x1 .bf16) (p : Fin 400) (q : Fin 1) :
    matmul dot_S400x128_S128x1_S400x1_1_0_0_1_n_n none a b (constant S400x1 .f32 0x00000000#32) (ix2 p q)
      = ∑ k : Fin 128, a (ix2 p k) * b (ix2 k q) := by
  refine (Ideal.matmul_constant_zero_apply dot_S400x128_S128x1_S400x1_1_0_0_1_n_n none a b (ix2 p q)).trans ?_
  rw [← Equiv.sum_comp (ValueIdx.contrEquiv1 dot_S400x128_S128x1_S400x1_1_0_0_1_n_n 128 rfl rfl).symm]
  refine Finset.sum_congr rfl fun k _ => ?_
  have hk := ValueIdx.contrEquiv1_symm_val dot_S400x128_S128x1_S400x1_1_0_0_1_n_n 128 rfl rfl k
  have el : dot_S400x128_S128x1_S400x1_1_0_0_1_n_n.lhsIdx (ix2 p q) ((ValueIdx.contrEquiv1 dot_S400x128_S128x1_S400x1_1_0_0_1_n_n 128 rfl rfl).symm k) = ix2 p k :=
    funext fun ax => Fin.ext (by
      match ax with
      | ⟨0, _⟩ => exact matmul_apply2_l0 _ _
      | ⟨1, _⟩ => exact (matmul_apply2_l1 _ _).trans hk)
  have er : dot_S400x128_S128x1_S400x1_1_0_0_1_n_n.rhsIdx (ix2 p q) ((ValueIdx.contrEquiv1 dot_S400x128_S128x1_S400x1_1_0_0_1_n_n 128 rfl rfl).symm k) = ix2 k q :=
    funext fun ax => Fin.ext (by
      match ax with
      | ⟨0, _⟩ => exact (matmul_apply2_r0 _ _).trans hk
      | ⟨1, _⟩ => exact matmul_apply2_r1 _ _)
  rw [el, er]

/-- An entry of the hidden layer of a block: the block's row against the first weight's column, plus the first
    bias's entry of that column, then the positive part. -/
theorem hidden_apply (x : Vec Ideal S400x256 .f32) (W1 : Vec Ideal S256x128 .f32) (b1 : Vec Ideal S1x128 .f32)
    (hs : S400x256.ShapeCasts S400x256) (ht : FTy.bits .bf16 < FTy.bits .f32) (hc : S1x128.ShapeCasts S1x128)
    (hb : S1x128.Broadcasts S400x128) (p : Fin 400) (j : Fin 128) :
    (maximumf (addf (matmul dot_S400x256_S256x128_S400x128_1_0_0_1_n_n none (truncf .bf16 (shapeCast S400x256 x hs) ht) (truncf .bf16 W1 ht)
        (constant S400x128 .f32 0x00000000#32)) (broadcastTo S400x128 (shapeCast S1x128 b1 hc) hb))
      (broadcast S400x128 (Scalar.ofBits .f32 0x00000000#32)) : FVec Ideal S400x128 .f32) (ix2 p j)
      = Spec.hiddenAt x W1 b1 p j := by
  refine (maximumf_apply _ _ _).trans ?_
  rw [addf_apply, matmul_apply1, shapeCast_self, shapeCast_self, broadcastTo_1b_ab_apply]
  rfl

/-- An entry of the first output's block: the hidden layer's row against the second weight's one column, plus the
    second bias's one entry. -/
theorem pay3_apply (x : Vec Ideal S400x256 .f32) (W1 : Vec Ideal S256x128 .f32) (b1 : Vec Ideal S1x128 .f32)
    (W2 : Vec Ideal S128x1 .f32) (b2 : Vec Ideal S1x1 .f32) (p : Fin 400) (q : Fin 1) :
    k7_pay3 x W1 b1 W2 b2 (ix2 p q) = Spec.headAt x W1 b1 W2 b2 p q := by
  unfold k7_pay3 k7_pay2
  refine (addf_apply _ _ _).trans ?_
  rw [matmul_apply2, shapeCast_self b2, broadcastTo_1b_ab_apply]
  unfold Spec.headAt Spec.dot
  refine congrArg (fun s : EReal => s + b2 (ix2 0 q)) (Finset.sum_congr rfl fun k _ => ?_)
  exact congrArg (fun s : EReal => s * W2 (ix2 k q)) (hidden_apply x W1 b1 _ _ _ _ p k)

/-- An entry of the second output's block, spelt as a product and then a bias added: the same head over the
    second set of weights. -/
theorem pay14_apply (x : Vec Ideal S400x256 .f32) (W1 : Vec Ideal S256x128 .f32) (b1 : Vec Ideal S1x128 .f32)
    (W2 : Vec Ideal S128x1 .f32) (b2 : Vec Ideal S1x1 .f32) (p : Fin 400) (q : Fin 1) :
    k7_pay1 (k7_pay4 x W1 b1 W2) b2 (ix2 p q) = Spec.headAt x W1 b1 W2 b2 p q := by
  unfold k7_pay1 k7_pay4 k7_pay2
  refine (addf_apply _ _ _).trans ?_
  rw [matmul_apply2, shapeCast_self b2, broadcastTo_1b_ab_apply]
  unfold Spec.headAt Spec.dot
  refine congrArg (fun s : EReal => s + b2 (ix2 0 q)) (Finset.sum_congr rfl fun k _ => ?_)
  exact congrArg (fun s : EReal => s * W2 (ix2 k q)) (hidden_apply x W1 b1 _ _ _ _ p k)

/-- Two hidden-layer entries agree when the rows they read agree. -/
theorem hiddenAt_congr {M M' : Nat} (x : Spec.Mat M 256) (x' : Spec.Mat M' 256) (W1 : Spec.Mat 256 128) (b1 : Spec.Mat 1 128)
    (r : Fin M) (r' : Fin M') (hx : ∀ k, x (ix2 r k) = x' (ix2 r' k)) (j : Fin 128) :
    Spec.hiddenAt x W1 b1 r j = Spec.hiddenAt x' W1 b1 r' j := by
  unfold Spec.hiddenAt Spec.rowcol Spec.dot
  exact congrArg (fun s : EReal => max (s + b1 (ix2 0 j)) Spec.zero) (Finset.sum_congr rfl fun k _ => by
    show x (ix2 r k) * W1 (ix2 k j) = x' (ix2 r' k) * W1 (ix2 k j); rw [hx k])

/-- Two head entries agree when the rows they read agree and the weights and biases are the same. -/
theorem headAt_congr {M M' : Nat} (x : Spec.Mat M 256) (x' : Spec.Mat M' 256) (W1 W1' : Spec.Mat 256 128) (b1 b1' : Spec.Mat 1 128)
    (W2 W2' : Spec.Mat 128 1) (b2 b2' : Spec.Mat 1 1) (r : Fin M) (r' : Fin M') (q q' : Fin 1)
    (hx : ∀ k, x (ix2 r k) = x' (ix2 r' k)) (hW1 : W1 = W1') (hb1 : b1 = b1')
    (hW2 : ∀ j, W2 (ix2 j q) = W2' (ix2 j q')) (hb2 : b2 (ix2 0 q) = b2' (ix2 0 q')) :
    Spec.headAt x W1 b1 W2 b2 r q = Spec.headAt x' W1' b1' W2' b2' r' q' := by
  subst hW1 hb1
  unfold Spec.headAt Spec.dot
  rw [hb2]
  exact congrArg (fun s : EReal => s + b2' (ix2 0 q')) (Finset.sum_congr rfl fun j _ => by
    show Spec.hiddenAt x W1 b1 r j * W2 (ix2 j q) = Spec.hiddenAt x' W1 b1 r' j * W2' (ix2 j q')
    rw [hW2 j, hiddenAt_congr x x' W1 b1 r r' hx j])

/-- The zero offsets, as a constant function. -/
theorem hz : (![0, 0] : Fin 2 → Nat) = fun _ => 0 := funext fun a => by fin_cases a <;> rfl

variable (V : (c : Dev nD) → (b : Ref sig .tc) → Buf (Elt Ideal) ((c : Thread nD τ).loc b))

/-! ## The index maps over the grid

The row-tiled windows (the node states and the two outputs) sit at block row `t`, column block 0; every weight
and bias is one block. -/
/-- Window 0's block index at every point. -/
theorem idx7_0 : ∀ t : Fin cfg7.N, win7_0.index t (0 : Fin 2) = t.val ∧ win7_0.index t (1 : Fin 2) = 0 :=
  (by decide +kernel : ∀ t : Fin grid7.N, _)
/-- Window 1's block index at every point. -/
theorem idx7_1 : ∀ t : Fin cfg7.N, win7_1.index t (0 : Fin 2) = 0 ∧ win7_1.index t (1 : Fin 2) = 0 :=
  (by decide +kernel : ∀ t : Fin grid7.N, _)
/-- Window 2's block index at every point. -/
theorem idx7_2 : ∀ t : Fin cfg7.N, win7_2.index t (0 : Fin 2) = 0 ∧ win7_2.index t (1 : Fin 2) = 0 :=
  (by decide +kernel : ∀ t : Fin grid7.N, _)
/-- Window 3's block index at every point. -/
theorem idx7_3 : ∀ t : Fin cfg7.N, win7_3.index t (0 : Fin 2) = 0 ∧ win7_3.index t (1 : Fin 2) = 0 :=
  (by decide +kernel : ∀ t : Fin grid7.N, _)
/-- Window 4's block index at every point. -/
theorem idx7_4 : ∀ t : Fin cfg7.N, win7_4.index t (0 : Fin 2) = 0 ∧ win7_4.index t (1 : Fin 2) = 0 :=
  (by decide +kernel : ∀ t : Fin grid7.N, _)
/-- Window 5's block index at every point. -/
theorem idx7_5 : ∀ t : Fin cfg7.N, win7_5.index t (0 : Fin 2) = 0 ∧ win7_5.index t (1 : Fin 2) = 0 :=
  (by decide +kernel : ∀ t : Fin grid7.N, _)
/-- Window 6's block index at every point. -/
theorem idx7_6 : ∀ t : Fin cfg7.N, win7_6.index t (0 : Fin 2) = 0 ∧ win7_6.index t (1 : Fin 2) = 0 :=
  (by decide +kernel : ∀ t : Fin grid7.N, _)
/-- Window 7's block index at every point. -/
theorem idx7_7 : ∀ t : Fin cfg7.N, win7_7.index t (0 : Fin 2) = 0 ∧ win7_7.index t (1 : Fin 2) = 0 :=
  (by decide +kernel : ∀ t : Fin grid7.N, _)
/-- Window 8's block index at every point. -/
theorem idx7_8 : ∀ t : Fin cfg7.N, win7_8.index t (0 : Fin 2) = 0 ∧ win7_8.index t (1 : Fin 2) = 0 :=
  (by decide +kernel : ∀ t : Fin grid7.N, _)
/-- Window 9's block index at every point. -/
theorem idx7_9 : ∀ t : Fin cfg7.N, win7_9.index t (0 : Fin 2) = t.val ∧ win7_9.index t (1 : Fin 2) = 0 :=
  (by decide +kernel : ∀ t : Fin grid7.N, _)
/-- Window 10's block index at every point. -/
theorem idx7_10 : ∀ t : Fin cfg7.N, win7_10.index t (0 : Fin 2) = t.val ∧ win7_10.index t (1 : Fin 2) = 0 :=
  (by decide +kernel : ∀ t : Fin grid7.N, _)

/-! ## Each input block, read in its array's coordinates -/

/-- The row window's block at point `t` is rows `400 t … 400 t + 399` of the node states. -/
theorem blk0_apply (c : Dev nD) (t : Fin cfg7.N) (x : S400x256.Idx) (k : S100000x256.Idx)
    (hk0 : (k 0).val = 400 * t.val + (x 0).val) (hk1 : (k 1).val = (x 1).val) :
    (iblk7 V c 0 t : Vec Ideal S400x256 .f32) x = (V c main_v199 : S100000x256.Idx → EReal) k := by
  obtain ⟨e0, e1⟩ := idx7_0 t
  unfold iblk7
  rw [View.read_apply]
  show V c main_v199 _ = V c main_v199 _
  congr 1
  funext a
  apply Fin.ext
  match a with
  | ⟨0, _⟩ => show win7_0.index t (0 : Fin 2) * 400 + 1 * (x 0).val = (k 0).val; rw [e0, hk0]; omega
  | ⟨1, _⟩ => show win7_0.index t (1 : Fin 2) * 256 + 1 * (x 1).val = (k 1).val; rw [e1, hk1]; omega

/-- The first head's first weight is one block, the same at every point. -/
theorem blk1_apply (c : Dev nD) (t : Fin cfg7.N) (x : S256x128.Idx) (k : S256x128.Idx)
    (hk0 : (k 0).val = (x 0).val) (hk1 : (k 1).val = (x 1).val) :
    (iblk7 V c 1 t : Vec Ideal S256x128 .f32) x = (V c main_arg8 : S256x128.Idx → EReal) k := by
  obtain ⟨e0, e1⟩ := idx7_1 t
  unfold iblk7
  rw [View.read_apply]
  show V c main_arg8 _ = V c main_arg8 _
  congr 1
  funext a
  apply Fin.ext
  match a with
  | ⟨0, _⟩ => show win7_1.index t (0 : Fin 2) * 256 + 1 * (x 0).val = (k 0).val; rw [e0, hk0]; omega
  | ⟨1, _⟩ => show win7_1.index t (1 : Fin 2) * 128 + 1 * (x 1).val = (k 1).val; rw [e1, hk1]; omega
/-- Window 1's block at every point is its whole array. -/
theorem blk1_eq (c : Dev nD) (t : Fin cfg7.N) :
    (iblk7 V c 1 t : Vec Ideal S256x128 .f32) = (V c main_arg8 : S256x128.Idx → EReal) :=
  funext fun x => blk1_apply V c t x x rfl rfl

/-- The first head's first bias row is one block, the same at every point. -/
theorem blk2_apply (c : Dev nD) (t : Fin cfg7.N) (x : S1x128.Idx) (k : S1x128.Idx)
    (hk0 : (k 0).val = (x 0).val) (hk1 : (k 1).val = (x 1).val) :
    (iblk7 V c 2 t : Vec Ideal S1x128 .f32) x = (V c main_v216 : S1x128.Idx → EReal) k := by
  obtain ⟨e0, e1⟩ := idx7_2 t
  unfold iblk7
  rw [View.read_apply]
  show V c main_v216 _ = V c main_v216 _
  congr 1
  funext a
  apply Fin.ext
  match a with
  | ⟨0, _⟩ => show win7_2.index t (0 : Fin 2) * 1 + 1 * (x 0).val = (k 0).val; rw [e0, hk0]; omega
  | ⟨1, _⟩ => show win7_2.index t (1 : Fin 2) * 128 + 1 * (x 1).val = (k 1).val; rw [e1, hk1]; omega
/-- Window 2's block at every point is its whole array. -/
theorem blk2_eq (c : Dev nD) (t : Fin cfg7.N) :
    (iblk7 V c 2 t : Vec Ideal S1x128 .f32) = (V c main_v216 : S1x128.Idx → EReal) :=
  funext fun x => blk2_apply V c t x x rfl rfl

/-- The first head's second weight is one block, the same at every point. -/
theorem blk3_apply (c : Dev nD) (t : Fin cfg7.N) (x : S128x1.Idx) (k : S128x1.Idx)
    (hk0 : (k 0).val = (x 0).val) (hk1 : (k 1).val = (x 1).val) :
    (iblk7 V c 3 t : Vec Ideal S128x1 .f32) x = (V c main_arg10 : S128x1.Idx → EReal) k := by
  obtain ⟨e0, e1⟩ := idx7_3 t
  unfold iblk7
  rw [View.read_apply]
  show V c main_arg10 _ = V c main_arg10 _
  congr 1
  funext a
  apply Fin.ext
  match a with
  | ⟨0, _⟩ => show win7_3.index t (0 : Fin 2) * 128 + 1 * (x 0).val = (k 0).val; rw [e0, hk0]; omega
  | ⟨1, _⟩ => show win7_3.index t (1 : Fin 2) * 1 + 1 * (x 1).val = (k 1).val; rw [e1, hk1]; omega
/-- Window 3's block at every point is its whole array. -/
theorem blk3_eq (c : Dev nD) (t : Fin cfg7.N) :
    (iblk7 V c 3 t : Vec Ideal S128x1 .f32) = (V c main_arg10 : S128x1.Idx → EReal) :=
  funext fun x => blk3_apply V c t x x rfl rfl

/-- The first head's second bias is one block, the same at every point. -/
theorem blk4_apply (c : Dev nD) (t : Fin cfg7.N) (x : S1x1.Idx) (k : S1x1.Idx)
    (hk0 : (k 0).val = (x 0).val) (hk1 : (k 1).val = (x 1).val) :
    (iblk7 V c 4 t : Vec Ideal S1x1 .f32) x = (V c main_v217 : S1x1.Idx → EReal) k := by
  obtain ⟨e0, e1⟩ := idx7_4 t
  unfold iblk7
  rw [View.read_apply]
  show V c main_v217 _ = V c main_v217 _
  congr 1
  funext a
  apply Fin.ext
  match a with
  | ⟨0, _⟩ => show win7_4.index t (0 : Fin 2) * 1 + 1 * (x 0).val = (k 0).val; rw [e0, hk0]; omega
  | ⟨1, _⟩ => show win7_4.index t (1 : Fin 2) * 1 + 1 * (x 1).val = (k 1).val; rw [e1, hk1]; omega
/-- Window 4's block at every point is its whole array. -/
theorem blk4_eq (c : Dev nD) (t : Fin cfg7.N) :
    (iblk7 V c 4 t : Vec Ideal S1x1 .f32) = (V c main_v217 : S1x1.Idx → EReal) :=
  funext fun x => blk4_apply V c t x x rfl rfl

/-- The second head's first weight is one block, the same at every point. -/
theorem blk5_apply (c : Dev nD) (t : Fin cfg7.N) (x : S256x128.Idx) (k : S256x128.Idx)
    (hk0 : (k 0).val = (x 0).val) (hk1 : (k 1).val = (x 1).val) :
    (iblk7 V c 5 t : Vec Ideal S256x128 .f32) x = (V c main_arg12 : S256x128.Idx → EReal) k := by
  obtain ⟨e0, e1⟩ := idx7_5 t
  unfold iblk7
  rw [View.read_apply]
  show V c main_arg12 _ = V c main_arg12 _
  congr 1
  funext a
  apply Fin.ext
  match a with
  | ⟨0, _⟩ => show win7_5.index t (0 : Fin 2) * 256 + 1 * (x 0).val = (k 0).val; rw [e0, hk0]; omega
  | ⟨1, _⟩ => show win7_5.index t (1 : Fin 2) * 128 + 1 * (x 1).val = (k 1).val; rw [e1, hk1]; omega
/-- Window 5's block at every point is its whole array. -/
theorem blk5_eq (c : Dev nD) (t : Fin cfg7.N) :
    (iblk7 V c 5 t : Vec Ideal S256x128 .f32) = (V c main_arg12 : S256x128.Idx → EReal) :=
  funext fun x => blk5_apply V c t x x rfl rfl

/-- The second head's first bias row is one block, the same at every point. -/
theorem blk6_apply (c : Dev nD) (t : Fin cfg7.N) (x : S1x128.Idx) (k : S1x128.Idx)
    (hk0 : (k 0).val = (x 0).val) (hk1 : (k 1).val = (x 1).val) :
    (iblk7 V c 6 t : Vec Ideal S1x128 .f32) x = (V c main_v218 : S1x128.Idx → EReal) k := by
  obtain ⟨e0, e1⟩ := idx7_6 t
  unfold iblk7
  rw [View.read_apply]
  show V c main_v218 _ = V c main_v218 _
  congr 1
  funext a
  apply Fin.ext
  match a with
  | ⟨0, _⟩ => show win7_6.index t (0 : Fin 2) * 1 + 1 * (x 0).val = (k 0).val; rw [e0, hk0]; omega
  | ⟨1, _⟩ => show win7_6.index t (1 : Fin 2) * 128 + 1 * (x 1).val = (k 1).val; rw [e1, hk1]; omega
/-- Window 6's block at every point is its whole array. -/
theorem blk6_eq (c : Dev nD) (t : Fin cfg7.N) :
    (iblk7 V c 6 t : Vec Ideal S1x128 .f32) = (V c main_v218 : S1x128.Idx → EReal) :=
  funext fun x => blk6_apply V c t x x rfl rfl

/-- The second head's second weight is one block, the same at every point. -/
theorem blk7_apply (c : Dev nD) (t : Fin cfg7.N) (x : S128x1.Idx) (k : S128x1.Idx)
    (hk0 : (k 0).val = (x 0).val) (hk1 : (k 1).val = (x 1).val) :
    (iblk7 V c 7 t : Vec Ideal S128x1 .f32) x = (V c main_arg14 : S128x1.Idx → EReal) k := by
  obtain ⟨e0, e1⟩ := idx7_7 t
  unfold iblk7
  rw [View.read_apply]
  show V c main_arg14 _ = V c main_arg14 _
  congr 1
  funext a
  apply Fin.ext
  match a with
  | ⟨0, _⟩ => show win7_7.index t (0 : Fin 2) * 128 + 1 * (x 0).val = (k 0).val; rw [e0, hk0]; omega
  | ⟨1, _⟩ => show win7_7.index t (1 : Fin 2) * 1 + 1 * (x 1).val = (k 1).val; rw [e1, hk1]; omega
/-- Window 7's block at every point is its whole array. -/
theorem blk7_eq (c : Dev nD) (t : Fin cfg7.N) :
    (iblk7 V c 7 t : Vec Ideal S128x1 .f32) = (V c main_arg14 : S128x1.Idx → EReal) :=
  funext fun x => blk7_apply V c t x x rfl rfl

/-- The second head's second bias is one block, the same at every point. -/
theorem blk8_apply (c : Dev nD) (t : Fin cfg7.N) (x : S1x1.Idx) (k : S1x1.Idx)
    (hk0 : (k 0).val = (x 0).val) (hk1 : (k 1).val = (x 1).val) :
    (iblk7 V c 8 t : Vec Ideal S1x1 .f32) x = (V c main_v219 : S1x1.Idx → EReal) k := by
  obtain ⟨e0, e1⟩ := idx7_8 t
  unfold iblk7
  rw [View.read_apply]
  show V c main_v219 _ = V c main_v219 _
  congr 1
  funext a
  apply Fin.ext
  match a with
  | ⟨0, _⟩ => show win7_8.index t (0 : Fin 2) * 1 + 1 * (x 0).val = (k 0).val; rw [e0, hk0]; omega
  | ⟨1, _⟩ => show win7_8.index t (1 : Fin 2) * 1 + 1 * (x 1).val = (k 1).val; rw [e1, hk1]; omega
/-- Window 8's block at every point is its whole array. -/
theorem blk8_eq (c : Dev nD) (t : Fin cfg7.N) :
    (iblk7 V c 8 t : Vec Ideal S1x1 .f32) = (V c main_v219 : S1x1.Idx → EReal) :=
  funext fun x => blk8_apply V c t x x rfl rfl

/-! ## What a point writes back, and the arrays after the region -/

/-- What point `t` writes back to the first output is block `t` of the first head of the arrays as the region finds them: entry `p` of the block reads row `400 t + p` of the node states and the first head's weights and biases. -/
theorem flushed9_eq (c : Dev nD) (t : Fin cfg7.N) :
    (dat7 (F := Ideal) V c).flushed 9 t
      = ((cfg7.win 9).blk t).view.read (Elt Ideal) (Spec.head (V c main_v199) (V c main_arg8) (V c main_v216) (V c main_arg10) (V c main_v217)) := by
  show (cfg7.win 9).cut (grid7.coords t) ((dat7 V c).after 9 t) = _
  rw [after7_9]
  unfold out7_9
  rw [View.canon_unit_zero hz]
  simp only [View.ld_unit_zero (S := S400x256) hz, View.ld_unit_zero (S := S256x128) hz, View.ld_unit_zero (S := S1x128) hz,
    View.ld_unit_zero (S := S128x1) hz, View.ld_unit_zero (S := S1x1) hz]
  funext j
  obtain ⟨p, q, rfl⟩ : ∃ (p : Fin 400) (q : Fin 1), j = ix2 p q := ⟨j 0, j 1, eq_ix2 j⟩
  obtain ⟨e0, e1⟩ := idx7_9 t
  refine (pay3_apply _ _ _ _ _ p q).trans ?_
  show Spec.headAt (iblk7 V c 0 t) (iblk7 V c 1 t) (iblk7 V c 2 t) (iblk7 V c 3 t) (iblk7 V c 4 t) p q
    = Spec.headAt (V c main_v199) (V c main_arg8) (V c main_v216) (V c main_arg10) (V c main_v217)
        ((((cfg7.win 9).blk t).view.emb (ix2 p q)) 0) ((((cfg7.win 9).blk t).view.emb (ix2 p q)) 1)
  have h0 : ((((cfg7.win 9).blk t).view.emb (ix2 p q)) 0).val = 400 * t.val + p.val := by
    show win7_9.index t (0 : Fin 2) * 400 + 1 * p.val = _; rw [e0]; omega
  have h1 : ((((cfg7.win 9).blk t).view.emb (ix2 p q)) 1).val = q.val := by
    show win7_9.index t (1 : Fin 2) * 1 + 1 * q.val = _; rw [e1]; omega
  refine headAt_congr _ _ _ _ _ _ _ _ _ _ _ _ _ _ (fun k => ?_) (blk1_eq V c t) (blk2_eq V c t) (fun k => ?_) ?_
  · exact blk0_apply V c t (ix2 p k) _ h0 rfl
  · exact blk3_apply V c t (ix2 k q) _ rfl h1
  · exact blk4_apply V c t (ix2 0 q) _ rfl h1

/-- An index of the first output array is in point `t`'s block iff each coordinate is in the block's range on its axis. -/
theorem mem_blk9 (t : Fin cfg7.N) (i : S100000x1.Idx) :
    i ∈ ((cfg7.win 9).blk t).view.set ↔ ∀ a : Fin 2, win7_9.index t a * S400x1.size a ≤ (i a).val
      ∧ (i a).val < win7_9.index t a * S400x1.size a + S400x1.size a := by
  show i ∈ ((View.whole main_v220_0).slice (win7_9.rect t)).set ↔ _
  rw [View.set_slice_whole, Rect.mem_set_unit]
  exact Iff.rfl

/-- The first output after the region: the first head of the arrays as the region finds them. Row `r` is written by point `r / 400`, and the 250 row blocks fill the array. -/
theorem out9 (c : Dev nD) :
    (dat7 (F := Ideal) V c).arrAt 9 cfg7.N
      = Spec.head (V c main_v199) (V c main_arg8) (V c main_v216) (V c main_arg10) (V c main_v217) :=
  (dat7 (F := Ideal) V c).arrAt_eq_of_cover 9 _ (fun t _ => flushed9_eq V c t) fun i => by
    have hi0 : (i 0).val < 100000 := (i 0).isLt
    have hi1 : (i 1).val < 1 := (i 1).isLt
    have hN : cfg7.N = 250 := N_7
    have hlt : (i 0).val / 400 < cfg7.N := by rw [hN]; omega
    obtain ⟨e0, e1⟩ := idx7_9 ⟨(i 0).val / 400, hlt⟩
    refine ⟨⟨(i 0).val / 400, hlt⟩, flush7_9 _, ?_⟩
    rw [mem_blk9]
    intro a
    match a with
    | ⟨0, _⟩ =>
      show win7_9.index ⟨(i 0).val / 400, hlt⟩ (0 : Fin 2) * 400 ≤ (i 0).val
        ∧ (i 0).val < win7_9.index ⟨(i 0).val / 400, hlt⟩ (0 : Fin 2) * 400 + 400
      rw [e0]; show (i 0).val / 400 * 400 ≤ (i 0).val ∧ (i 0).val < (i 0).val / 400 * 400 + 400; omega
    | ⟨1, _⟩ =>
      show win7_9.index ⟨(i 0).val / 400, hlt⟩ (1 : Fin 2) * 1 ≤ (i 1).val
        ∧ (i 1).val < win7_9.index ⟨(i 0).val / 400, hlt⟩ (1 : Fin 2) * 1 + 1
      rw [e1]; omega

/-- What point `t` writes back to the second output is block `t` of the second head of the arrays as the region finds them: entry `p` of the block reads row `400 t + p` of the node states and the second head's weights and biases. -/
theorem flushed10_eq (c : Dev nD) (t : Fin cfg7.N) :
    (dat7 (F := Ideal) V c).flushed 10 t
      = ((cfg7.win 10).blk t).view.read (Elt Ideal) (Spec.head (V c main_v199) (V c main_arg12) (V c main_v218) (V c main_arg14) (V c main_v219)) := by
  show (cfg7.win 10).cut (grid7.coords t) ((dat7 V c).after 10 t) = _
  rw [after7_10]
  unfold out7_10
  rw [View.canon_unit_zero hz]
  simp only [View.ld_unit_zero (S := S400x256) hz, View.ld_unit_zero (S := S256x128) hz, View.ld_unit_zero (S := S1x128) hz,
    View.ld_unit_zero (S := S128x1) hz, View.ld_unit_zero (S := S1x1) hz]
  funext j
  obtain ⟨p, q, rfl⟩ : ∃ (p : Fin 400) (q : Fin 1), j = ix2 p q := ⟨j 0, j 1, eq_ix2 j⟩
  obtain ⟨e0, e1⟩ := idx7_10 t
  refine (pay14_apply _ _ _ _ _ p q).trans ?_
  show Spec.headAt (iblk7 V c 0 t) (iblk7 V c 5 t) (iblk7 V c 6 t) (iblk7 V c 7 t) (iblk7 V c 8 t) p q
    = Spec.headAt (V c main_v199) (V c main_arg12) (V c main_v218) (V c main_arg14) (V c main_v219)
        ((((cfg7.win 10).blk t).view.emb (ix2 p q)) 0) ((((cfg7.win 10).blk t).view.emb (ix2 p q)) 1)
  have h0 : ((((cfg7.win 10).blk t).view.emb (ix2 p q)) 0).val = 400 * t.val + p.val := by
    show win7_10.index t (0 : Fin 2) * 400 + 1 * p.val = _; rw [e0]; omega
  have h1 : ((((cfg7.win 10).blk t).view.emb (ix2 p q)) 1).val = q.val := by
    show win7_10.index t (1 : Fin 2) * 1 + 1 * q.val = _; rw [e1]; omega
  refine headAt_congr _ _ _ _ _ _ _ _ _ _ _ _ _ _ (fun k => ?_) (blk5_eq V c t) (blk6_eq V c t) (fun k => ?_) ?_
  · exact blk0_apply V c t (ix2 p k) _ h0 rfl
  · exact blk7_apply V c t (ix2 k q) _ rfl h1
  · exact blk8_apply V c t (ix2 0 q) _ rfl h1

/-- An index of the second output array is in point `t`'s block iff each coordinate is in the block's range on its axis. -/
theorem mem_blk10 (t : Fin cfg7.N) (i : S100000x1.Idx) :
    i ∈ ((cfg7.win 10).blk t).view.set ↔ ∀ a : Fin 2, win7_10.index t a * S400x1.size a ≤ (i a).val
      ∧ (i a).val < win7_10.index t a * S400x1.size a + S400x1.size a := by
  show i ∈ ((View.whole main_v220_1).slice (win7_10.rect t)).set ↔ _
  rw [View.set_slice_whole, Rect.mem_set_unit]
  exact Iff.rfl

/-- The second output after the region: the second head of the arrays as the region finds them. Row `r` is written by point `r / 400`, and the 250 row blocks fill the array. -/
theorem out10 (c : Dev nD) :
    (dat7 (F := Ideal) V c).arrAt 10 cfg7.N
      = Spec.head (V c main_v199) (V c main_arg12) (V c main_v218) (V c main_arg14) (V c main_v219) :=
  (dat7 (F := Ideal) V c).arrAt_eq_of_cover 10 _ (fun t _ => flushed10_eq V c t) fun i => by
    have hi0 : (i 0).val < 100000 := (i 0).isLt
    have hi1 : (i 1).val < 1 := (i 1).isLt
    have hN : cfg7.N = 250 := N_7
    have hlt : (i 0).val / 400 < cfg7.N := by rw [hN]; omega
    obtain ⟨e0, e1⟩ := idx7_10 ⟨(i 0).val / 400, hlt⟩
    refine ⟨⟨(i 0).val / 400, hlt⟩, flush7_10 _, ?_⟩
    rw [mem_blk10]
    intro a
    match a with
    | ⟨0, _⟩ =>
      show win7_10.index ⟨(i 0).val / 400, hlt⟩ (0 : Fin 2) * 400 ≤ (i 0).val
        ∧ (i 0).val < win7_10.index ⟨(i 0).val / 400, hlt⟩ (0 : Fin 2) * 400 + 400
      rw [e0]; show (i 0).val / 400 * 400 ≤ (i 0).val ∧ (i 0).val < (i 0).val / 400 * 400 + 400; omega
    | ⟨1, _⟩ =>
      show win7_10.index ⟨(i 0).val / 400, hlt⟩ (1 : Fin 2) * 1 ≤ (i 1).val
        ∧ (i 1).val < win7_10.index ⟨(i 0).val / 400, hlt⟩ (1 : Fin 2) * 1 + 1
      rw [e1]; omega

end Cert.KernelIdeal.Region7

end
-- ==== Proof.Fold.lean ====
/-
  The idealized kernel program's buffers at its segment boundaries, named by the reference's stages.

  Walking @main from the launch: a stretch of host operations computes neighbourhood means (a gather of source rows
  along the edges, a scatter-add into the destination rows, a division by the clamped in-degree) and slices of the
  stacked parameters — the very operations the reference applies, to operands that are equal by the previous steps, so
  the results are the reference's stages of the same name; a kernel region leaves in its output array the dense layer
  of `Spec` of its operand arrays, which is what the reference's matrix products, bias broadcasts and positive parts
  compute entry by entry.  At the last boundary the two result arrays are the reference's two results.
-/
import proofs.«106822_j76312978915563_2_alg».proof.Proof.Keep
import proofs.«106822_j76312978915563_2_alg».proof.Proof.RefStages
import proofs.«106822_j76312978915563_2_alg».proof.Proof.Region0
import proofs.«106822_j76312978915563_2_alg».proof.Proof.Region1
import proofs.«106822_j76312978915563_2_alg».proof.Proof.Region2
import proofs.«106822_j76312978915563_2_alg».proof.Proof.Region3
import proofs.«106822_j76312978915563_2_alg».proof.Proof.Region4
import proofs.«106822_j76312978915563_2_alg».proof.Proof.Region7
import Idealize.ShloMosaic.Lib.StableHlo.Run

set_option maxRecDepth 16384
set_option maxHeartbeats 4000000

noncomputable section

namespace Cert.KernelIdeal.Fold

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The projection -/

theorem b1_v0 : W1 m ρ c (Proc.devRef .tc main_v0) = (shapeCast S1x256 (m ((c : Thread nD τ).loc main_arg4)) shapeCasts_S256_S1x256) := by
  show StableHlo.after hostOps0 (W0 m ρ c) (Proc.devRef .tc main_v0) = _
  after_results
  rfl

theorem b2_v1 : W2 m ρ c (Proc.devRef .tc main_v1) = (val_main_v3 (F := Ideal) (m ((c : Thread nD τ).loc main_arg0)) (m ((c : Thread nD τ).loc main_arg3)) (m ((c : Thread nD τ).loc main_arg4))) := by
  refine (W2_arr m ρ c 3).trans ((Region0.out (V1 m ρ) c).trans ?_)
  rw [show V1 m ρ c main_arg0 = (m ((c : Thread nD τ).loc main_arg0)) from Keep.args1 m ρ c main_arg0 (by decide),
    show V1 m ρ c main_arg3 = (m ((c : Thread nD τ).loc main_arg3)) from Keep.args1 m ρ c main_arg3 (by decide),
    show V1 m ρ c main_v0 = _ from b1_v0 m ρ c]
  exact (Cert.ReferenceIdeal.Stages.proj_eq _ _ _ _).symm

/-! ## The first layer -/

theorem b3_v20 : W3 m ρ c (Proc.devRef .tc main_v20) = (val_main_v28 (F := Ideal) (m ((c : Thread nD τ).loc main_arg1)) (m ((c : Thread nD τ).loc main_arg16)) (m ((c : Thread nD τ).loc main_arg17))) := by
  show StableHlo.after hostOps1 (W2 m ρ c) (Proc.devRef .tc main_v20) = _
  after_results_simp
  rw [Keep.args2 m ρ c main_arg1 (by decide), Keep.args2 m ρ c main_arg16 (by decide), Keep.args2 m ρ c main_arg17 (by decide)]
  rfl

theorem b3_v39 : W3 m ρ c (Proc.devRef .tc main_v39) = (val_main_v90 (F := Ideal) (m ((c : Thread nD τ).loc main_arg2)) (m ((c : Thread nD τ).loc main_arg20)) (m ((c : Thread nD τ).loc main_arg21))) := by
  show StableHlo.after hostOps1 (W2 m ρ c) (Proc.devRef .tc main_v39) = _
  after_results_simp
  rw [Keep.args2 m ρ c main_arg2 (by decide), Keep.args2 m ρ c main_arg20 (by decide), Keep.args2 m ρ c main_arg21 (by decide)]
  rfl

theorem b3_v58 : W3 m ρ c (Proc.devRef .tc main_v58) = (val_main_v59 (F := Ideal) (m ((c : Thread nD τ).loc main_arg0)) (m ((c : Thread nD τ).loc main_arg3)) (m ((c : Thread nD τ).loc main_arg4)) (m ((c : Thread nD τ).loc main_arg18)) (m ((c : Thread nD τ).loc main_arg19))) := by
  show StableHlo.after hostOps1 (W2 m ρ c) (Proc.devRef .tc main_v58) = _
  after_results_simp
  rw [b2_v1 m ρ c, Keep.args2 m ρ c main_arg18 (by decide), Keep.args2 m ρ c main_arg19 (by decide)]
  rfl

theorem b3_v77 : W3 m ρ c (Proc.devRef .tc main_v77) = (val_main_v121 (F := Ideal) (m ((c : Thread nD τ).loc main_arg0)) (m ((c : Thread nD τ).loc main_arg3)) (m ((c : Thread nD τ).loc main_arg4)) (m ((c : Thread nD τ).loc main_arg22)) (m ((c : Thread nD τ).loc main_arg23))) := by
  show StableHlo.after hostOps1 (W2 m ρ c) (Proc.devRef .tc main_v77) = _
  after_results_simp
  rw [b2_v1 m ρ c, Keep.args2 m ρ c main_arg22 (by decide), Keep.args2 m ρ c main_arg23 (by decide)]
  rfl

theorem b3_v79 : W3 m ρ c (Proc.devRef .tc main_v79) = (val_main_v5 (F := Ideal) (m ((c : Thread nD τ).loc main_arg5))) := by
  show StableHlo.after hostOps1 (W2 m ρ c) (Proc.devRef .tc main_v79) = _
  after_results_simp
  rw [Keep.args2 m ρ c main_arg5 (by decide)]
  rfl

theorem b3_v90 : W3 m ρ c (Proc.devRef .tc main_v90) = (shapeCast S1x256 (val_main_v7 (F := Ideal) (m ((c : Thread nD τ).loc main_arg6))) shapeCasts_S256_S1x256) := by
  show StableHlo.after hostOps1 (W2 m ρ c) (Proc.devRef .tc main_v90) = _
  after_results_simp
  rw [Keep.args2 m ρ c main_arg6 (by decide)]
  rfl

theorem b3_v83 : W3 m ρ c (Proc.devRef .tc main_v83) = (val_main_v9 (F := Ideal) (m ((c : Thread nD τ).loc main_arg7))) := by
  show StableHlo.after hostOps1 (W2 m ρ c) (Proc.devRef .tc main_v83) = _
  after_results_simp
  rw [Keep.args2 m ρ c main_arg7 (by decide)]
  rfl

theorem b3_v85 : W3 m ρ c (Proc.devRef .tc main_v85) = (val_main_v67 (F := Ideal) (m ((c : Thread nD τ).loc main_arg5))) := by
  show StableHlo.after hostOps1 (W2 m ρ c) (Proc.devRef .tc main_v85) = _
  after_results_simp
  rw [Keep.args2 m ρ c main_arg5 (by decide)]
  rfl

theorem b3_v91 : W3 m ρ c (Proc.devRef .tc main_v91) = (shapeCast S1x256 (val_main_v69 (F := Ideal) (m ((c : Thread nD τ).loc main_arg6))) shapeCasts_S256_S1x256) := by
  show StableHlo.after hostOps1 (W2 m ρ c) (Proc.devRef .tc main_v91) = _
  after_results_simp
  rw [Keep.args2 m ρ c main_arg6 (by decide)]
  rfl

theorem b3_v89 : W3 m ρ c (Proc.devRef .tc main_v89) = (val_main_v71 (F := Ideal) (m ((c : Thread nD τ).loc main_arg7))) := by
  show StableHlo.after hostOps1 (W2 m ρ c) (Proc.devRef .tc main_v89) = _
  after_results_simp
  rw [Keep.args2 m ρ c main_arg7 (by decide)]
  rfl

theorem b3_v1 : W3 m ρ c (Proc.devRef .tc main_v1) = (val_main_v3 (F := Ideal) (m ((c : Thread nD τ).loc main_arg0)) (m ((c : Thread nD τ).loc main_arg3)) (m ((c : Thread nD τ).loc main_arg4))) :=
  (Keep.host1 m ρ c main_v1 (by decide)).trans (b2_v1 m ρ c)

theorem b4_v92 : W4 m ρ c (Proc.devRef .tc main_v92) = (val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) (m ((c : Thread nD τ).loc main_arg20)) (m ((c : Thread nD τ).loc main_arg21))) := by
  refine (W4_arr m ρ c 9).trans ((Region1.out (V3 m ρ) c).trans ?_)
  rw [show V3 m ρ c main_v20 = _ from b3_v20 m ρ c,
    show V3 m ρ c main_v39 = _ from b3_v39 m ρ c,
    show V3 m ρ c main_v1 = _ from b3_v1 m ρ c,
    show V3 m ρ c main_v79 = _ from b3_v79 m ρ c,
    show V3 m ρ c main_v90 = _ from b3_v90 m ρ c,
    show V3 m ρ c main_v83 = _ from b3_v83 m ρ c,
    show V3 m ρ c main_v85 = _ from b3_v85 m ρ c,
    show V3 m ρ c main_v91 = _ from b3_v91 m ρ c,
    show V3 m ρ c main_v89 = _ from b3_v89 m ρ c]
  exact (Cert.ReferenceIdeal.Stages.tx1_eq _ _ _ _ _ _ _ _ _ _ _ _ _).symm

theorem b5_v58 : W5 m ρ c (Proc.devRef .tc main_v58) = (val_main_v59 (F := Ideal) (m ((c : Thread nD τ).loc main_arg0)) (m ((c : Thread nD τ).loc main_arg3)) (m ((c : Thread nD τ).loc main_arg4)) (m ((c : Thread nD τ).loc main_arg18)) (m ((c : Thread nD τ).loc main_arg19))) :=
  (Keep.host2 m ρ c main_v58 (by decide)).trans ((W4_of_ne m ρ c main_v58 (by decide)).trans (b3_v58 m ρ c))
theorem b5_v94 : W5 m ρ c (Proc.devRef .tc main_v94) = (val_main_v36 (F := Ideal) (m ((c : Thread nD τ).loc main_arg5))) := by
  show StableHlo.after hostOps2 (W4 m ρ c) (Proc.devRef .tc main_v94) = _
  after_results
  rw [Keep.args4 m ρ c main_arg5 (by decide)]
  rfl

theorem b5_v99 : W5 m ρ c (Proc.devRef .tc main_v99) = (shapeCast S1x256 (val_main_v38 (F := Ideal) (m ((c : Thread nD τ).loc main_arg6))) shapeCasts_S256_S1x256) := by
  show StableHlo.after hostOps2 (W4 m ρ c) (Proc.devRef .tc main_v99) = _
  after_results
  rw [Keep.args4 m ρ c main_arg6 (by decide)]
  rfl

theorem b5_v98 : W5 m ρ c (Proc.devRef .tc main_v98) = (val_main_v40 (F := Ideal) (m ((c : Thread nD τ).loc main_arg7))) := by
  show StableHlo.after hostOps2 (W4 m ρ c) (Proc.devRef .tc main_v98) = _
  after_results
  rw [Keep.args4 m ρ c main_arg7 (by decide)]
  rfl

theorem b6_v100 : W6 m ρ c (Proc.devRef .tc main_v100) = (val_main_v132 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg18)) (m ((c : Thread nD τ).loc main_arg19))) := by
  refine (W6_arr m ρ c 5).trans ((Region2.out (V5 m ρ) c).trans ?_)
  rw [show V5 m ρ c main_v58 = _ from b5_v58 m ρ c,
    show V5 m ρ c main_arg2 = _ from Keep.args5 m ρ c main_arg2 (by decide),
    show V5 m ρ c main_v94 = _ from b5_v94 m ρ c,
    show V5 m ρ c main_v99 = _ from b5_v99 m ρ c,
    show V5 m ρ c main_v98 = _ from b5_v98 m ρ c]
  exact (Cert.ReferenceIdeal.Stages.merch1_eq _ _ _ _ _ _ _ _ _ _).symm

theorem b7_v77 : W7 m ρ c (Proc.devRef .tc main_v77) = (val_main_v121 (F := Ideal) (m ((c : Thread nD τ).loc main_arg0)) (m ((c : Thread nD τ).loc main_arg3)) (m ((c : Thread nD τ).loc main_arg4)) (m ((c : Thread nD τ).loc main_arg22)) (m ((c : Thread nD τ).loc main_arg23))) :=
  (Keep.host3 m ρ c main_v77 (by decide)).trans ((W6_of_ne m ρ c main_v77 (by decide)).trans ((Keep.host2 m ρ c main_v77 (by decide)).trans ((W4_of_ne m ρ c main_v77 (by decide)).trans (b3_v77 m ρ c))))
theorem b7_v102 : W7 m ρ c (Proc.devRef .tc main_v102) = (val_main_v98 (F := Ideal) (m ((c : Thread nD τ).loc main_arg5))) := by
  show StableHlo.after hostOps3 (W6 m ρ c) (Proc.devRef .tc main_v102) = _
  after_results
  rw [Keep.args6 m ρ c main_arg5 (by decide)]
  rfl

theorem b7_v107 : W7 m ρ c (Proc.devRef .tc main_v107) = (shapeCast S1x256 (val_main_v100 (F := Ideal) (m ((c : Thread nD τ).loc main_arg6))) shapeCasts_S256_S1x256) := by
  show StableHlo.after hostOps3 (W6 m ρ c) (Proc.devRef .tc main_v107) = _
  after_results
  rw [Keep.args6 m ρ c main_arg6 (by decide)]
  rfl

theorem b7_v106 : W7 m ρ c (Proc.devRef .tc main_v106) = (val_main_v102 (F := Ideal) (m ((c : Thread nD τ).loc main_arg7))) := by
  show StableHlo.after hostOps3 (W6 m ρ c) (Proc.devRef .tc main_v106) = _
  after_results
  rw [Keep.args6 m ρ c main_arg7 (by decide)]
  rfl

theorem b8_v108 : W8 m ρ c (Proc.devRef .tc main_v108) = (val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg22)) (m ((c : Thread nD τ).loc main_arg23))) := by
  refine (W8_arr m ρ c 5).trans ((Region3.out (V7 m ρ) c).trans ?_)
  rw [show V7 m ρ c main_v77 = _ from b7_v77 m ρ c,
    show V7 m ρ c main_arg1 = _ from Keep.args7 m ρ c main_arg1 (by decide),
    show V7 m ρ c main_v102 = _ from b7_v102 m ρ c,
    show V7 m ρ c main_v107 = _ from b7_v107 m ρ c,
    show V7 m ρ c main_v106 = _ from b7_v106 m ρ c]
  exact (Cert.ReferenceIdeal.Stages.user1_eq _ _ _ _ _ _ _ _ _ _).symm

/-! ## The second layer -/

theorem b8_v100 : W8 m ρ c (Proc.devRef .tc main_v100) = (val_main_v132 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg18)) (m ((c : Thread nD τ).loc main_arg19))) :=
  (W8_of_ne m ρ c main_v100 (by decide)).trans ((Keep.host3 m ρ c main_v100 (by decide)).trans (b6_v100 m ρ c))
theorem b8_v92 : W8 m ρ c (Proc.devRef .tc main_v92) = (val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) (m ((c : Thread nD τ).loc main_arg20)) (m ((c : Thread nD τ).loc main_arg21))) :=
  (W8_of_ne m ρ c main_v92 (by decide)).trans ((Keep.host3 m ρ c main_v92 (by decide)).trans ((W6_of_ne m ρ c main_v92 (by decide)).trans ((Keep.host2 m ρ c main_v92 (by decide)).trans (b4_v92 m ρ c))))
theorem b9_v127 : W9 m ρ c (Proc.devRef .tc main_v127) = (val_main_v158 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) (m ((c : Thread nD τ).loc main_arg22)) (m ((c : Thread nD τ).loc main_arg23))) := by
  show StableHlo.after hostOps4 (W8 m ρ c) (Proc.devRef .tc main_v127) = _
  after_results_simp
  rw [b8_v108 m ρ c, Keep.args8 m ρ c main_arg16 (by decide), Keep.args8 m ρ c main_arg17 (by decide)]
  rfl

theorem b9_v146 : W9 m ρ c (Proc.devRef .tc main_v146) = (val_main_v220 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg18)) (m ((c : Thread nD τ).loc main_arg19)) (m ((c : Thread nD τ).loc main_arg20)) (m ((c : Thread nD τ).loc main_arg21))) := by
  show StableHlo.after hostOps4 (W8 m ρ c) (Proc.devRef .tc main_v146) = _
  after_results_simp
  rw [b8_v100 m ρ c, Keep.args8 m ρ c main_arg20 (by decide), Keep.args8 m ρ c main_arg21 (by decide)]
  rfl

theorem b9_v186 : W9 m ρ c (Proc.devRef .tc main_v186) = (val_main_v135 (F := Ideal) (m ((c : Thread nD τ).loc main_arg5))) := by
  show StableHlo.after hostOps4 (W8 m ρ c) (Proc.devRef .tc main_v186) = _
  after_results_simp
  rw [Keep.args8 m ρ c main_arg5 (by decide)]
  rfl

theorem b9_v197 : W9 m ρ c (Proc.devRef .tc main_v197) = (shapeCast S1x256 (val_main_v137 (F := Ideal) (m ((c : Thread nD τ).loc main_arg6))) shapeCasts_S256_S1x256) := by
  show StableHlo.after hostOps4 (W8 m ρ c) (Proc.devRef .tc main_v197) = _
  after_results_simp
  rw [Keep.args8 m ρ c main_arg6 (by decide)]
  rfl

theorem b9_v190 : W9 m ρ c (Proc.devRef .tc main_v190) = (val_main_v139 (F := Ideal) (m ((c : Thread nD τ).loc main_arg7))) := by
  show StableHlo.after hostOps4 (W8 m ρ c) (Proc.devRef .tc main_v190) = _
  after_results_simp
  rw [Keep.args8 m ρ c main_arg7 (by decide)]
  rfl

theorem b9_v192 : W9 m ρ c (Proc.devRef .tc main_v192) = (val_main_v197 (F := Ideal) (m ((c : Thread nD τ).loc main_arg5))) := by
  show StableHlo.after hostOps4 (W8 m ρ c) (Proc.devRef .tc main_v192) = _
  after_results_simp
  rw [Keep.args8 m ρ c main_arg5 (by decide)]
  rfl

theorem b9_v198 : W9 m ρ c (Proc.devRef .tc main_v198) = (shapeCast S1x256 (val_main_v199 (F := Ideal) (m ((c : Thread nD τ).loc main_arg6))) shapeCasts_S256_S1x256) := by
  show StableHlo.after hostOps4 (W8 m ρ c) (Proc.devRef .tc main_v198) = _
  after_results_simp
  rw [Keep.args8 m ρ c main_arg6 (by decide)]
  rfl

theorem b9_v196 : W9 m ρ c (Proc.devRef .tc main_v196) = (val_main_v201 (F := Ideal) (m ((c : Thread nD τ).loc main_arg7))) := by
  show StableHlo.after hostOps4 (W8 m ρ c) (Proc.devRef .tc main_v196) = _
  after_results_simp
  rw [Keep.args8 m ρ c main_arg7 (by decide)]
  rfl

theorem b9_v92 : W9 m ρ c (Proc.devRef .tc main_v92) = (val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) (m ((c : Thread nD τ).loc main_arg20)) (m ((c : Thread nD τ).loc main_arg21))) :=
  (Keep.host4 m ρ c main_v92 (by decide)).trans (b8_v92 m ρ c)
theorem b10_v199 : W10 m ρ c (Proc.devRef .tc main_v199) = (val_main_v261 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  refine (W10_arr m ρ c 9).trans ((Region4.out (V9 m ρ) c).trans ?_)
  rw [show V9 m ρ c main_v127 = _ from b9_v127 m ρ c,
    show V9 m ρ c main_v146 = _ from b9_v146 m ρ c,
    show V9 m ρ c main_v92 = _ from b9_v92 m ρ c,
    show V9 m ρ c main_v186 = _ from b9_v186 m ρ c,
    show V9 m ρ c main_v197 = _ from b9_v197 m ρ c,
    show V9 m ρ c main_v190 = _ from b9_v190 m ρ c,
    show V9 m ρ c main_v192 = _ from b9_v192 m ρ c,
    show V9 m ρ c main_v198 = _ from b9_v198 m ρ c,
    show V9 m ρ c main_v196 = _ from b9_v196 m ρ c]
  exact (Cert.ReferenceIdeal.Stages.tx2_eq _ _ _ _ _ _ _ _ _ _ _ _ _ _ _ _ _).symm

/-! ## The two heads -/

theorem b15_v199 : W15 m ρ c (Proc.devRef .tc main_v199) = (val_main_v261 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) :=
  (Keep.host7 m ρ c main_v199 (by decide)).trans ((W14_of_ne m ρ c main_v199 (by decide)).trans ((Keep.host6 m ρ c main_v199 (by decide)).trans ((W12_of_ne m ρ c main_v199 (by decide)).trans ((Keep.host5 m ρ c main_v199 (by decide)).trans (b10_v199 m ρ c)))))
theorem b15_v216 : W15 m ρ c (Proc.devRef .tc main_v216) = (shapeCast S1x128 (m ((c : Thread nD τ).loc main_arg9)) shapeCasts_S128_S1x128) := by
  show StableHlo.after hostOps7 (W14 m ρ c) (Proc.devRef .tc main_v216) = _
  after_results
  rw [Keep.args14 m ρ c main_arg9 (by decide)]
  rfl

theorem b15_v217 : W15 m ρ c (Proc.devRef .tc main_v217) = (shapeCast S1x1 (m ((c : Thread nD τ).loc main_arg11)) shapeCasts_S1_S1x1) := by
  show StableHlo.after hostOps7 (W14 m ρ c) (Proc.devRef .tc main_v217) = _
  after_results
  rw [Keep.args14 m ρ c main_arg11 (by decide)]
  rfl

theorem b15_v218 : W15 m ρ c (Proc.devRef .tc main_v218) = (shapeCast S1x128 (m ((c : Thread nD τ).loc main_arg13)) shapeCasts_S128_S1x128) := by
  show StableHlo.after hostOps7 (W14 m ρ c) (Proc.devRef .tc main_v218) = _
  after_results
  rw [Keep.args14 m ρ c main_arg13 (by decide)]
  rfl

theorem b15_v219 : W15 m ρ c (Proc.devRef .tc main_v219) = (shapeCast S1x1 (m ((c : Thread nD τ).loc main_arg15)) shapeCasts_S1_S1x1) := by
  show StableHlo.after hostOps7 (W14 m ρ c) (Proc.devRef .tc main_v219) = _
  after_results
  rw [Keep.args14 m ρ c main_arg15 (by decide)]
  rfl

theorem b16_v220_0 : W16 m ρ c (Proc.devRef .tc main_v220_0) = (val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  refine (W16_arr m ρ c 9).trans ((Region7.out9 (V15 m ρ) c).trans ?_)
  rw [show V15 m ρ c main_v199 = _ from b15_v199 m ρ c,
    show V15 m ρ c main_arg8 = _ from Keep.args15 m ρ c main_arg8 (by decide),
    show V15 m ρ c main_v216 = _ from b15_v216 m ρ c,
    show V15 m ρ c main_arg10 = _ from Keep.args15 m ρ c main_arg10 (by decide),
    show V15 m ρ c main_v217 = _ from b15_v217 m ρ c]
  exact (Cert.ReferenceIdeal.Stages.head0_eq _ _ _ _ _ _ _ _ _ _ _ _ _ _ _ _ _ _ _ _ _ _).symm
theorem b16_v220_1 : W16 m ρ c (Proc.devRef .tc main_v220_1) = (val_main_v282 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  refine (W16_arr m ρ c 10).trans ((Region7.out10 (V15 m ρ) c).trans ?_)
  rw [show V15 m ρ c main_v199 = _ from b15_v199 m ρ c,
    show V15 m ρ c main_arg12 = _ from Keep.args15 m ρ c main_arg12 (by decide),
    show V15 m ρ c main_v218 = _ from b15_v218 m ρ c,
    show V15 m ρ c main_arg14 = _ from Keep.args15 m ρ c main_arg14 (by decide),
    show V15 m ρ c main_v219 = _ from b15_v219 m ρ c]
  exact (Cert.ReferenceIdeal.Stages.head1_eq _ _ _ _ _ _ _ _ _ _ _ _ _ _ _ _ _ _ _ _ _ _).symm

/-- The first result array after the run is the reference's first result of the same arguments. -/
theorem result0 : W17 m ρ c (Proc.devRef .tc main_v221) = (val_main_v273 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  show StableHlo.after hostOps8 (W16 m ρ c) (Proc.devRef .tc main_v221) = _
  after_results
  rw [b16_v220_0 m ρ c]
  rfl
/-- The second result array after the run is the reference's second result of the same arguments. -/
theorem result1 : W17 m ρ c (Proc.devRef .tc main_v222) = (val_main_v283 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  show StableHlo.after hostOps8 (W16 m ρ c) (Proc.devRef .tc main_v222) = _
  after_results
  rw [b16_v220_1 m ρ c]
  rfl

end Cert.KernelIdeal.Fold

end
-- ==== Proof.lean ====
/-
  The certificate of a two-layer heterogeneous graph network (transactions, users, merchants; four edge relations) with
  two prediction heads on the transaction nodes.

  Both programs compute, on the extended reals: the projection of the transaction features; twice, for each relation,
  the mean of the source features over the edges arriving at each destination node, and per node kind the dense update
  of that mean and of the node's own features (the transaction update the mean of two relations' updates), followed by
  the positive part; and two two-layer heads on the final transaction features.  The kernel program computes the
  neighbourhood means with the same host operations as the reference and every dense layer in a tiled kernel region, row
  block by row block, with the sums grouped as the reference groups them; at the ideal instance a change of float
  format is the identity and a block matrix product into a zero accumulator is the plain sum, so each region's output
  array is, entry by entry, what the reference's whole-array operations give (`Spec`, the region modules and
  `RefStages`), and walking @main segment by segment (`Fold`) identifies the two result arrays with the
  reference's.  No law of the extended reals is used beyond the definitions, and the precondition is not needed for
  the values.  The three frames are the generated ones (the reference's is its run with the results dropped), and
  the idealization rewrote no operation.
-/
import proofs.«106822_j76312978915563_2_alg».proof.Defs
import proofs.«106822_j76312978915563_2_alg».proof.Proof.Gen.Kernel
import proofs.«106822_j76312978915563_2_alg».proof.Proof.Gen.Kernel.Skeleton
import proofs.«106822_j76312978915563_2_alg».proof.Proof.Gen.Kernel.Launch
import proofs.«106822_j76312978915563_2_alg».proof.Proof.Gen.Kernel.Points
import proofs.«106822_j76312978915563_2_alg».proof.Proof.Gen.Kernel.Frame
import proofs.«106822_j76312978915563_2_alg».proof.Proof.Gen.KernelIdeal
import proofs.«106822_j76312978915563_2_alg».proof.Proof.Gen.KernelIdeal.Skeleton
import proofs.«106822_j76312978915563_2_alg».proof.Proof.Gen.KernelIdeal.Launch
import proofs.«106822_j76312978915563_2_alg».proof.Proof.Gen.KernelIdeal.Points
import proofs.«106822_j76312978915563_2_alg».proof.Proof.Gen.KernelIdeal.Frame
import proofs.«106822_j76312978915563_2_alg».proof.Proof.Gen.ReferenceIdeal
import proofs.«106822_j76312978915563_2_alg».proof.Proof.Gen.Pre_finite_inputs
import proofs.«106822_j76312978915563_2_alg».proof.Proof.KernelRun
import proofs.«106822_j76312978915563_2_alg».proof.Proof.Fold
import proofs.«106822_j76312978915563_2_alg».proof.Proof.RefRun
import proofs.«106822_j76312978915563_2_alg».proof.Proof.RefRead
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs run; the kernel program's two result arrays end at the last
    boundary's contents, which are the reference's two stages of the kernel's arguments (`Fold.result0`,
    `Fold.result1`), and the reference's results are those stages of its own, equal, arguments. -/
theorem algebraic : Cert.algebraic_KernelIdeal_ReferenceIdeal := by
  intro m ρ m' ρ' _ hagree
  refine ⟨_, _, Cert.KernelIdeal.Results.run (F := Ideal) m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨h0, h1, h2, h3, h4, h5, h6, h7, h8, h9, h10, h11, h12, h13, h14, h15, h16, h17, h18, h19, h20, h21, h22, h23⟩ := hagree c
    rw [Cert.ReferenceIdeal.ReadP.val_main_v273_eq, Cert.KernelIdeal.Fold.result0 m ρ c, h0, h1, h2, h3, h4, h5, h6, h7, h8, h9, h10, h11, h16, h17, h18, h19, h20, h21, h22, h23]
  · obtain ⟨h0, h1, h2, h3, h4, h5, h6, h7, h8, h9, h10, h11, h12, h13, h14, h15, h16, h17, h18, h19, h20, h21, h22, h23⟩ := hagree c
    rw [Cert.ReferenceIdeal.ReadP.val_main_v283_eq, Cert.KernelIdeal.Fold.result1 m ρ c, h0, h1, h2, h3, h4, h5, h6, h7, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
